-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v120)) (v1 : (c : Dev Cert.KernelIdeal.nD) → Buf (Elt Ideal) ((c.tc : Thread Cert.KernelIdeal.nD Cert.KernelIdeal.τ).loc Cert.KernelIdeal.main_v127)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v120) = v0 c
          ∧ r.2.mem ((c.tc : Thread Cert.KernelIdeal.nD Cert.KernelIdeal.τ).loc Cert.KernelIdeal.main_v127) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v144) = v0 c
          ∧ r.2.mem ((c.tc : Thread Cert.ReferenceIdeal.nD Cert.ReferenceIdeal.τ).loc Cert.ReferenceIdeal.main_v154) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x64 : Shape := ⟨2, ![128, 64]⟩
abbrev S2x64x1024 : Shape := ⟨3, ![2, 64, 1024]⟩
abbrev S10000x1024 : Shape := ⟨2, ![10000, 1024]⟩
abbrev S2x1024x1024 : Shape := ⟨3, ![2, 1024, 1024]⟩
abbrev S2x1024 : Shape := ⟨2, ![2, 1024]⟩
abbrev S10000 : Shape := ⟨1, ![10000]⟩
abbrev S_ : Shape := ⟨0, ![]⟩

class Facts : Prop where
  bcast_S_S2x64x1024 : S_.BroadcastsInDim S2x64x1024 (![] : Fin 0 → Fin S2x64x1024.rank)
  reducesTo_S2x64x1024_S_d0_1_2 : S2x64x1024.ReducesTo [0, 1, 2] S_
  h_S_ : 0 < S_.numel
  bcast_S_S10000x1024 : S_.BroadcastsInDim S10000x1024 (![] : Fin 0 → Fin S10000x1024.rank)
  reducesTo_S10000x1024_S_d0_1 : S10000x1024.ReducesTo [0, 1] S_
  bcast_S_S2x1024x1024 : S_.BroadcastsInDim S2x1024x1024 (![] : Fin 0 → Fin S2x1024x1024.rank)
  reducesTo_S2x1024x1024_S_d0_1_2 : S2x1024x1024.ReducesTo [0, 1, 2] S_
  bcast_S_S2x1024 : S_.BroadcastsInDim S2x1024 (![] : Fin 0 → Fin S2x1024.rank)
  reducesTo_S2x1024_S_d0_1 : S2x1024.ReducesTo [0, 1] S_
  bcast_S_S10000 : S_.BroadcastsInDim S10000 (![] : Fin 0 → Fin S10000.rank)
  reducesTo_S10000_S_d0 : S10000.ReducesTo [0] S_

variable [Facts]

def fn_part2 {F : FTy → Type} [FloatOps F] (main_arg8 : FVec F S2x1024 .f32) (main_arg9 : FVec F S10000x1024 .f32) (main_arg10 : FVec F S10000 .f32) (main_v33 : IVec S_ 1) : IVec S_ 1 :=
  let main_v34 : FVec F S2x1024 .f32 := Host.absf main_arg8
  let main_cst_12 : FVec F S_ .f32 := constant S_ .f32 0x7F800000#32
  let main_v35 : FVec F S2x1024 .f32 := broadcastInDim S2x1024 ![] bcast_S_S2x1024 main_cst_12
  let main_v36 : IVec S2x1024 1 := cmpf .olt main_v34 main_v35
  let main_c_13 : IVec S_ 1 := constantI S_ 1 1#1
  let main_v37 : IVec S_ 1 := (fun x v => Host.reduce IntOp.andi x v reducesTo_S2x1024_S_d0_1 h_S_) main_v36 main_c_13
  let main_v38 : IVec S_ 1 := andi main_v33 main_v37
  let main_v39 : FVec F S10000x1024 .f32 := Host.absf main_arg9
  let main_cst_14 : FVec F S_ .f32 := constant S_ .f32 0x7F800000#32
  let main_v40 : FVec F S10000x1024 .f32 := broadcastInDim S10000x1024 ![] bcast_S_S10000x1024 main_cst_14
  let main_v41 : IVec S10000x1024 1 := cmpf .olt main_v39 main_v40
  let main_c_15 : IVec S_ 1 := constantI S_ 1 1#1
  let main_v42 : IVec S_ 1 := (fun x v => Host.reduce IntOp.andi x v reducesTo_S10000x1024_S_d0_1 h_S_) main_v41 main_c_15
  let main_v43 : IVec S_ 1 := andi main_v38 main_v42
  let main_v44 : FVec F S10000 .f32 := Host.absf main_arg10
  let main_cst_16 : FVec F S_ .f32 := constant S_ .f32 0x7F800000#32
  let main_v45 : FVec F S10000 .f32 := broadcastInDim S10000 ![] bcast_S_S10000 main_cst_16
  let main_v46 : IVec S10000 1 := cmpf .olt main_v44 main_v45
  let main_c_17 : IVec S_ 1 := constantI S_ 1 1#1
  let main_v47 : IVec S_ 1 := (fun x v => Host.reduce IntOp.andi x v reducesTo_S10000_S_d0 h_S_) main_v46 main_c_17
  let main_v48 : IVec S_ 1 := andi main_v43 main_v47
  main_v48

def fn_part1 {F : FTy → Type} [FloatOps F] (main_arg5 : FVec F S2x1024x1024 .f32) (main_arg6 : FVec F S2x1024 .f32) (main_arg7 : FVec F S2x1024x1024 .f32) (main_arg8 : FVec F S2x1024 .f32) (main_arg9 : FVec F S10000x1024 .f32) (main_arg10 : FVec F S10000 .f32) (main_v13 : IVec S_ 1) (main_v16 : IVec S2x1024 1) : IVec S_ 1 :=
  let main_c_5 : IVec S_ 1 := constantI S_ 1 1#1
  let main_v17 : IVec S_ 1 := (fun x v => Host.reduce IntOp.andi x v reducesTo_S2x1024_S_d0_1 h_S_) main_v16 main_c_5
  let main_v18 : IVec S_ 1 := andi main_v13 main_v17
  let main_v19 : FVec F S2x1024x1024 .f32 := Host.absf main_arg5
  let main_cst_6 : FVec F S_ .f32 := constant S_ .f32 0x7F800000#32
  let main_v20 : FVec F S2x1024x1024 .f32 := broadcastInDim S2x1024x1024 ![] bcast_S_S2x1024x1024 main_cst_6
  let main_v21 : IVec S2x1024x1024 1 := cmpf .olt main_v19 main_v20
  let main_c_7 : IVec S_ 1 := constantI S_ 1 1#1
  let main_v22 : IVec S_ 1 := (fun x v => Host.reduce IntOp.andi x v reducesTo_S2x1024x1024_S_d0_1_2 h_S_) main_v21 main_c_7
  let main_v23 : IVec S_ 1 := andi main_v18 main_v22
  let main_v24 : FVec F S2x1024 .f32 := Host.absf main_arg6
  let main_cst_8 : FVec F S_ .f32 := constant S_ .f32 0x7F800000#32
  let main_v25 : FVec F S2x1024 .f32 := broadcastInDim S2x1024 ![] bcast_S_S2x1024 main_cst_8
  let main_v26 : IVec S2x1024 1 := cmpf .olt main_v24 main_v25
  let main_c_9 : IVec S_ 1 := constantI S_ 1 1#1
  let main_v27 : IVec S_ 1 := (fun x v => Host.reduce IntOp.andi x v reducesTo_S2x1024_S_d0_1 h_S_) main_v26 main_c_9
  let main_v28 : IVec S_ 1 := andi main_v23 main_v27
  let main_v29 : FVec F S2x1024x1024 .f32 := Host.absf main_arg7
  let main_cst_10 : FVec F S_ .f32 := constant S_ .f32 0x7F800000#32
  let main_v30 : FVec F S2x1024x1024 .f32 := broadcastInDim S2x1024x1024 ![] bcast_S_S2x1024x1024 main_cst_10
  let main_v31 : IVec S2x1024x1024 1 := cmpf .olt main_v29 main_v30
  let main_c_11 : IVec S_ 1 := constantI S_ 1 1#1
  let main_v32 : IVec S_ 1 := (fun x v => Host.reduce IntOp.andi x v reducesTo_S2x1024x1024_S_d0_1_2 h_S_) main_v31 main_c_11
  let main_v33 : IVec S_ 1 := andi main_v28 main_v32
  fn_part2 (F := F) main_arg8 main_arg9 main_arg10 main_v33

def fn {F : FTy → Type} [FloatOps F] (main_arg0 : IVec S128x64 32) (main_arg1 : FVec F S2x64x1024 .f32) (main_arg2 : FVec F S10000x1024 .f32) (main_arg3 : FVec F S2x1024x1024 .f32) (main_arg4 : FVec F S2x1024 .f32) (main_arg5 : FVec F S2x1024x1024 .f32) (main_arg6 : FVec F S2x1024 .f32) (main_arg7 : FVec F S2x1024x1024 .f32) (main_arg8 : FVec F S2x1024 .f32) (main_arg9 : FVec F S10000x1024 .f32) (main_arg10 : FVec F S10000 .f32) : IVec S_ 1 :=
  let main_v0 : FVec F S2x64x1024 .f32 := Host.absf main_arg1
  let main_cst : FVec F S_ .f32 := constant S_ .f32 0x7F800000#32
  let main_v1 : FVec F S2x64x1024 .f32 := broadcastInDim S2x64x1024 ![] bcast_S_S2x64x1024 main_cst
  let main_v2 : IVec S2x64x1024 1 := cmpf .olt main_v0 main_v1
  let main_c : IVec S_ 1 := constantI S_ 1 1#1
  let main_v3 : IVec S_ 1 := (fun x v => Host.reduce IntOp.andi x v reducesTo_S2x64x1024_S_d0_1_2 h_S_) main_v2 main_c
  let main_v4 : FVec F S10000x1024 .f32 := Host.absf main_arg2
  let main_cst_0 : FVec F S_ .f32 := constant S_ .f32 0x7F800000#32
  let main_v5 : FVec F S10000x1024 .f32 := broadcastInDim S10000x1024 ![] bcast_S_S10000x1024 main_cst_0
  let main_v6 : IVec S10000x1024 1 := cmpf .olt main_v4 main_v5
  let main_c_1 : IVec S_ 1 := constantI S_ 1 1#1
  let main_v7 : IVec S_ 1 := (fun x v => Host.reduce IntOp.andi x v reducesTo_S10000x1024_S_d0_1 h_S_) main_v6 main_c_1
  let main_v8 : IVec S_ 1 := andi main_v3 main_v7
  let main_v9 : FVec F S2x1024x1024 .f32 := Host.absf main_arg3
  let main_cst_2 : FVec F S_ .f32 := constant S_ .f32 0x7F800000#32
  let main_v10 : FVec F S2x1024x1024 .f32 := broadcastInDim S2x1024x1024 ![] bcast_S_S2x1024x1024 main_cst_2
  let main_v11 : IVec S2x1024x1024 1 := cmpf .olt main_v9 main_v10
  let main_c_3 : IVec S_ 1 := constantI S_ 1 1#1
  let main_v12 : IVec S_ 1 := (fun x v => Host.reduce IntOp.andi x v reducesTo_S2x1024x1024_S_d0_1_2 h_S_) main_v11 main_c_3
  let main_v13 : IVec S_ 1 := andi main_v8 main_v12
  let main_v14 : FVec F S2x1024 .f32 := Host.absf main_arg4
  let main_cst_4 : FVec F S_ .f32 := constant S_ .f32 0x7F800000#32
  let main_v15 : FVec F S2x1024 .f32 := broadcastInDim S2x1024 ![] bcast_S_S2x1024 main_cst_4
  let main_v16 : IVec S2x1024 1 := cmpf .olt main_v14 main_v15
  fn_part1 (F := F) main_arg5 main_arg6 main_arg7 main_arg8 main_arg9 main_arg10 main_v13 main_v16
-- ==== Kernel.lean ====
abbrev S128x64 : Shape := ⟨2, ![128, 64]⟩
abbrev S2x64x1024 : Shape := ⟨3, ![2, 64, 1024]⟩
abbrev S10000x1024 : Shape := ⟨2, ![10000, 1024]⟩
abbrev S2x1024x1024 : Shape := ⟨3, ![2, 1024, 1024]⟩
abbrev S2x1024 : Shape := ⟨2, ![2, 1024]⟩
abbrev S10000 : Shape := ⟨1, ![10000]⟩
abbrev S1x64 : Shape := ⟨2, ![1, 64]⟩
abbrev S64 : Shape := ⟨1, ![64]⟩
abbrev S_ : Shape := ⟨0, ![]⟩
abbrev S64x1 : Shape := ⟨2, ![64, 1]⟩
abbrev S64x1024 : Shape := ⟨2, ![64, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S1x64x1024 : Shape := ⟨3, ![1, 64, 1024]⟩
abbrev S128x64x1 : Shape := ⟨3, ![128, 64, 1]⟩
abbrev S128x64x1024 : Shape := ⟨3, ![128, 64, 1024]⟩
abbrev S127x64x1024 : Shape := ⟨3, ![127, 64, 1024]⟩
abbrev S128x2x64x1024 : Shape := ⟨4, ![128, 2, 64, 1024]⟩
abbrev S8x64x1024 : Shape := ⟨3, ![8, 64, 1024]⟩
abbrev S8x2x64x1024 : Shape := ⟨4, ![8, 2, 64, 1024]⟩
abbrev S512x1024 : Shape := ⟨2, ![512, 1024]⟩
abbrev S1x1x1024 : Shape := ⟨3, ![1, 1, 1024]⟩
abbrev S8x1x64x1024 : Shape := ⟨4, ![8, 1, 64, 1024]⟩
abbrev S1024x10000 : Shape := ⟨2, ![1024, 10000]⟩
abbrev S1024x10240 : Shape := ⟨2, ![1024, 10240]⟩
abbrev S10240 : Shape := ⟨1, ![10240]⟩
abbrev S1x10240 : Shape := ⟨2, ![1, 10240]⟩
abbrev S128x64x10240 : Shape := ⟨3, ![128, 64, 10240]⟩
abbrev S1024x2048 : Shape := ⟨2, ![1024, 2048]⟩
abbrev S1x2048 : Shape := ⟨2, ![1, 2048]⟩
abbrev S8x64x2048 : Shape := ⟨3, ![8, 64, 2048]⟩
abbrev S512x2048 : Shape := ⟨2, ![512, 2048]⟩
abbrev S128x64x10000 : Shape := ⟨3, ![128, 64, 10000]⟩
abbrev S127x2x64x1024 : Shape := ⟨4, ![127, 2, 64, 1024]⟩
abbrev S1x2x64x1024 : Shape := ⟨4, ![1, 2, 64, 1024]⟩
abbrev S256x64x1024 : Shape := ⟨3, ![256, 64, 1024]⟩

abbrev nBuf : Space → Nat
  | .hbm => 149
  | .vmem => 19
  | .smem => 0
  | _ => 0

abbrev hbmTy0_0 (i : Nat) : BufTy := match i % 128 with
  | 0 => ⟨S128x64, .i32⟩
  | 1 => ⟨S2x64x1024, .f32⟩
  | 2 => ⟨S10000x1024, .f32⟩
  | 3 => ⟨S2x1024x1024, .f32⟩
  | 4 => ⟨S2x1024, .f32⟩
  | 5 => ⟨S2x1024x1024, .f32⟩
  | 6 => ⟨S2x1024, .f32⟩
  | 7 => ⟨S2x1024x1024, .f32⟩
  | 8 => ⟨S2x1024, .f32⟩
  | 9 => ⟨S10000x1024, .f32⟩
  | 10 => ⟨S10000, .f32⟩
  | 11 => ⟨S1x64, .i32⟩
  | 12 => ⟨S64, .i32⟩
  | 13 => ⟨S_, .i32⟩
  | 14 => ⟨S64, .i32⟩
  | 15 => ⟨S64, .i1⟩
  | 16 => ⟨S_, .i32⟩
  | 17 => ⟨S64, .i32⟩
  | 18 => ⟨S64, .i32⟩
  | 19 => ⟨S64, .i32⟩
  | 20 => ⟨S64x1, .i32⟩
  | 21 => ⟨S64x1024, .f32⟩
  | 22 => ⟨S1x1024x1024, .f32⟩
  | 23 => ⟨S1024x1024, .f32⟩
  | 24 => ⟨S1024x1024, .f32⟩
  | 25 => ⟨S64x1024, .f32⟩
  | 26 => ⟨S1x1024, .f32⟩
  | 27 => ⟨S1024, .f32⟩
  | 28 => ⟨S1x1024, .f32⟩
  | 29 => ⟨S64x1024, .f32⟩
  | 30 => ⟨S64x1024, .f32⟩
  | 31 => ⟨S1x64x1024, .f32⟩
  | 32 => ⟨S64x1024, .f32⟩
  | 33 => ⟨S1x1024x1024, .f32⟩
  | 34 => ⟨S1024x1024, .f32⟩
  | 35 => ⟨S1024x1024, .f32⟩
  | 36 => ⟨S64x1024, .f32⟩
  | 37 => ⟨S64x1024, .f32⟩
  | 38 => ⟨S1x1024, .f32⟩
  | 39 => ⟨S1024, .f32⟩
  | 40 => ⟨S1x1024, .f32⟩
  | 41 => ⟨S64x1024, .f32⟩
  | 42 => ⟨S64x1024, .f32⟩
  | 43 => ⟨S64x1024, .f32⟩
  | 44 => ⟨S1x1024x1024, .f32⟩
  | 45 => ⟨S1024x1024, .f32⟩
  | 46 => ⟨S1024x1024, .f32⟩
  | 47 => ⟨S64x1024, .f32⟩
  | 48 => ⟨S1x1024, .f32⟩
  | 49 => ⟨S1024, .f32⟩
  | 50 => ⟨S1x1024, .f32⟩
  | 51 => ⟨S64x1024, .f32⟩
  | 52 => ⟨S64x1024, .f32⟩
  | 53 => ⟨S64x1024, .f32⟩
  | 54 => ⟨S1x1024x1024, .f32⟩
  | 55 => ⟨S1024x1024, .f32⟩
  | 56 => ⟨S1024x1024, .f32⟩
  | 57 => ⟨S64x1024, .f32⟩
  | 58 => ⟨S1x1024, .f32⟩
  | 59 => ⟨S1024, .f32⟩
  | 60 => ⟨S1x1024, .f32⟩
  | 61 => ⟨S64x1024, .f32⟩
  | 62 => ⟨S64x1024, .f32⟩
  | 63 => ⟨S1x64x1024, .f32⟩
  | 64 => ⟨S64x1024, .f32⟩
  | 65 => ⟨S1x1024x1024, .f32⟩
  | 66 => ⟨S1024x1024, .f32⟩
  | 67 => ⟨S1024x1024, .f32⟩
  | 68 => ⟨S64x1024, .f32⟩
  | 69 => ⟨S64x1024, .f32⟩
  | 70 => ⟨S1x1024, .f32⟩
  | 71 => ⟨S1024, .f32⟩
  | 72 => ⟨S1x1024, .f32⟩
  | 73 => ⟨S64x1024, .f32⟩
  | 74 => ⟨S64x1024, .f32⟩
  | 75 => ⟨S64x1024, .f32⟩
  | 76 => ⟨S1x1024x1024, .f32⟩
  | 77 => ⟨S1024x1024, .f32⟩
  | 78 => ⟨S1024x1024, .f32⟩
  | 79 => ⟨S64x1024, .f32⟩
  | 80 => ⟨S1x1024, .f32⟩
  | 81 => ⟨S1024, .f32⟩
  | 82 => ⟨S1x1024, .f32⟩
  | 83 => ⟨S64x1024, .f32⟩
  | 84 => ⟨S64x1024, .f32⟩
  | 85 => ⟨S64x1024, .f32⟩
  | 86 => ⟨S64x1024, .bf16⟩
  | 87 => ⟨S1x1024x1024, .f32⟩
  | 88 => ⟨S1024x1024, .f32⟩
  | 89 => ⟨S1024x1024, .f32⟩
  | 90 => ⟨S64x1024, .f32⟩
  | 91 => ⟨S1x1024, .f32⟩
  | 92 => ⟨S1024, .f32⟩
  | 93 => ⟨S1x1024, .f32⟩
  | 94 => ⟨S64x1024, .f32⟩
  | 95 => ⟨S64x1024, .f32⟩
  | 96 => ⟨S1x1024x1024, .f32⟩
  | 97 => ⟨S1024x1024, .f32⟩
  | 98 => ⟨S1024x1024, .f32⟩
  | 99 => ⟨S64x1024, .f32⟩
  | 100 => ⟨S1x1024, .f32⟩
  | 101 => ⟨S1024, .f32⟩
  | 102 => ⟨S1x1024, .f32⟩
  | 103 => ⟨S64x1024, .f32⟩
  | 104 => ⟨S64x1024, .f32⟩
  | 105 => ⟨S1x64x1024, .f32⟩
  | 106 => ⟨S1x64x1024, .f32⟩
  | 107 => ⟨S2x64x1024, .f32⟩
  | 108 => ⟨S10000x1024, .bf16⟩
  | 109 => ⟨S_, .i32⟩
  | 110 => ⟨S128x64, .i32⟩
  | 111 => ⟨S128x64, .i1⟩
  | 112 => ⟨S_, .i32⟩
  | 113 => ⟨S128x64, .i32⟩
  | 114 => ⟨S128x64, .i32⟩
  | 115 => ⟨S128x64, .i32⟩
  | 116 => ⟨S128x64x1, .i32⟩
  | 117 => ⟨S128x64x1024, .bf16⟩
  | 118 => ⟨S127x64x1024, .bf16⟩
  | 119 => ⟨S_, .bf16⟩
  | 120 => ⟨S1x64x1024, .bf16⟩
  | 121 => ⟨S128x64x1024, .bf16⟩
  | 122 => ⟨S2x1024x1024, .f32⟩
  | 123 => ⟨S2x1024x1024, .bf16⟩
  | 124 => ⟨S2x1024x1024, .f32⟩
  | 125 => ⟨S2x1024x1024, .bf16⟩
  | 126 => ⟨S128x2x64x1024, .f32⟩
  | 127 => ⟨S128x64x1024, .bf16⟩
  | _ => ⟨S128x64, .i32⟩

abbrev hbmTy0_1 (i : Nat) : BufTy := match i % 128 with
  | 0 => ⟨S1x64x1024, .bf16⟩
  | 1 => ⟨S127x64x1024, .bf16⟩
  | 2 => ⟨S128x64x1024, .bf16⟩
  | 3 => ⟨S1024x10000, .f32⟩
  | 4 => ⟨S1024x10000, .bf16⟩
  | 5 => ⟨S_, .i32⟩
  | 6 => ⟨S_, .bf16⟩
  | 7 => ⟨S1024x10240, .bf16⟩
  | 8 => ⟨S_, .i32⟩
  | 9 => ⟨S_, .f32⟩
  | 10 => ⟨S10240, .f32⟩
  | 11 => ⟨S1x10240, .f32⟩
  | 12 => ⟨S128x64x10240, .f32⟩
  | 13 => ⟨S128x64x10000, .f32⟩
  | 14 => ⟨S127x2x64x1024, .f32⟩
  | 15 => ⟨S1x64x1024, .f32⟩
  | 16 => ⟨S1x64x1024, .f32⟩
  | 17 => ⟨S2x64x1024, .f32⟩
  | 18 => ⟨S1x2x64x1024, .f32⟩
  | 19 => ⟨S128x2x64x1024, .f32⟩
  | 20 => ⟨S256x64x1024, .f32⟩
  | _ => ⟨S128x64, .i32⟩

abbrev hbmTy (i : Nat) : BufTy := match i / 128 with
  | 0 => hbmTy0_0 i
  | 1 => hbmTy0_1 i
  | _ => ⟨S128x64, .i32⟩

abbrev bufTy : (tb : Table) → Fin (tcTables nBuf tb) → BufTy
  | .hbm, ⟨i, _⟩ => hbmTy i
  | .local _ .vmem, ⟨0, _⟩ => ⟨S8x64x1024, .bf16⟩
  | .local _ .vmem, ⟨1, _⟩ => ⟨S8x64x1024, .bf16⟩
  | .local _ .vmem, ⟨2, _⟩ => ⟨S2x1024x1024, .bf16⟩
  | .local _ .vmem, ⟨3, _⟩ => ⟨S2x1024, .f32⟩
  | .local _ .vmem, ⟨4, _⟩ => ⟨S2x64x1024, .f32⟩
  | .local _ .vmem, ⟨5, _⟩ => ⟨S2x1024x1024, .bf16⟩
  | .local _ .vmem, ⟨6, _⟩ => ⟨S2x1024, .f32⟩
  | .local _ .vmem, ⟨7, _⟩ => ⟨S8x2x64x1024, .f32⟩
  | .local _ .vmem, ⟨8, _⟩ => ⟨S8x2x64x1024, .f32⟩
  | .local _ .vmem, ⟨9, _⟩ => ⟨S8x64x1024, .bf16⟩
  | .local _ .vmem, ⟨10, _⟩ => ⟨S8x64x1024, .bf16⟩
  | .local _ .vmem, ⟨11, _⟩ => ⟨S8x64x1024, .bf16⟩
  | .local _ .vmem, ⟨12, _⟩ => ⟨S8x64x1024, .bf16⟩
  | .local _ .vmem, ⟨13, _⟩ => ⟨S1024x2048, .bf16⟩
  | .local _ .vmem, ⟨14, _⟩ => ⟨S1024x2048, .bf16⟩
  | .local _ .vmem, ⟨15, _⟩ => ⟨S1x2048, .f32⟩
  | .local _ .vmem, ⟨16, _⟩ => ⟨S1x2048, .f32⟩
  | .local _ .vmem, ⟨17, _⟩ => ⟨S8x64x2048, .f32⟩
  | .local _ .vmem, ⟨18, _⟩ => ⟨S8x64x2048, .f32⟩
  | _, _ => ⟨S128x64, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_c_1 : Ref sig .tc := ⟨.hbm, 109, rfl⟩
abbrev main_v96 : Ref sig .tc := ⟨.hbm, 110, rfl⟩
abbrev main_v97 : Ref sig .tc := ⟨.hbm, 111, rfl⟩
abbrev main_c_2 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_cst : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110_0 : Ref sig .tc := ⟨.hbm, 126, rfl⟩
abbrev main_v110_1 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_c_3 : Ref sig .tc := ⟨.hbm, 133, rfl⟩
abbrev main_call0_v0 : Ref sig .tc := ⟨.hbm, 134, rfl⟩
abbrev main_v116 : Ref sig .tc := ⟨.hbm, 135, rfl⟩
abbrev main_c_4 : Ref sig .tc := ⟨.hbm, 136, rfl⟩
abbrev main_call1_v0 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x64x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8x2x64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x64x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![5, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage1_0 : Fin 2 → Memref sig .tc .vmem S8x64x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1024x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S8x64x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  slices_S128x64_S1x64_0_0 : S128x64.Slices ![0, 0] S1x64
  shapeCasts_S1x64_S64 : S1x64.ShapeCasts S64
  bcast_S_S64 : S_.BroadcastsInDim S64 (![] : Fin 0 → Fin S64.rank)
  bcast_S64_S64x1_0 : S64.BroadcastsInDim S64x1 (![0] : Fin 1 → Fin S64x1.rank)
  slices_S2x1024x1024_S1x1024x1024_0_0_0 : S2x1024x1024.Slices ![0, 0, 0] S1x1024x1024
  shapeCasts_S1x1024x1024_S1024x1024 : S1x1024x1024.ShapeCasts S1024x1024
  transposes_S1024x1024_S1024x1024_1_0 : S1024x1024.Transposes [1, 0] S1024x1024
  slices_S2x1024_S1x1024_0_0 : S2x1024.Slices ![0, 0] S1x1024
  shapeCasts_S1x1024_S1024 : S1x1024.ShapeCasts S1024
  bcast_S1024_S1x1024_1 : S1024.BroadcastsInDim S1x1024 (![1] : Fin 1 → Fin S1x1024.rank)
  bcast_S1x1024_S64x1024_0_1 : S1x1024.BroadcastsInDim S64x1024 (![0, 1] : Fin 2 → Fin S64x1024.rank)
  slices_S2x64x1024_S1x64x1024_0_0_0 : S2x64x1024.Slices ![0, 0, 0] S1x64x1024
  shapeCasts_S1x64x1024_S64x1024 : S1x64x1024.ShapeCasts S64x1024
  slices_S2x1024x1024_S1x1024x1024_1_0_0 : S2x1024x1024.Slices ![1, 0, 0] S1x1024x1024
  slices_S2x1024_S1x1024_1_0 : S2x1024.Slices ![1, 0] S1x1024
  slices_S2x64x1024_S1x64x1024_1_0_0 : S2x64x1024.Slices ![1, 0, 0] S1x64x1024
  bitsLt_bf16_f32 : FTy.bits .bf16 < FTy.bits .f32
  bcast_S64x1024_S1x64x1024_1_2 : S64x1024.BroadcastsInDim S1x64x1024 (![1, 2] : Fin 2 → Fin S1x64x1024.rank)
  concatenates_S1x64x1024_S1x64x1024_S2x64x1024_d0 : Shape.Concatenates [S1x64x1024, S1x64x1024] S2x64x1024 0
  bcast_S_S128x64 : S_.BroadcastsInDim S128x64 (![] : Fin 0 → Fin S128x64.rank)
  bcast_S128x64_S128x64x1_0_1 : S128x64.BroadcastsInDim S128x64x1 (![0, 1] : Fin 2 → Fin S128x64x1.rank)
  slices_S128x64x1024_S127x64x1024_1_0_0 : S128x64x1024.Slices ![1, 0, 0] S127x64x1024
  bcast_S_S1x64x1024 : S_.BroadcastsInDim S1x64x1024 (![] : Fin 0 → Fin S1x64x1024.rank)
  concatenates_S127x64x1024_S1x64x1024_S128x64x1024_d0 : Shape.Concatenates [S127x64x1024, S1x64x1024] S128x64x1024 0
  transposes_S2x1024x1024_S2x1024x1024_0_2_1 : S2x1024x1024.Transposes [0, 2, 1] S2x1024x1024
  inb_S8x64x1024_S8x64x1024_0_0_0 : ∀ a, (![0, 0, 0] : Fin 3 → Nat) a + S8x64x1024.size a ≤ S8x64x1024.size a
  h_S8x64x1024 : 0 < S8x64x1024.numel
  shapeCasts_S8x64x1024_S8x64x1024 : S8x64x1024.ShapeCasts S8x64x1024
  inb_S2x1024x1024_S1x1024x1024_0_0_0 : ∀ a, (![0, 0, 0] : Fin 3 → Nat) a + S1x1024x1024.size a ≤ S2x1024x1024.size a
  h_S1x1024x1024 : 0 < S1x1024x1024.numel
  inb_S2x1024_S1x1024_0_0 : ∀ a, (![0, 0] : Fin 2 → Nat) a + S1x1024.size a ≤ S2x1024.size a
  h_S1x1024 : 0 < S1x1024.numel
  inb_S2x64x1024_S1x64x1024_0_0_0 : ∀ a, (![0, 0, 0] : Fin 3 → Nat) a + S1x64x1024.size a ≤ S2x64x1024.size a
  h_S1x64x1024 : 0 < S1x64x1024.numel
  shapeCasts_S8x64x1024_S512x1024 : S8x64x1024.ShapeCasts S512x1024
  shapeCasts_S512x1024_S8x64x1024 : S512x1024.ShapeCasts S8x64x1024
  shapeCasts_S1024_S1x1x1024 : S1024.ShapeCasts S1x1x1024
  broadcasts_S1x1x1024_S8x64x1024 : S1x1x1024.Broadcasts S8x64x1024
  shapeCasts_S64x1024_S1x64x1024 : S64x1024.ShapeCasts S1x64x1024
  broadcasts_S1x64x1024_S8x64x1024 : S1x64x1024.Broadcasts S8x64x1024
  inb_S8x2x64x1024_S8x1x64x1024_0_0_0_0 : ∀ a, (![0, 0, 0, 0] : Fin 4 → Nat) a + S8x1x64x1024.size a ≤ S8x2x64x1024.size a
  h_S8x1x64x1024 : 0 < S8x1x64x1024.numel
  shapeCasts_S8x1x64x1024_S8x64x1024 : S8x1x64x1024.ShapeCasts S8x64x1024
  shapeCasts_S8x64x1024_S8x1x64x1024 : S8x64x1024.ShapeCasts S8x1x64x1024
  inb_S2x1024x1024_S1x1024x1024_1_0_0 : ∀ a, (![1, 0, 0] : Fin 3 → Nat) a + S1x1024x1024.size a ≤ S2x1024x1024.size a
  inb_S2x1024_S1x1024_1_0 : ∀ a, (![1, 0] : Fin 2 → Nat) a + S1x1024.size a ≤ S2x1024.size a
  inb_S2x64x1024_S1x64x1024_1_0_0 : ∀ a, (![1, 0, 0] : Fin 3 → Nat) a + S1x64x1024.size a ≤ S2x64x1024.size a
  inb_S8x2x64x1024_S8x1x64x1024_0_1_0_0 : ∀ a, (![0, 1, 0, 0] : Fin 4 → Nat) a + S8x1x64x1024.size a ≤ S8x2x64x1024.size a
  packedbf16_S8x64x1024_S8x64x1024_0_0_0 : (Rect.unit (s := S8x64x1024) ![0, 0, 0] S8x64x1024.size inb_S8x64x1024_S8x64x1024_0_0_0).PackedRows (EltTy.packing .bf16)
  slices_S128x64x1024_S127x64x1024_0_0_0 : S128x64x1024.Slices ![0, 0, 0] S127x64x1024
  concatenates_S1x64x1024_S127x64x1024_S128x64x1024_d0 : Shape.Concatenates [S1x64x1024, S127x64x1024] S128x64x1024 0
  transposes_S10000x1024_S1024x10000_1_0 : S10000x1024.Transposes [1, 0] S1024x10000
  pads_S1024x10000_S1024x10240_000_02400 : S1024x10000.Pads (![0, 0] : Fin 2 → Nat) ![0, 240] ![0, 0] S1024x10240
  h_S_ : 0 < S_.numel
  pads_S10000_S10240_02400 : S10000.Pads (![0] : Fin 1 → Nat) ![240] ![0] S10240
  shapeCasts_S10240_S1x10240 : S10240.ShapeCasts S1x10240
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  shapeCasts_S512x2048_S8x64x2048 : S512x2048.ShapeCasts S8x64x2048
  inb_S8x64x2048_S8x64x2048_0_0_0 : ∀ a, (![0, 0, 0] : Fin 3 → Nat) a + S8x64x2048.size a ≤ S8x64x2048.size a
  h_S8x64x2048 : 0 < S8x64x2048.numel
  slices_S128x64x10240_S128x64x10000_0_0_0 : S128x64x10240.Slices ![0, 0, 0] S128x64x10000
  slices_S128x2x64x1024_S127x2x64x1024_0_0_0_0 : S128x2x64x1024.Slices ![0, 0, 0, 0] S127x2x64x1024
  bcast_S2x64x1024_S1x2x64x1024_1_2_3 : S2x64x1024.BroadcastsInDim S1x2x64x1024 (![1, 2, 3] : Fin 3 → Fin S1x2x64x1024.rank)
  concatenates_S1x2x64x1024_S127x2x64x1024_S128x2x64x1024_d0 : Shape.Concatenates [S1x2x64x1024, S127x2x64x1024] S128x2x64x1024 0
  shapeCasts_S128x2x64x1024_S256x64x1024 : S128x2x64x1024.ShapeCasts S256x64x1024
  gather_S10000x1024_S64x1_S64x1024_1_0_n_n_0_1_11024_wf : GatherDims.WF S10000x1024 S64x1 S64x1024 [1] [0] [] [0] [] 1 ![1, 1024]
  dot_S64x1024_S1024x1024_S64x1024_1_0_0_1_n_n_wf : DotDims.WF S64x1024 S1024x1024 S64x1024 [1] [0] [0] [1] [] []
  gather_S10000x1024_S128x64x1_S128x64x1024_2_0_n_n_0_2_11024_wf : GatherDims.WF S10000x1024 S128x64x1 S128x64x1024 [2] [0] [] [0] [] 2 ![1, 1024]
  dot_S512x1024_S1024x1024_S512x1024_1_0_0_1_n_n_wf : DotDims.WF S512x1024 S1024x1024 S512x1024 [1] [0] [0] [1] [] []
  dot_S512x1024_S1024x2048_S512x2048_1_0_0_1_n_n_wf : DotDims.WF S512x1024 S1024x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x64x1024.size a ≤ S128x64x1024.size a
  hwx0_0 : ∀ i : grid0.Coords, EltTy.bits .bf16 = 32 ∨ (Rect.block (s := S128x64x1024) S8x64x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x1024x1024.size a ≤ S2x1024x1024.size a
  hwx0_1 : ∀ i : grid0.Coords, EltTy.bits .bf16 = 32 ∨ (Rect.block (s := S2x1024x1024) S2x1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x1024.size a ≤ S2x1024.size a
  hwx0_2 : ∀ i : grid0.Coords, EltTy.bits .f32 = 32 ∨ (Rect.block (s := S2x1024) S2x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x64x1024.size a ≤ S2x64x1024.size a
  hwx0_3 : ∀ i : grid0.Coords, EltTy.bits .f32 = 32 ∨ (Rect.block (s := S2x64x1024) S2x64x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2x1024x1024.size a ≤ S2x1024x1024.size a
  hwx0_4 : ∀ i : grid0.Coords, EltTy.bits .bf16 = 32 ∨ (Rect.block (s := S2x1024x1024) S2x1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2x1024.size a ≤ S2x1024.size a
  hwx0_5 : ∀ i : grid0.Coords, EltTy.bits .f32 = 32 ∨ (Rect.block (s := S2x1024) S2x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x2x64x1024.size a ≤ S128x2x64x1024.size a
  hwx0_6 : ∀ i : grid0.Coords, EltTy.bits .f32 = 32 ∨ (Rect.block (s := S128x2x64x1024) S8x2x64x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8x64x1024.size a ≤ S128x64x1024.size a
  hwx0_7 : ∀ i : grid0.Coords, EltTy.bits .bf16 = 32 ∨ (Rect.block (s := S128x64x1024) S8x64x1024.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x64x1024.size a ≤ S128x64x1024.size a
  hwx1_0 : ∀ i : grid1.Coords, EltTy.bits .bf16 = 32 ∨ (Rect.block (s := S128x64x1024) S8x64x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x2048.size a ≤ S1024x10240.size a
  hwx1_1 : ∀ i : grid1.Coords, EltTy.bits .bf16 = 32 ∨ (Rect.block (s := S1024x10240) S1024x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x10240.size a
  hwx1_2 : ∀ i : grid1.Coords, EltTy.bits .f32 = 32 ∨ (Rect.block (s := S1x10240) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8x64x2048.size a ≤ S128x64x10240.size a
  hwx1_3 : ∀ i : grid1.Coords, EltTy.bits .f32 = 32 ∨ (Rect.block (s := S128x64x10240) S8x64x2048.size (cc1_transform_3 i) (hinb1_3 i)).WholeWords (EltTy.packing .f32)

variable [Facts₀]

def gather_S10000x1024_S64x1_S64x1024_1_0_n_n_0_1_11024 : GatherDims S10000x1024 S64x1 S64x1024 where
  offsetDims := [1]
  collapsedSliceDims := [0]
  operandBatchingDims := []
  startIndicesBatchingDims := []
  startIndexMap := [0]
  indexVectorDim := 1
  sliceSizes := ![1, 1024]
  wf := gather_S10000x1024_S64x1_S64x1024_1_0_n_n_0_1_11024_wf
def dot_S64x1024_S1024x1024_S64x1024_1_0_0_1_n_n : DotDims S64x1024 S1024x1024 S64x1024 where
  lhsContracting := [1]
  rhsContracting := [0]
  lhsNonContracting := [0]
  rhsNonContracting := [1]
  lhsBatch := []
  rhsBatch := []
  wf := dot_S64x1024_S1024x1024_S64x1024_1_0_0_1_n_n_wf
def gather_S10000x1024_S128x64x1_S128x64x1024_2_0_n_n_0_2_11024 : GatherDims S10000x1024 S128x64x1 S128x64x1024 where
  offsetDims := [2]
  collapsedSliceDims := [0]
  operandBatchingDims := []
  startIndicesBatchingDims := []
  startIndexMap := [0]
  indexVectorDim := 2
  sliceSizes := ![1, 1024]
  wf := gather_S10000x1024_S128x64x1_S128x64x1024_2_0_n_n_0_2_11024_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf

abbrev win0_0 : Pipeline.Window sig grid0 :=
  Pipeline.Window.ofSpec (Memref.whole main_v105) S8x64x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v107) S2x1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S2x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v94) S2x64x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v109) S2x1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S2x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v110_0) S8x2x64x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v110_1) S8x64x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v113) S8x64x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v116) S1024x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v118) S1x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v119) S8x64x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S128x64 : Shape := ⟨2, ![128, 64]⟩
abbrev S2x64x1024 : Shape := ⟨3, ![2, 64, 1024]⟩
abbrev S10000x1024 : Shape := ⟨2, ![10000, 1024]⟩
abbrev S2x1024x1024 : Shape := ⟨3, ![2, 1024, 1024]⟩
abbrev S2x1024 : Shape := ⟨2, ![2, 1024]⟩
abbrev S10000 : Shape := ⟨1, ![10000]⟩
abbrev S_ : Shape := ⟨0, ![]⟩
abbrev S128x64x1 : Shape := ⟨3, ![128, 64, 1]⟩
abbrev S128x64x1024 : Shape := ⟨3, ![128, 64, 1024]⟩
abbrev S1x64x1024 : Shape := ⟨3, ![1, 64, 1024]⟩
abbrev S64x1024 : Shape := ⟨2, ![64, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S1024x10000 : Shape := ⟨2, ![1024, 10000]⟩
abbrev S64x10000 : Shape := ⟨2, ![64, 10000]⟩
abbrev S1x10000 : Shape := ⟨2, ![1, 10000]⟩
abbrev S127x64x1024 : Shape := ⟨3, ![127, 64, 1024]⟩
abbrev S1x1x1024 : Shape := ⟨3, ![1, 1, 1024]⟩
abbrev S127x64x10000 : Shape := ⟨3, ![127, 64, 10000]⟩
abbrev S1x1x10000 : Shape := ⟨3, ![1, 1, 10000]⟩
abbrev S1x64x10000 : Shape := ⟨3, ![1, 64, 10000]⟩
abbrev S128x64x10000 : Shape := ⟨3, ![128, 64, 10000]⟩
abbrev S1x2x64x1024 : Shape := ⟨4, ![1, 2, 64, 1024]⟩
abbrev S1x127x64x1024 : Shape := ⟨4, ![1, 127, 64, 1024]⟩
abbrev S2x127x64x1024 : Shape := ⟨4, ![2, 127, 64, 1024]⟩
abbrev S127x2x64x1024 : Shape := ⟨4, ![127, 2, 64, 1024]⟩
abbrev S128x2x64x1024 : Shape := ⟨4, ![128, 2, 64, 1024]⟩
abbrev S256x64x1024 : Shape := ⟨3, ![256, 64, 1024]⟩

abbrev nBuf : Space → Nat
  | .hbm => 168
  | .vmem => 0
  | .smem => 0
  | _ => 0

abbrev hbmTy0_0 (i : Nat) : BufTy := match i % 128 with
  | 0 => ⟨S128x64, .i32⟩
  | 1 => ⟨S2x64x1024, .f32⟩
  | 2 => ⟨S10000x1024, .f32⟩
  | 3 => ⟨S2x1024x1024, .f32⟩
  | 4 => ⟨S2x1024, .f32⟩
  | 5 => ⟨S2x1024x1024, .f32⟩
  | 6 => ⟨S2x1024, .f32⟩
  | 7 => ⟨S2x1024x1024, .f32⟩
  | 8 => ⟨S2x1024, .f32⟩
  | 9 => ⟨S10000x1024, .f32⟩
  | 10 => ⟨S10000, .f32⟩
  | 11 => ⟨S_, .i32⟩
  | 12 => ⟨S128x64, .i32⟩
  | 13 => ⟨S128x64, .i1⟩
  | 14 => ⟨S_, .i32⟩
  | 15 => ⟨S128x64, .i32⟩
  | 16 => ⟨S128x64, .i32⟩
  | 17 => ⟨S128x64, .i32⟩
  | 18 => ⟨S128x64x1, .i32⟩
  | 19 => ⟨S128x64x1024, .f32⟩
  | 20 => ⟨S1x64x1024, .f32⟩
  | 21 => ⟨S64x1024, .f32⟩
  | 22 => ⟨S1x1024x1024, .f32⟩
  | 23 => ⟨S1024x1024, .f32⟩
  | 24 => ⟨S1024x1024, .f32⟩
  | 25 => ⟨S64x1024, .f32⟩
  | 26 => ⟨S1x1024, .f32⟩
  | 27 => ⟨S1024, .f32⟩
  | 28 => ⟨S1x1024, .f32⟩
  | 29 => ⟨S64x1024, .f32⟩
  | 30 => ⟨S64x1024, .f32⟩
  | 31 => ⟨S1x64x1024, .f32⟩
  | 32 => ⟨S64x1024, .f32⟩
  | 33 => ⟨S1x1024x1024, .f32⟩
  | 34 => ⟨S1024x1024, .f32⟩
  | 35 => ⟨S1024x1024, .f32⟩
  | 36 => ⟨S64x1024, .f32⟩
  | 37 => ⟨S64x1024, .f32⟩
  | 38 => ⟨S1x1024, .f32⟩
  | 39 => ⟨S1024, .f32⟩
  | 40 => ⟨S1x1024, .f32⟩
  | 41 => ⟨S64x1024, .f32⟩
  | 42 => ⟨S64x1024, .f32⟩
  | 43 => ⟨S64x1024, .f32⟩
  | 44 => ⟨S1x1024x1024, .f32⟩
  | 45 => ⟨S1024x1024, .f32⟩
  | 46 => ⟨S1024x1024, .f32⟩
  | 47 => ⟨S64x1024, .f32⟩
  | 48 => ⟨S1x1024, .f32⟩
  | 49 => ⟨S1024, .f32⟩
  | 50 => ⟨S1x1024, .f32⟩
  | 51 => ⟨S64x1024, .f32⟩
  | 52 => ⟨S64x1024, .f32⟩
  | 53 => ⟨S64x1024, .f32⟩
  | 54 => ⟨S1x1024x1024, .f32⟩
  | 55 => ⟨S1024x1024, .f32⟩
  | 56 => ⟨S1024x1024, .f32⟩
  | 57 => ⟨S64x1024, .f32⟩
  | 58 => ⟨S1x1024, .f32⟩
  | 59 => ⟨S1024, .f32⟩
  | 60 => ⟨S1x1024, .f32⟩
  | 61 => ⟨S64x1024, .f32⟩
  | 62 => ⟨S64x1024, .f32⟩
  | 63 => ⟨S1x64x1024, .f32⟩
  | 64 => ⟨S64x1024, .f32⟩
  | 65 => ⟨S1x1024x1024, .f32⟩
  | 66 => ⟨S1024x1024, .f32⟩
  | 67 => ⟨S1024x1024, .f32⟩
  | 68 => ⟨S64x1024, .f32⟩
  | 69 => ⟨S64x1024, .f32⟩
  | 70 => ⟨S1x1024, .f32⟩
  | 71 => ⟨S1024, .f32⟩
  | 72 => ⟨S1x1024, .f32⟩
  | 73 => ⟨S64x1024, .f32⟩
  | 74 => ⟨S64x1024, .f32⟩
  | 75 => ⟨S64x1024, .f32⟩
  | 76 => ⟨S1x1024x1024, .f32⟩
  | 77 => ⟨S1024x1024, .f32⟩
  | 78 => ⟨S1024x1024, .f32⟩
  | 79 => ⟨S64x1024, .f32⟩
  | 80 => ⟨S1x1024, .f32⟩
  | 81 => ⟨S1024, .f32⟩
  | 82 => ⟨S1x1024, .f32⟩
  | 83 => ⟨S64x1024, .f32⟩
  | 84 => ⟨S64x1024, .f32⟩
  | 85 => ⟨S64x1024, .f32⟩
  | 86 => ⟨S1024x10000, .f32⟩
  | 87 => ⟨S64x10000, .f32⟩
  | 88 => ⟨S1x10000, .f32⟩
  | 89 => ⟨S64x10000, .f32⟩
  | 90 => ⟨S64x10000, .f32⟩
  | 91 => ⟨S127x64x1024, .f32⟩
  | 92 => ⟨S1x1024x1024, .f32⟩
  | 93 => ⟨S1024x1024, .f32⟩
  | 94 => ⟨S1024x1024, .f32⟩
  | 95 => ⟨S64x1024, .f32⟩
  | 96 => ⟨S1x1024, .f32⟩
  | 97 => ⟨S1024, .f32⟩
  | 98 => ⟨S1x1024, .f32⟩
  | 99 => ⟨S64x1024, .f32⟩
  | 100 => ⟨S64x1024, .f32⟩
  | 101 => ⟨S1x1024x1024, .f32⟩
  | 102 => ⟨S1024x1024, .f32⟩
  | 103 => ⟨S127x64x1024, .f32⟩
  | 104 => ⟨S1x1024, .f32⟩
  | 105 => ⟨S1024, .f32⟩
  | 106 => ⟨S1x1x1024, .f32⟩
  | 107 => ⟨S127x64x1024, .f32⟩
  | 108 => ⟨S127x64x1024, .f32⟩
  | 109 => ⟨S1x64x1024, .f32⟩
  | 110 => ⟨S127x64x1024, .f32⟩
  | 111 => ⟨S127x64x1024, .f32⟩
  | 112 => ⟨S127x64x1024, .f32⟩
  | 113 => ⟨S1x1024x1024, .f32⟩
  | 114 => ⟨S1024x1024, .f32⟩
  | 115 => ⟨S127x64x1024, .f32⟩
  | 116 => ⟨S1x1024, .f32⟩
  | 117 => ⟨S1024, .f32⟩
  | 118 => ⟨S1x1x1024, .f32⟩
  | 119 => ⟨S127x64x1024, .f32⟩
  | 120 => ⟨S127x64x1024, .f32⟩
  | 121 => ⟨S127x64x1024, .f32⟩
  | 122 => ⟨S1x1024x1024, .f32⟩
  | 123 => ⟨S1024x1024, .f32⟩
  | 124 => ⟨S1024x1024, .f32⟩
  | 125 => ⟨S64x1024, .f32⟩
  | 126 => ⟨S1x1024, .f32⟩
  | 127 => ⟨S1024, .f32⟩
  | _ => ⟨S128x64, .i32⟩

abbrev hbmTy0_1 (i : Nat) : BufTy := match i % 128 with
  | 0 => ⟨S1x1024, .f32⟩
  | 1 => ⟨S64x1024, .f32⟩
  | 2 => ⟨S64x1024, .f32⟩
  | 3 => ⟨S1x1024x1024, .f32⟩
  | 4 => ⟨S1024x1024, .f32⟩
  | 5 => ⟨S127x64x1024, .f32⟩
  | 6 => ⟨S1x1024, .f32⟩
  | 7 => ⟨S1024, .f32⟩
  | 8 => ⟨S1x1x1024, .f32⟩
  | 9 => ⟨S127x64x1024, .f32⟩
  | 10 => ⟨S127x64x1024, .f32⟩
  | 11 => ⟨S1x64x1024, .f32⟩
  | 12 => ⟨S127x64x1024, .f32⟩
  | 13 => ⟨S127x64x1024, .f32⟩
  | 14 => ⟨S127x64x1024, .f32⟩
  | 15 => ⟨S1x1024x1024, .f32⟩
  | 16 => ⟨S1024x1024, .f32⟩
  | 17 => ⟨S127x64x1024, .f32⟩
  | 18 => ⟨S1x1024, .f32⟩
  | 19 => ⟨S1024, .f32⟩
  | 20 => ⟨S1x1x1024, .f32⟩
  | 21 => ⟨S127x64x1024, .f32⟩
  | 22 => ⟨S127x64x1024, .f32⟩
  | 23 => ⟨S127x64x1024, .f32⟩
  | 24 => ⟨S127x64x10000, .f32⟩
  | 25 => ⟨S1x1x10000, .f32⟩
  | 26 => ⟨S127x64x10000, .f32⟩
  | 27 => ⟨S127x64x10000, .f32⟩
  | 28 => ⟨S1x64x10000, .f32⟩
  | 29 => ⟨S128x64x10000, .f32⟩
  | 30 => ⟨S1x64x1024, .f32⟩
  | 31 => ⟨S1x64x1024, .f32⟩
  | 32 => ⟨S2x64x1024, .f32⟩
  | 33 => ⟨S1x2x64x1024, .f32⟩
  | 34 => ⟨S1x127x64x1024, .f32⟩
  | 35 => ⟨S1x127x64x1024, .f32⟩
  | 36 => ⟨S2x127x64x1024, .f32⟩
  | 37 => ⟨S127x2x64x1024, .f32⟩
  | 38 => ⟨S128x2x64x1024, .f32⟩
  | 39 => ⟨S256x64x1024, .f32⟩
  | _ => ⟨S128x64, .i32⟩

abbrev hbmTy (i : Nat) : BufTy := match i / 128 with
  | 0 => hbmTy0_0 i
  | 1 => hbmTy0_1 i
  | _ => ⟨S128x64, .i32⟩

abbrev bufTy : (tb : Table) → Fin (tcTables nBuf tb) → BufTy
  | .hbm, ⟨i, _⟩ => hbmTy i
  | _, _ => ⟨S128x64, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩
abbrev main_v122 : Ref sig .tc := ⟨.hbm, 135, rfl⟩
abbrev main_v123 : Ref sig .tc := ⟨.hbm, 136, rfl⟩
abbrev main_v124 : Ref sig .tc := ⟨.hbm, 137, rfl⟩
abbrev main_v125 : Ref sig .tc := ⟨.hbm, 138, rfl⟩
abbrev main_v126 : Ref sig .tc := ⟨.hbm, 139, rfl⟩
abbrev main_v127 : Ref sig .tc := ⟨.hbm, 140, rfl⟩
abbrev main_v128 : Ref sig .tc := ⟨.hbm, 141, rfl⟩
abbrev main_v129 : Ref sig .tc := ⟨.hbm, 142, rfl⟩
abbrev main_v130 : Ref sig .tc := ⟨.hbm, 143, rfl⟩
abbrev main_v131 : Ref sig .tc := ⟨.hbm, 144, rfl⟩
abbrev main_v132 : Ref sig .tc := ⟨.hbm, 145, rfl⟩
abbrev main_v133 : Ref sig .tc := ⟨.hbm, 146, rfl⟩
abbrev main_v134 : Ref sig .tc := ⟨.hbm, 147, rfl⟩
abbrev main_v135 : Ref sig .tc := ⟨.hbm, 148, rfl⟩
abbrev main_v136 : Ref sig .tc := ⟨.hbm, 149, rfl⟩
abbrev main_v137 : Ref sig .tc := ⟨.hbm, 150, rfl⟩
abbrev main_v138 : Ref sig .tc := ⟨.hbm, 151, rfl⟩
abbrev main_v139 : Ref sig .tc := ⟨.hbm, 152, rfl⟩
abbrev main_v140 : Ref sig .tc := ⟨.hbm, 153, rfl⟩
abbrev main_v141 : Ref sig .tc := ⟨.hbm, 154, rfl⟩
abbrev main_v142 : Ref sig .tc := ⟨.hbm, 155, rfl⟩
abbrev main_v143 : Ref sig .tc := ⟨.hbm, 156, rfl⟩
abbrev main_v144 : Ref sig .tc := ⟨.hbm, 157, rfl⟩
abbrev main_v145 : Ref sig .tc := ⟨.hbm, 158, rfl⟩
abbrev main_v146 : Ref sig .tc := ⟨.hbm, 159, rfl⟩
abbrev main_v147 : Ref sig .tc := ⟨.hbm, 160, rfl⟩
abbrev main_v148 : Ref sig .tc := ⟨.hbm, 161, rfl⟩
abbrev main_v149 : Ref sig .tc := ⟨.hbm, 162, rfl⟩
abbrev main_v150 : Ref sig .tc := ⟨.hbm, 163, rfl⟩
abbrev main_v151 : Ref sig .tc := ⟨.hbm, 164, rfl⟩
abbrev main_v152 : Ref sig .tc := ⟨.hbm, 165, rfl⟩
abbrev main_v153 : Ref sig .tc := ⟨.hbm, 166, rfl⟩
abbrev main_v154 : Ref sig .tc := ⟨.hbm, 167, rfl⟩

abbrev nD : Nat := 1
abbrev τ : Topo := Topo.v7x

variable {F : FTy → Type} [FloatOps F]

class Facts₀ : Prop where
  bcast_S_S128x64 : S_.BroadcastsInDim S128x64 (![] : Fin 0 → Fin S128x64.rank)
  bcast_S128x64_S128x64x1_0_1 : S128x64.BroadcastsInDim S128x64x1 (![0, 1] : Fin 2 → Fin S128x64x1.rank)
  slices_S128x64x1024_S1x64x1024_0_0_0 : S128x64x1024.Slices ![0, 0, 0] S1x64x1024
  shapeCasts_S1x64x1024_S64x1024 : S1x64x1024.ShapeCasts S64x1024
  slices_S2x1024x1024_S1x1024x1024_0_0_0 : S2x1024x1024.Slices ![0, 0, 0] S1x1024x1024
  shapeCasts_S1x1024x1024_S1024x1024 : S1x1024x1024.ShapeCasts S1024x1024
  transposes_S1024x1024_S1024x1024_1_0 : S1024x1024.Transposes [1, 0] S1024x1024
  slices_S2x1024_S1x1024_0_0 : S2x1024.Slices ![0, 0] S1x1024
  shapeCasts_S1x1024_S1024 : S1x1024.ShapeCasts S1024
  bcast_S1024_S1x1024_1 : S1024.BroadcastsInDim S1x1024 (![1] : Fin 1 → Fin S1x1024.rank)
  bcast_S1x1024_S64x1024_0_1 : S1x1024.BroadcastsInDim S64x1024 (![0, 1] : Fin 2 → Fin S64x1024.rank)
  slices_S2x64x1024_S1x64x1024_0_0_0 : S2x64x1024.Slices ![0, 0, 0] S1x64x1024
  slices_S2x1024x1024_S1x1024x1024_1_0_0 : S2x1024x1024.Slices ![1, 0, 0] S1x1024x1024
  slices_S2x1024_S1x1024_1_0 : S2x1024.Slices ![1, 0] S1x1024
  slices_S2x64x1024_S1x64x1024_1_0_0 : S2x64x1024.Slices ![1, 0, 0] S1x64x1024
  transposes_S10000x1024_S1024x10000_1_0 : S10000x1024.Transposes [1, 0] S1024x10000
  bcast_S10000_S1x10000_1 : S10000.BroadcastsInDim S1x10000 (![1] : Fin 1 → Fin S1x10000.rank)
  bcast_S1x10000_S64x10000_0_1 : S1x10000.BroadcastsInDim S64x10000 (![0, 1] : Fin 2 → Fin S64x10000.rank)
  slices_S128x64x1024_S127x64x1024_1_0_0 : S128x64x1024.Slices ![1, 0, 0] S127x64x1024
  bcast_S1024_S1x1x1024_2 : S1024.BroadcastsInDim S1x1x1024 (![2] : Fin 1 → Fin S1x1x1024.rank)
  bcast_S1x1x1024_S127x64x1024_0_1_2 : S1x1x1024.BroadcastsInDim S127x64x1024 (![0, 1, 2] : Fin 3 → Fin S127x64x1024.rank)
  bcast_S64x1024_S1x64x1024_1_2 : S64x1024.BroadcastsInDim S1x64x1024 (![1, 2] : Fin 2 → Fin S1x64x1024.rank)
  bcast_S1x64x1024_S127x64x1024_0_1_2 : S1x64x1024.BroadcastsInDim S127x64x1024 (![0, 1, 2] : Fin 3 → Fin S127x64x1024.rank)
  bcast_S10000_S1x1x10000_2 : S10000.BroadcastsInDim S1x1x10000 (![2] : Fin 1 → Fin S1x1x10000.rank)
  bcast_S1x1x10000_S127x64x10000_0_1_2 : S1x1x10000.BroadcastsInDim S127x64x10000 (![0, 1, 2] : Fin 3 → Fin S127x64x10000.rank)
  bcast_S64x10000_S1x64x10000_1_2 : S64x10000.BroadcastsInDim S1x64x10000 (![1, 2] : Fin 2 → Fin S1x64x10000.rank)
  concatenates_S1x64x10000_S127x64x10000_S128x64x10000_d0 : Shape.Concatenates [S1x64x10000, S127x64x10000] S128x64x10000 0
  concatenates_S1x64x1024_S1x64x1024_S2x64x1024_d0 : Shape.Concatenates [S1x64x1024, S1x64x1024] S2x64x1024 0
  bcast_S2x64x1024_S1x2x64x1024_1_2_3 : S2x64x1024.BroadcastsInDim S1x2x64x1024 (![1, 2, 3] : Fin 3 → Fin S1x2x64x1024.rank)
  bcast_S127x64x1024_S1x127x64x1024_1_2_3 : S127x64x1024.BroadcastsInDim S1x127x64x1024 (![1, 2, 3] : Fin 3 → Fin S1x127x64x1024.rank)
  concatenates_S1x127x64x1024_S1x127x64x1024_S2x127x64x1024_d0 : Shape.Concatenates [S1x127x64x1024, S1x127x64x1024] S2x127x64x1024 0
  transposes_S2x127x64x1024_S127x2x64x1024_1_0_2_3 : S2x127x64x1024.Transposes [1, 0, 2, 3] S127x2x64x1024
  concatenates_S1x2x64x1024_S127x2x64x1024_S128x2x64x1024_d0 : Shape.Concatenates [S1x2x64x1024, S127x2x64x1024] S128x2x64x1024 0
  shapeCasts_S128x2x64x1024_S256x64x1024 : S128x2x64x1024.ShapeCasts S256x64x1024
  gather_S10000x1024_S128x64x1_S128x64x1024_2_0_n_n_0_2_11024_wf : GatherDims.WF S10000x1024 S128x64x1 S128x64x1024 [2] [0] [] [0] [] 2 ![1, 1024]
  dot_S64x1024_S1024x1024_S64x1024_1_0_0_1_n_n_wf : DotDims.WF S64x1024 S1024x1024 S64x1024 [1] [0] [0] [1] [] []
  dot_S64x1024_S1024x10000_S64x10000_1_0_0_1_n_n_wf : DotDims.WF S64x1024 S1024x10000 S64x10000 [1] [0] [0] [1] [] []
  dot_S127x64x1024_S1024x1024_S127x64x1024_2_1_01_0_n_n_wf : DotDims.WF S127x64x1024 S1024x1024 S127x64x1024 [2] [1] [0, 1] [0] [] []
  dot_S127x64x1024_S10000x1024_S127x64x10000_2_1_01_0_n_n_wf : DotDims.WF S127x64x1024 S10000x1024 S127x64x10000 [2] [1] [0, 1] [0] [] []

variable [Facts₀]

def gather_S10000x1024_S128x64x1_S128x64x1024_2_0_n_n_0_2_11024 : GatherDims S10000x1024 S128x64x1 S128x64x1024 where
  offsetDims := [2]
  collapsedSliceDims := [0]
  operandBatchingDims := []
  startIndicesBatchingDims := []
  startIndexMap := [0]
  indexVectorDim := 2
  sliceSizes := ![1, 1024]
  wf := gather_S10000x1024_S128x64x1_S128x64x1024_2_0_n_n_0_2_11024_wf
def dot_S64x1024_S1024x1024_S64x1024_1_0_0_1_n_n : DotDims S64x1024 S1024x1024 S64x1024 where
  lhsContracting := [1]
  rhsContracting := [0]
  lhsNonContracting := [0]
  rhsNonContracting := [1]
  lhsBatch := []
  rhsBatch := []
  wf := dot_S64x1024_S1024x1024_S64x1024_1_0_0_1_n_n_wf
def dot_S64x1024_S1024x10000_S64x10000_1_0_0_1_n_n : DotDims S64x1024 S1024x10000 S64x10000 where
  lhsContracting := [1]
  rhsContracting := [0]
  lhsNonContracting := [0]
  rhsNonContracting := [1]
  lhsBatch := []
  rhsBatch := []
  wf := dot_S64x1024_S1024x10000_S64x10000_1_0_0_1_n_n_wf
def dot_S127x64x1024_S1024x1024_S127x64x1024_2_1_01_0_n_n : DotDims S127x64x1024 S1024x1024 S127x64x1024 where
  lhsContracting := [2]
  rhsContracting := [1]
  lhsNonContracting := [0, 1]
  rhsNonContracting := [0]
  lhsBatch := []
  rhsBatch := []
  wf := dot_S127x64x1024_S1024x1024_S127x64x1024_2_1_01_0_n_n_wf
def dot_S127x64x1024_S10000x1024_S127x64x10000_2_1_01_0_n_n : DotDims S127x64x1024 S10000x1024 S127x64x10000 where
  lhsContracting := [2]
  rhsContracting := [1]
  lhsNonContracting := [0, 1]
  rhsNonContracting := [0]
  lhsBatch := []
  rhsBatch := []
  wf := dot_S127x64x1024_S10000x1024_S127x64x10000_2_1_01_0_n_n_wf

class Facts : Prop extends Facts₀ where

variable [Facts]
-- ==== Proof.KernelRun.lean ====
/-
  The idealized kernel's run with its two results named.

  @main is nine segments: five stretches of host operations and two pipelined regions. The buffer contents at each
  segment boundary are a fold from the launch memory (`W0` … `W9` of the generated frame): a stretch applies its
  operations, a region leaves each of its arrays at what its write-backs fold to. Every weakly fair execution
  terminates with every unscoped buffer at the last boundary's contents `W9`; in particular the two result buffers,
  and the arguments, which no segment writes.
-/
import proofs.«141810_j30580167147721_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the two result buffers at the last
    boundary's contents and the arguments as launched. -/
theorem run : θ_run defs (onTc (τ := τ) (main (F := F))) ⟨m, fun _ => 0, ρ⟩ (fun r => ∀ c : Dev nD,
      r.2.mem ((c.tc : Thread nD τ).loc main_v120) = W9 m ρ c (Proc.devRef .tc main_v120)
      ∧ r.2.mem ((c.tc : Thread nD τ).loc main_v127) = W9 m ρ c (Proc.devRef .tc main_v127)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v120 (by decide)),
       h c _ (mem_uc main_v127 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c)⟩)

end Cert.KernelIdeal.KRun

end
-- ==== Proof.Spec.lean ====
/-
  The cell of the recurrent network, one row at a time, on the extended reals.

  A row `x : Fin 1024 → EReal` of activations meets a weight matrix `w` (entry `w e h`: input coordinate `e`, output
  coordinate `h`), a bias row and a recurrent row, and goes through tanh: `cellH`. The hidden row then meets a second
  matrix and bias and goes through tanh again: `cellX`. Both programs of this certificate compute exactly these two
  maps, row by row; the sums are over all 1024 input coordinates at once, in no particular order (a finite sum on
  the extended reals is commutative and associative).
-/
import Idealize.ShloMosaic.PureOps.Ideal
import Idealize.ShloMosaic.Lib.ValueIdx

noncomputable section

namespace Cert.RnnSpec

open Idealize.ShloMosaic

/-- The hidden row of a cell: `tanh ((Σ_e x e · w e h + wb h) + au h)`. -/
def cellH (x : Fin 1024 → EReal) (w : Fin 1024 → Fin 1024 → EReal) (wb au : Fin 1024 → EReal) (h : Fin 1024) : EReal :=
  Ideal.tanh (((∑ e : Fin 1024, x e * w e h) + wb h) + au h)

/-- The output row of a cell: `tanh (Σ_h hr h · f h e + fb e)`. -/
def cellX (hr : Fin 1024 → EReal) (f : Fin 1024 → Fin 1024 → EReal) (fb : Fin 1024 → EReal) (e : Fin 1024) : EReal :=
  Ideal.tanh ((∑ h : Fin 1024, hr h * f h e) + fb e)

end Cert.RnnSpec

end
-- ==== Proof.RefCells.lean ====
/-
  The reference program's batched timesteps, read as values.

  After timestep 0 the recurrent input of every later timestep is the timestep-0 state, so timesteps 1 … 127 are
  independent of one another and the reference computes them all at once. This module reads that computation one
  row at a time. For a later timestep `t' + 1` and a batch row `b`:

    rH0 = cellH (embedded row) (input matrix 0) (input bias 0) (recurrent term 0)      layer 0's hidden row
    rX1 = cellX rH0 (output matrix 0) (output bias 0)                                   layer 0's output row
    rH1 = cellH rX1 (input matrix 1) (input bias 1) (recurrent term 1)                  layer 1's hidden row
    rX2 = cellX rH1 (output matrix 1) (output bias 1)                                   layer 1's output row

  and the logits are `Σ_e rX2 e · Dw v e + Db v`. The embedded rows and the two recurrent terms (whole stages of
  timestep 0) are carried as opaque functions of the arguments; nothing here looks inside them.

  Each statement is proved the same way: the layout operations between an argument array and the place it is used
  (a slab cut out of a stack of matrices, a reshape that drops a unit axis, broadcasts of a bias row) compose to one
  index map, which is identified with the plain coordinates; a contraction is a finite sum over its one contracted
  coordinate; addition and tanh act entry by entry. The weight arrays hold each matrix with the contracted
  coordinate LAST, so the matrix entry `(e, h)` of the cell is the array's entry `(layer, h, e)`.

  The two results of the program join timestep 0 to the later timesteps by concatenation along the first axis; the
  last section reads those joins at a first coordinate `0` and at a successor.
-/
import proofs.«141810_j30580167147721_2_alg».proof.Proof.RefReadP
import proofs.«141810_j30580167147721_2_alg».proof.Proof.Spec

noncomputable section

namespace Cert.ReferenceIdeal.RefCells

open Cert.ReferenceIdeal Cert.ReferenceIdeal.Gen Idealize.ShloMosaic Idealize.ShloMosaic.ValueIdx Cert.RnnSpec

/-! ## The arguments of the reference program, and the rows the cells are applied to -/

variable (x0 : (⟨S128x64, .i32⟩ : BufTy).Contents (Elt Ideal))
  (x1 : (⟨S2x64x1024, .f32⟩ : BufTy).Contents (Elt Ideal))
  (x2 : (⟨S10000x1024, .f32⟩ : BufTy).Contents (Elt Ideal))
  (x3 : (⟨S2x1024x1024, .f32⟩ : BufTy).Contents (Elt Ideal))
  (x4 : (⟨S2x1024, .f32⟩ : BufTy).Contents (Elt Ideal))
  (x5 : (⟨S2x1024x1024, .f32⟩ : BufTy).Contents (Elt Ideal))
  (x6 : (⟨S2x1024, .f32⟩ : BufTy).Contents (Elt Ideal))
  (x7 : (⟨S2x1024x1024, .f32⟩ : BufTy).Contents (Elt Ideal))
  (x8 : (⟨S2x1024, .f32⟩ : BufTy).Contents (Elt Ideal))
  (x9 : (⟨S10000x1024, .f32⟩ : BufTy).Contents (Elt Ideal))
  (x10 : (⟨S10000, .f32⟩ : BufTy).Contents (Elt Ideal))

/-- The embedded row of timestep `t`, batch row `b`. -/
def E (t : Fin 128) (b : Fin 64) : Fin 1024 → EReal := fun e => ReadP.val_main_v6 (F := Ideal) x0 x2 (ix3 t b e)
/-- Layer `l`'s input matrix, entry `(e, h)`: the array holds it as `(l, h, e)`. -/
def W (l : Fin 2) : Fin 1024 → Fin 1024 → EReal := fun e h => x3 (ix3 l h e)
/-- Layer `l`'s input bias. -/
def Wb (l : Fin 2) : Fin 1024 → EReal := fun h => x4 (ix2 l h)
/-- Layer `l`'s output matrix, entry `(h, e)`: the array holds it as `(l, e, h)`. -/
def Fw (l : Fin 2) : Fin 1024 → Fin 1024 → EReal := fun h e => x7 (ix3 l e h)
/-- Layer `l`'s output bias. -/
def Fb (l : Fin 2) : Fin 1024 → EReal := fun e => x8 (ix2 l e)
/-- The recurrent term of layer 0, batch row `b` (the same at every later timestep). -/
def aU0 (b : Fin 64) : Fin 1024 → EReal := fun h => ReadP.val_main_v87 (F := Ideal) x0 x1 x2 x3 x4 x5 x6 (ix2 b h)
/-- The recurrent term of layer 1, batch row `b`. -/
def aU1 (b : Fin 64) : Fin 1024 → EReal := fun h => ReadP.val_main_v117 (F := Ideal) x0 x1 x2 x3 x4 x5 x6 x7 x8 (ix2 b h)

/-- Later timestep `t' + 1` as a timestep of the whole sequence. -/
def s (t' : Fin 127) : Fin 128 := ⟨t'.val + 1, by have := t'.isLt; omega⟩

/-- Layer 0's hidden row at later timestep `t'`. -/
def rH0 (t' : Fin 127) (b : Fin 64) : Fin 1024 → EReal :=
  cellH (E x0 x2 (s t') b) (W x3 0) (Wb x4 0) (aU0 x0 x1 x2 x3 x4 x5 x6 b)
/-- Layer 0's output row. -/
def rX1 (t' : Fin 127) (b : Fin 64) : Fin 1024 → EReal :=
  cellX (rH0 x0 x1 x2 x3 x4 x5 x6 t' b) (Fw x7 0) (Fb x8 0)
/-- Layer 1's hidden row. -/
def rH1 (t' : Fin 127) (b : Fin 64) : Fin 1024 → EReal :=
  cellH (rX1 x0 x1 x2 x3 x4 x5 x6 x7 x8 t' b) (W x3 1) (Wb x4 1) (aU1 x0 x1 x2 x3 x4 x5 x6 x7 x8 b)
/-- Layer 1's output row. -/
def rX2 (t' : Fin 127) (b : Fin 64) : Fin 1024 → EReal :=
  cellX (rH1 x0 x1 x2 x3 x4 x5 x6 x7 x8 t' b) (Fw x7 1) (Fb x8 1)

/-! ## Where the composed layout operations read -/

/-- The sliced embeddings at `(t', b, k)` are the embeddings at `(t' + 1, b, k)`. -/
theorem idx_emb (t' : Fin 127) (b : Fin 64) (h k : Fin 1024) :
    ReadP.idx_main_v78 (ReadP.lidx_main_v90 (ix3 t' b h) k) = ix3 (s t') b k :=
  funext fun a => Fin.ext (by
    match a with
    | ⟨0, _⟩ => exact Nat.add_comm 1 t'.val
    | ⟨1, _⟩ => rfl
    | ⟨2, _⟩ => rfl)

/-- Layer 0's input matrix as the contraction reads it: row `h`, column `k` of slab 0. -/
theorem idx_W0 (t' : Fin 127) (b : Fin 64) (h k : Fin 1024) :
    ReadP.idx_main_v88 (ReadP.idx_main_v89 (ReadP.ridx_main_v90 (ix3 t' b h) k)) = ix3 (0 : Fin 2) h k :=
  funext fun a => Fin.ext (by
    have hh := h.isLt; have hk := k.isLt
    match a with
    | ⟨0, _⟩ => rfl
    | ⟨1, _⟩ => show (h.val * 1024 + k.val) / 1024 % 1024 = h.val; omega
    | ⟨2, _⟩ => show (h.val * 1024 + k.val) % 1024 = k.val; omega)

/-- Layer 0's input bias under its two broadcasts. -/
theorem idx_Wb0 (t' : Fin 127) (b : Fin 64) (h : Fin 1024) :
    ReadP.idx_main_v91 (ReadP.idx_main_v92 (ReadP.idx_main_v93 (ReadP.idx_main_v94 (ix3 t' b h)))) = ix2 (0 : Fin 2) h :=
  funext fun a => Fin.ext (by
    have hh := h.isLt
    match a with
    | ⟨0, _⟩ => rfl
    | ⟨1, _⟩ => show h.val % 1024 = h.val; omega)

/-- The recurrent term under its two broadcasts. -/
theorem idx_aU0 (t' : Fin 127) (b : Fin 64) (h : Fin 1024) :
    ReadP.idx_main_v96 (ReadP.idx_main_v97 (ix3 t' b h)) = ix2 b h :=
  funext fun a => Fin.ext (by
    match a with
    | ⟨0, _⟩ => rfl
    | ⟨1, _⟩ => rfl)

/-! ## Layer 0's hidden rows -/

theorem ref_v99 (t' : Fin 127) (b : Fin 64) (h : Fin 1024) :
    ReadP.val_main_v99 (F := Ideal) x0 x1 x2 x3 x4 x5 x6 (ix3 t' b h) = rH0 x0 x1 x2 x3 x4 x5 x6 t' b h := by
  rw [ReadP.val_main_v99_apply, ReadP.val_main_v98_apply, ReadP.val_main_v95_apply, ReadP.val_main_v90_apply,
    ReadP.val_main_v94_apply, ReadP.val_main_v93_apply, ReadP.val_main_v92_apply, ReadP.val_main_v91_apply,
    ReadP.val_main_v97_apply, ReadP.val_main_v96_apply]
  simp only [ReadP.val_main_v78_apply, ReadP.val_main_v89_apply, ReadP.val_main_v88_apply,
    idx_emb, idx_W0, idx_Wb0, idx_aU0, Ideal.hostUnary_tanh_def, Ideal.addf_def]
  rfl

/-! ## Layer 0's output rows -/

/-- The contraction of layer 0's output reads the hidden row `(t', b)` at `k`. -/
theorem idx_row102 (t' : Fin 127) (b : Fin 64) (h k : Fin 1024) :
    ReadP.lidx_main_v102 (ix3 t' b h) k = ix3 t' b k :=
  funext fun a => Fin.ext (by
    match a with
    | ⟨0, _⟩ => rfl
    | ⟨1, _⟩ => rfl
    | ⟨2, _⟩ => rfl)

/-- Layer 0's output matrix as the contraction reads it: row `h`, column `k` of slab 0. -/
theorem idx_Fw0 (t' : Fin 127) (b : Fin 64) (h k : Fin 1024) :
    ReadP.idx_main_v100 (ReadP.idx_main_v101 (ReadP.ridx_main_v102 (ix3 t' b h) k)) = ix3 (0 : Fin 2) h k :=
  funext fun a => Fin.ext (by
    have hh := h.isLt; have hk := k.isLt
    match a with
    | ⟨0, _⟩ => rfl
    | ⟨1, _⟩ => show (h.val * 1024 + k.val) / 1024 % 1024 = h.val; omega
    | ⟨2, _⟩ => show (h.val * 1024 + k.val) % 1024 = k.val; omega)

/-- Layer 0's output bias under its two broadcasts. -/
theorem idx_Fb0 (t' : Fin 127) (b : Fin 64) (h : Fin 1024) :
    ReadP.idx_main_v103 (ReadP.idx_main_v104 (ReadP.idx_main_v105 (ReadP.idx_main_v106 (ix3 t' b h)))) = ix2 (0 : Fin 2) h :=
  funext fun a => Fin.ext (by
    have hh := h.isLt
    match a with
    | ⟨0, _⟩ => rfl
    | ⟨1, _⟩ => show h.val % 1024 = h.val; omega)

theorem ref_v108 (t' : Fin 127) (b : Fin 64) (e : Fin 1024) :
    ReadP.val_main_v108 (F := Ideal) x0 x1 x2 x3 x4 x5 x6 x7 x8 (ix3 t' b e) = rX1 x0 x1 x2 x3 x4 x5 x6 x7 x8 t' b e := by
  rw [ReadP.val_main_v108_apply, ReadP.val_main_v107_apply, ReadP.val_main_v102_apply,
    ReadP.val_main_v106_apply, ReadP.val_main_v105_apply, ReadP.val_main_v104_apply, ReadP.val_main_v103_apply]
  simp only [ReadP.val_main_v101_apply, ReadP.val_main_v100_apply,
    idx_row102, idx_Fw0, idx_Fb0, ref_v99, Ideal.hostUnary_tanh_def, Ideal.addf_def]
  rfl

/-! ## Layer 1's hidden rows -/

/-- The contraction of layer 1's hidden row reads layer 0's output row `(t', b)` at `k`. -/
theorem idx_row120 (t' : Fin 127) (b : Fin 64) (h k : Fin 1024) :
    ReadP.lidx_main_v120 (ix3 t' b h) k = ix3 t' b k :=
  funext fun a => Fin.ext (by
    match a with
    | ⟨0, _⟩ => rfl
    | ⟨1, _⟩ => rfl
    | ⟨2, _⟩ => rfl)

/-- Layer 1's input matrix as the contraction reads it: row `h`, column `k` of slab 1. -/
theorem idx_W1 (t' : Fin 127) (b : Fin 64) (h k : Fin 1024) :
    ReadP.idx_main_v118 (ReadP.idx_main_v119 (ReadP.ridx_main_v120 (ix3 t' b h) k)) = ix3 (1 : Fin 2) h k :=
  funext fun a => Fin.ext (by
    have hh := h.isLt; have hk := k.isLt
    match a with
    | ⟨0, _⟩ => rfl
    | ⟨1, _⟩ => show (h.val * 1024 + k.val) / 1024 % 1024 = h.val; omega
    | ⟨2, _⟩ => show (h.val * 1024 + k.val) % 1024 = k.val; omega)

/-- Layer 1's input bias under its two broadcasts. -/
theorem idx_Wb1 (t' : Fin 127) (b : Fin 64) (h : Fin 1024) :
    ReadP.idx_main_v121 (ReadP.idx_main_v122 (ReadP.idx_main_v123 (ReadP.idx_main_v124 (ix3 t' b h)))) = ix2 (1 : Fin 2) h :=
  funext fun a => Fin.ext (by
    have hh := h.isLt
    match a with
    | ⟨0, _⟩ => rfl
    | ⟨1, _⟩ => show h.val % 1024 = h.val; omega)

/-- Layer 1's recurrent term under its two broadcasts. -/
theorem idx_aU1 (t' : Fin 127) (b : Fin 64) (h : Fin 1024) :
    ReadP.idx_main_v126 (ReadP.idx_main_v127 (ix3 t' b h)) = ix2 b h :=
  funext fun a => Fin.ext (by
    match a with
    | ⟨0, _⟩ => rfl
    | ⟨1, _⟩ => rfl)

theorem ref_v129 (t' : Fin 127) (b : Fin 64) (h : Fin 1024) :
    ReadP.val_main_v129 (F := Ideal) x0 x1 x2 x3 x4 x5 x6 x7 x8 (ix3 t' b h) = rH1 x0 x1 x2 x3 x4 x5 x6 x7 x8 t' b h := by
  rw [ReadP.val_main_v129_apply, ReadP.val_main_v128_apply, ReadP.val_main_v125_apply, ReadP.val_main_v120_apply,
    ReadP.val_main_v124_apply, ReadP.val_main_v123_apply, ReadP.val_main_v122_apply, ReadP.val_main_v121_apply,
    ReadP.val_main_v127_apply, ReadP.val_main_v126_apply]
  simp only [ReadP.val_main_v119_apply, ReadP.val_main_v118_apply,
    idx_row120, idx_W1, idx_Wb1, idx_aU1, ref_v108, Ideal.hostUnary_tanh_def, Ideal.addf_def]
  rfl

/-! ## Layer 1's output rows -/

/-- The contraction of layer 1's output reads the hidden row `(t', b)` at `k`. -/
theorem idx_row132 (t' : Fin 127) (b : Fin 64) (h k : Fin 1024) :
    ReadP.lidx_main_v132 (ix3 t' b h) k = ix3 t' b k :=
  funext fun a => Fin.ext (by
    match a with
    | ⟨0, _⟩ => rfl
    | ⟨1, _⟩ => rfl
    | ⟨2, _⟩ => rfl)

/-- Layer 1's output matrix as the contraction reads it: row `h`, column `k` of slab 1. -/
theorem idx_Fw1 (t' : Fin 127) (b : Fin 64) (h k : Fin 1024) :
    ReadP.idx_main_v130 (ReadP.idx_main_v131 (ReadP.ridx_main_v132 (ix3 t' b h) k)) = ix3 (1 : Fin 2) h k :=
  funext fun a => Fin.ext (by
    have hh := h.isLt; have hk := k.isLt
    match a with
    | ⟨0, _⟩ => rfl
    | ⟨1, _⟩ => show (h.val * 1024 + k.val) / 1024 % 1024 = h.val; omega
    | ⟨2, _⟩ => show (h.val * 1024 + k.val) % 1024 = k.val; omega)

/-- Layer 1's output bias under its two broadcasts. -/
theorem idx_Fb1 (t' : Fin 127) (b : Fin 64) (h : Fin 1024) :
    ReadP.idx_main_v133 (ReadP.idx_main_v134 (ReadP.idx_main_v135 (ReadP.idx_main_v136 (ix3 t' b h)))) = ix2 (1 : Fin 2) h :=
  funext fun a => Fin.ext (by
    have hh := h.isLt
    match a with
    | ⟨0, _⟩ => rfl
    | ⟨1, _⟩ => show h.val % 1024 = h.val; omega)

theorem ref_v138 (t' : Fin 127) (b : Fin 64) (e : Fin 1024) :
    ReadP.val_main_v138 (F := Ideal) x0 x1 x2 x3 x4 x5 x6 x7 x8 (ix3 t' b e) = rX2 x0 x1 x2 x3 x4 x5 x6 x7 x8 t' b e := by
  rw [ReadP.val_main_v138_apply, ReadP.val_main_v137_apply, ReadP.val_main_v132_apply,
    ReadP.val_main_v136_apply, ReadP.val_main_v135_apply, ReadP.val_main_v134_apply, ReadP.val_main_v133_apply]
  simp only [ReadP.val_main_v131_apply, ReadP.val_main_v130_apply,
    idx_row132, idx_Fw1, idx_Fb1, ref_v129, Ideal.hostUnary_tanh_def, Ideal.addf_def]
  rfl

/-! ## The logits -/

/-- The decode contraction of the later timesteps reads the output row `(t', b)` at `k`. -/
theorem idx_row139 (t' : Fin 127) (b : Fin 64) (v : Fin 10000) (k : Fin 1024) :
    ReadP.lidx_main_v139 (ix3 t' b v) k = ix3 t' b k :=
  funext fun a => Fin.ext (by
    match a with
    | ⟨0, _⟩ => rfl
    | ⟨1, _⟩ => rfl
    | ⟨2, _⟩ => rfl)
/-- … and the decode matrix at row `v`, column `k`. -/
theorem idx_Dw139 (t' : Fin 127) (b : Fin 64) (v : Fin 10000) (k : Fin 1024) :
    ReadP.ridx_main_v139 (ix3 t' b v) k = ix2 v k :=
  funext fun a => Fin.ext (by
    match a with
    | ⟨0, _⟩ => rfl
    | ⟨1, _⟩ => rfl)
/-- The decode bias under its two broadcasts. -/
theorem idx_Db141 (t' : Fin 127) (b : Fin 64) (v : Fin 10000) :
    ReadP.idx_main_v140 (ReadP.idx_main_v141 (ix3 t' b v)) = ix1 v :=
  funext fun a => Fin.ext (by
    match a with
    | ⟨0, _⟩ => rfl)

theorem ref_v142 (t' : Fin 127) (b : Fin 64) (v : Fin 10000) :
    ReadP.val_main_v142 (F := Ideal) x0 x1 x2 x3 x4 x5 x6 x7 x8 x9 x10 (ix3 t' b v)
      = (∑ e : Fin 1024, rX2 x0 x1 x2 x3 x4 x5 x6 x7 x8 t' b e * x9 (ix2 v e)) + x10 (ix1 v) := by
  rw [ReadP.val_main_v142_apply, ReadP.val_main_v139_apply, ReadP.val_main_v141_apply, ReadP.val_main_v140_apply]
  simp only [idx_row139, idx_Dw139, idx_Db141, ref_v138, Ideal.addf_def]

/-- Timestep 0's decode contraction reads the activation row `b` at `k`. -/
theorem idx_row74 (b : Fin 64) (v : Fin 10000) (k : Fin 1024) :
    ReadP.lidx_main_v74 (ix2 b v) k = ix2 b k :=
  funext fun a => Fin.ext (by
    match a with
    | ⟨0, _⟩ => rfl
    | ⟨1, _⟩ => rfl)
/-- … and the transposed decode matrix at `(k, v)`, which is the matrix at `(v, k)`. -/
theorem idx_Dw74 (b : Fin 64) (v : Fin 10000) (k : Fin 1024) :
    ReadP.idx_main_v73 (ReadP.ridx_main_v74 (ix2 b v) k) = ix2 v k :=
  funext fun a => Fin.ext (by
    match a with
    | ⟨0, _⟩ => rfl
    | ⟨1, _⟩ => rfl)
/-- The decode bias under its two broadcasts. -/
theorem idx_Db76 (b : Fin 64) (v : Fin 10000) :
    ReadP.idx_main_v75 (ReadP.idx_main_v76 (ix2 b v)) = ix1 v :=
  funext fun a => Fin.ext (by
    match a with
    | ⟨0, _⟩ => rfl)

theorem ref_v77 (b : Fin 64) (v : Fin 10000) :
    ReadP.val_main_v77 (F := Ideal) x0 x1 x2 x3 x4 x5 x6 x7 x8 x9 x10 (ix2 b v)
      = (∑ e : Fin 1024, ReadP.val_main_v72 (F := Ideal) x0 x1 x2 x3 x4 x5 x6 x7 x8 (ix2 b e) * x9 (ix2 v e)) + x10 (ix1 v) := by
  rw [ReadP.val_main_v77_apply, ReadP.val_main_v74_apply, ReadP.val_main_v76_apply, ReadP.val_main_v75_apply]
  simp only [ReadP.val_main_v73_apply, idx_row74, idx_Dw74, idx_Db76, Ideal.addf_def]

/-! ## The joined results

A two-piece concatenation along the first axis reads its first piece where the first coordinate is `0` and its
second piece, one place down, where the first coordinate is a successor. The pieces stay abstract here. -/

/-- The logits at timestep 0 come from the first piece. -/
theorem concat_logits_zero (y1 : (⟨S1x64x10000, .f32⟩ : BufTy).Contents (Elt Ideal))
    (y2 : (⟨S127x64x10000, .f32⟩ : BufTy).Contents (Elt Ideal))
    (hc : Shape.Concatenates [S1x64x10000, S127x64x10000] S128x64x10000 0) (b : Fin 64) (v : Fin 10000) :
    concatenate S128x64x10000 0 [⟨S1x64x10000, y1⟩, ⟨S127x64x10000, y2⟩] hc (ix3 (0 : Fin 128) b v)
      = y1 (ix3 (0 : Fin 1) b v) :=
  concatenate_pair_apply_left (0 : Fin S128x64x10000.rank) y1 y2 hc (ix3 (0 : Fin 128) b v) rfl (ix3 (0 : Fin 1) b v)
    (fun c => by
      match c with
      | ⟨0, _⟩ => rfl
      | ⟨1, _⟩ => rfl
      | ⟨2, _⟩ => rfl)

/-- The logits at timestep `t' + 1` come from the second piece at `t'`. -/
theorem concat_logits_succ (y1 : (⟨S1x64x10000, .f32⟩ : BufTy).Contents (Elt Ideal))
    (y2 : (⟨S127x64x10000, .f32⟩ : BufTy).Contents (Elt Ideal))
    (hc : Shape.Concatenates [S1x64x10000, S127x64x10000] S128x64x10000 0) (t' : Fin 127) (b : Fin 64) (v : Fin 10000) :
    concatenate S128x64x10000 0 [⟨S1x64x10000, y1⟩, ⟨S127x64x10000, y2⟩] hc (ix3 (s t') b v)
      = y2 (ix3 t' b v) :=
  concatenate_pair_apply_right (0 : Fin S128x64x10000.rank) y1 y2 hc (ix3 (s t') b v) rfl rfl (ix3 t' b v)
    (fun c hne => by
      match c with
      | ⟨0, _⟩ => exact absurd rfl hne
      | ⟨1, _⟩ => rfl
      | ⟨2, _⟩ => rfl)
    rfl

/-- The broadcast of timestep 0's logits, read back. -/
theorem idx_logits0 (b : Fin 64) (v : Fin 10000) :
    ReadP.idx_main_v143 (ix3 (0 : Fin 1) b v) = ix2 b v :=
  funext fun a => Fin.ext (by
    match a with
    | ⟨0, _⟩ => rfl
    | ⟨1, _⟩ => rfl)

theorem ref_v144_zero (b : Fin 64) (v : Fin 10000) :
    ReadP.val_main_v144 (F := Ideal) x0 x1 x2 x3 x4 x5 x6 x7 x8 x9 x10 (ix3 (0 : Fin 128) b v)
      = ReadP.val_main_v77 (F := Ideal) x0 x1 x2 x3 x4 x5 x6 x7 x8 x9 x10 (ix2 b v) := by
  unfold ReadP.val_main_v144
  rw [concat_logits_zero, ReadP.val_main_v143_apply, idx_logits0]

theorem ref_v144_succ (t' : Fin 127) (b : Fin 64) (v : Fin 10000) :
    ReadP.val_main_v144 (F := Ideal) x0 x1 x2 x3 x4 x5 x6 x7 x8 x9 x10 (ix3 (s t') b v)
      = ReadP.val_main_v142 (F := Ideal) x0 x1 x2 x3 x4 x5 x6 x7 x8 x9 x10 (ix3 t' b v) := by
  unfold ReadP.val_main_v144
  rw [concat_logits_succ]

/-- The two layers' hidden rows stacked: layer 0 is the first piece. -/
theorem concat_layers_zero (y1 y2 : (⟨S1x127x64x1024, .f32⟩ : BufTy).Contents (Elt Ideal))
    (hc : Shape.Concatenates [S1x127x64x1024, S1x127x64x1024] S2x127x64x1024 0)
    (t' : Fin 127) (b : Fin 64) (h : Fin 1024) :
    concatenate S2x127x64x1024 0 [⟨S1x127x64x1024, y1⟩, ⟨S1x127x64x1024, y2⟩] hc (ix4 (0 : Fin 2) t' b h)
      = y1 (ix4 (0 : Fin 1) t' b h) :=
  concatenate_pair_apply_left (0 : Fin S2x127x64x1024.rank) y1 y2 hc (ix4 (0 : Fin 2) t' b h) rfl (ix4 (0 : Fin 1) t' b h)
    (fun c => by
      match c with
      | ⟨0, _⟩ => rfl
      | ⟨1, _⟩ => rfl
      | ⟨2, _⟩ => rfl
      | ⟨3, _⟩ => rfl)

/-- … and layer 1 the second. -/
theorem concat_layers_one (y1 y2 : (⟨S1x127x64x1024, .f32⟩ : BufTy).Contents (Elt Ideal))
    (hc : Shape.Concatenates [S1x127x64x1024, S1x127x64x1024] S2x127x64x1024 0)
    (t' : Fin 127) (b : Fin 64) (h : Fin 1024) :
    concatenate S2x127x64x1024 0 [⟨S1x127x64x1024, y1⟩, ⟨S1x127x64x1024, y2⟩] hc (ix4 (1 : Fin 2) t' b h)
      = y2 (ix4 (0 : Fin 1) t' b h) :=
  concatenate_pair_apply_right (0 : Fin S2x127x64x1024.rank) y1 y2 hc (ix4 (1 : Fin 2) t' b h) rfl rfl (ix4 (0 : Fin 1) t' b h)
    (fun c hne => by
      match c with
      | ⟨0, _⟩ => exact absurd rfl hne
      | ⟨1, _⟩ => rfl
      | ⟨2, _⟩ => rfl
      | ⟨3, _⟩ => rfl)
    rfl

/-- The transposition that brings the timestep in front of the layer. -/
theorem idx_swap (t' : Fin 127) (l : Fin 2) (b : Fin 64) (h : Fin 1024) :
    ReadP.idx_main_v152 (ix4 t' l b h) = ix4 l t' b h :=
  funext fun a => Fin.ext (by
    match a with
    | ⟨0, _⟩ => rfl
    | ⟨1, _⟩ => rfl
    | ⟨2, _⟩ => rfl
    | ⟨3, _⟩ => rfl)

/-- Layer 0's hidden rows under their leading unit axis. -/
theorem idx_unit149 (t' : Fin 127) (b : Fin 64) (h : Fin 1024) :
    ReadP.idx_main_v149 (ix4 (0 : Fin 1) t' b h) = ix3 t' b h :=
  funext fun a => Fin.ext (by
    match a with
    | ⟨0, _⟩ => rfl
    | ⟨1, _⟩ => rfl
    | ⟨2, _⟩ => rfl)
/-- Layer 1's hidden rows under their leading unit axis. -/
theorem idx_unit150 (t' : Fin 127) (b : Fin 64) (h : Fin 1024) :
    ReadP.idx_main_v150 (ix4 (0 : Fin 1) t' b h) = ix3 t' b h :=
  funext fun a => Fin.ext (by
    match a with
    | ⟨0, _⟩ => rfl
    | ⟨1, _⟩ => rfl
    | ⟨2, _⟩ => rfl)

theorem ref_v152_zero (t' : Fin 127) (b : Fin 64) (h : Fin 1024) :
    ReadP.val_main_v152 (F := Ideal) x0 x1 x2 x3 x4 x5 x6 x7 x8 (ix4 t' (0 : Fin 2) b h)
      = ReadP.val_main_v99 (F := Ideal) x0 x1 x2 x3 x4 x5 x6 (ix3 t' b h) := by
  rw [ReadP.val_main_v152_apply, idx_swap]
  unfold ReadP.val_main_v151
  rw [concat_layers_zero, ReadP.val_main_v149_apply, idx_unit149]

theorem ref_v152_one (t' : Fin 127) (b : Fin 64) (h : Fin 1024) :
    ReadP.val_main_v152 (F := Ideal) x0 x1 x2 x3 x4 x5 x6 x7 x8 (ix4 t' (1 : Fin 2) b h)
      = ReadP.val_main_v129 (F := Ideal) x0 x1 x2 x3 x4 x5 x6 x7 x8 (ix3 t' b h) := by
  rw [ReadP.val_main_v152_apply, idx_swap]
  unfold ReadP.val_main_v151
  rw [concat_layers_one, ReadP.val_main_v150_apply, idx_unit150]

end Cert.ReferenceIdeal.RefCells

end
-- ==== Proof.DecodeRegion.lean ====
/- The decode region of the idealized kernel read as values: every entry of its output array is a row of the activations
   times a column of the padded decode matrix plus the padded bias's entry, as one finite sum over the extended reals.
   First the body's value at an index of its block (the matrix product into a zero accumulator is a plain sum; the
   shape casts are row-major re-indexings with row = timestep-in-block * 64 + batch; the bias row is laid along every
   row), then each point's written-back block as the block of one whole-array function, the blocks' tiling of the
   array, and the array after the region. -/
import proofs.«141810_j30580167147721_2_alg».proof.Proof.Gen.KernelIdeal.Frame
import Idealize.ShloMosaic.Lib.Pipeline.Value
import Idealize.ShloMosaic.Lib.ValueIdx
import Idealize.ShloMosaic.PureOps.Ideal.Laws

noncomputable section

namespace Cert.KernelIdeal.DecodeRegion

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

/-- The matrix product of a [512,1024] block by a [1024,n] block into a zero accumulator, read at an index: the plain
    finite sum over the contracted coordinate. -/
theorem matmul_decode_apply (L : FVec Ideal S512x1024 .bf16) (R : FVec Ideal S1024x2048 .bf16) (r : Fin 512) (v : Fin 2048) :
    matmul dot_S512x1024_S1024x2048_S512x2048_1_0_0_1_n_n none L R (constant S512x2048 .f32 0x00000000#32) (ix2 r v)
      = ∑ k : Fin 1024, L (ix2 r k) * R (ix2 k v) := by
  show FloatOps.matmul _ none L R (constant S512x2048 .f32 0x00000000#32) (ix2 r v) = _
  rw [Ideal.matmul_constant_zero_apply,
    ← Equiv.sum_comp (contrEquiv1 dot_S512x1024_S1024x2048_S512x2048_1_0_0_1_n_n 1024 rfl rfl).symm]
  refine Finset.sum_congr rfl fun k _ => ?_
  have c2 := contrEquiv1_symm_val dot_S512x1024_S1024x2048_S512x2048_1_0_0_1_n_n 1024 rfl rfl k
  have l2 : dot_S512x1024_S1024x2048_S512x2048_1_0_0_1_n_n.lhsIdx (ix2 r v) ((contrEquiv1 _ 1024 rfl rfl).symm k) = ix2 r k := by
    funext ax; apply Fin.ext
    match ax with
    | ⟨0, _⟩ => simp [DotDims.lhsIdx, dot_S512x1024_S1024x2048_S512x2048_1_0_0_1_n_n]; rfl
    | ⟨1, _⟩ => simp [DotDims.lhsIdx, dot_S512x1024_S1024x2048_S512x2048_1_0_0_1_n_n]; exact c2
  have r2 : dot_S512x1024_S1024x2048_S512x2048_1_0_0_1_n_n.rhsIdx (ix2 r v) ((contrEquiv1 _ 1024 rfl rfl).symm k) = ix2 k v := by
    funext ax; apply Fin.ext
    match ax with
    | ⟨0, _⟩ => simp [DotDims.rhsIdx, dot_S512x1024_S1024x2048_S512x2048_1_0_0_1_n_n]; exact c2
    | ⟨1, _⟩ => simp [DotDims.rhsIdx, dot_S512x1024_S1024x2048_S512x2048_1_0_0_1_n_n]; rfl
  rw [l2, r2]

/-- The decode body's value at an index of its [8,64,2048] block: row `tt*64+b` of the [512,1024] operand times
    column `v` of the [1024,2048] operand, plus the bias row's entry `v`. -/
theorem pay_apply (x0 : Vec Ideal S8x64x1024 .bf16) (x1 : Vec Ideal S1024x2048 .bf16) (x2 : Vec Ideal S1x2048 .f32)
    (tt : Fin 8) (b : Fin 64) (v : Fin 2048) :
    k1_pay1 x0 x1 x2 (ix3 tt b v)
      = (∑ k : Fin 1024, (x0 (ix3 tt b k) : EReal) * (x1 (ix2 k v) : EReal)) + (x2 (ix2 (0 : Fin 1) v) : EReal) := by
  have hrow : tt.val * 64 + b.val < 512 := by have := tt.isLt; have := b.isLt; omega
  unfold k1_pay1
  simp only [shapeCast_self]
  refine (shapeCast_apply _ shapeCasts_S512x2048_S8x64x2048 (ix3 tt b v) (ix2 (⟨tt.val * 64 + b.val, hrow⟩ : Fin 512) v) ?_).trans ?_
  · rw [Shape.rowMajor_val_two, Shape.rowMajor_val_three]; rfl
  rw [addf_apply, matmul_decode_apply]
  refine congrArg₂ (· + ·) (Finset.sum_congr rfl fun k _ => ?_) ?_
  · refine congrArg (· * _) ?_
    exact shapeCast_apply x0 shapeCasts_S8x64x1024_S512x1024 (ix2 (⟨tt.val * 64 + b.val, hrow⟩ : Fin 512) k) (ix3 tt b k)
      (by rw [Shape.rowMajor_val_two, Shape.rowMajor_val_three]; rfl)
  · exact broadcastTo_apply x2 broadcasts_S1x2048_S512x2048 (ix2 (⟨tt.val * 64 + b.val, hrow⟩ : Fin 512) v) (ix2 (0 : Fin 1) v)
      (fun a => by
        match a with
        | ⟨0, _⟩ => rfl
        | ⟨1, _⟩ => rfl)

/-! ## From blocks to the array -/

section Region
variable (V : (c : Dev nD) → (b : Ref sig .tc) → Buf (Elt Ideal) ((c : Thread nD τ).loc b))

/-- The three arrays the region reads, as it finds them: the activations [128,64,1024], the padded decode matrix
    [1024,10240] and the padded bias row [1,10240], at extended-real entries. -/
abbrev actIn (c : Dev nD) : S128x64x1024.Idx → EReal := V c (Pipeline.arrRef spec1 0)
abbrev decW (c : Dev nD) : S1024x10240.Idx → EReal := V c (Pipeline.arrRef spec1 1)
abbrev decB (c : Dev nD) : S1x10240.Idx → EReal := V c (Pipeline.arrRef spec1 2)

/-- Entry `(t, b, v)` of the decoded array: row `(t, b)` of the activations times column `v` of the padded decode matrix,
    plus entry `v` of the padded bias row. -/
def decodeAt (c : Dev nD) (t : Fin 128) (b : Fin 64) (v : Fin 10240) : EReal :=
  (∑ k : Fin 1024, actIn V c (ix3 t b k) * decW V c (ix2 k v)) + decB V c (ix2 (0 : Fin 1) v)

/-- The decoded array as one function of its index. -/
def decodeArr (c : Dev nD) : S128x64x10240.Idx → EReal := fun i => decodeAt V c (i 0) (i 1) (i 2)

theorem hz3 : (![0, 0, 0] : Fin 3 → Nat) = fun _ => 0 := funext fun a => by fin_cases a <;> rfl
theorem hz2 : (![0, 0] : Fin 2 → Nat) = fun _ => 0 := funext fun a => by fin_cases a <;> rfl

/-- The index maps over the grid: the activations' block moves with the output's rows, the matrix's and the bias's with
    the output's columns; the other block indices are zero; the output's block indices stay in range. -/
theorem idx_facts : ∀ t : Fin cfg1.N,
    win1_0.index t (0 : Fin 3) = win1_3.index t (0 : Fin 3) ∧ win1_0.index t (1 : Fin 3) = 0 ∧ win1_0.index t (2 : Fin 3) = 0
    ∧ win1_1.index t (0 : Fin 2) = 0 ∧ win1_1.index t (1 : Fin 2) = win1_3.index t (2 : Fin 3)
    ∧ win1_2.index t (0 : Fin 2) = 0 ∧ win1_2.index t (1 : Fin 2) = win1_3.index t (2 : Fin 3)
    ∧ win1_3.index t (1 : Fin 3) = 0 ∧ win1_3.index t (0 : Fin 3) ≤ 15 ∧ win1_3.index t (2 : Fin 3) ≤ 4 :=
  (by decide +kernel : ∀ t : Fin grid1.N, _)

/-- Every (row tile, column tile) pair is some point's output block. -/
theorem idx_onto : ∀ (q0 : Fin 16) (q2 : Fin 5), ∃ t : Fin cfg1.N, win1_3.index t = ![q0.val, 0, q2.val] :=
  (by decide +kernel : ∀ (q0 : Fin 16) (q2 : Fin 5), ∃ t : Fin grid1.N, win1_3.index t = ![q0.val, 0, q2.val])

/-- What point `t` writes back is block `t` of `decodeArr`. -/
theorem flushed_eq (c : Dev nD) (t : Fin cfg1.N) :
    (dat1 (F := Ideal) V c).flushed 3 t = ((cfg1.win 3).blk t).view.read (Elt Ideal) (decodeArr V c) := by
  show (cfg1.win 3).cut (grid1.coords t) ((dat1 V c).after 3 t) = _
  rw [after1_3]
  unfold out1_3
  rw [View.canon_unit_zero hz3]
  simp only [View.ld_unit_zero (S := S8x64x1024) hz3, View.ld_unit_zero (S := S1024x2048) hz2, View.ld_unit_zero (S := S1x2048) hz2]
  obtain ⟨e0, e1, e2, e3, e4, e5, e6, e7, e8, e9⟩ := idx_facts t
  funext y
  obtain ⟨tt, b, v, rfl⟩ : ∃ (tt : Fin 8) (b : Fin 64) (v : Fin 2048), y = ix3 tt b v := ⟨y 0, y 1, y 2, eq_ix3 y⟩
  show k1_pay1 (iblk1 V c 0 t) (iblk1 V c 1 t) (iblk1 V c 2 t) (ix3 tt b v) = decodeArr V c (((cfg1.win 3).blk t).view.emb (ix3 tt b v))
  refine (pay_apply _ _ _ tt b v).trans ?_
  have h8 : win1_3.index t (0 : Fin 3) * 8 + tt.val < 128 := by have := tt.isLt; omega
  have hv : win1_3.index t (2 : Fin 3) * 2048 + v.val < 10240 := by have := v.isLt; omega
  have hi : (((cfg1.win 3).blk t).view.emb (ix3 tt b v) : S128x64x10240.Idx)
      = ix3 (⟨win1_3.index t (0 : Fin 3) * 8 + tt.val, h8⟩ : Fin 128) b (⟨win1_3.index t (2 : Fin 3) * 2048 + v.val, hv⟩ : Fin 10240) := by
    funext a; apply Fin.ext
    match a with
    | ⟨0, _⟩ => show win1_3.index t (0 : Fin 3) * 8 + 1 * tt.val = win1_3.index t (0 : Fin 3) * 8 + tt.val; omega
    | ⟨1, _⟩ => show win1_3.index t (1 : Fin 3) * 64 + 1 * b.val = b.val; omega
    | ⟨2, _⟩ => show win1_3.index t (2 : Fin 3) * 2048 + 1 * v.val = win1_3.index t (2 : Fin 3) * 2048 + v.val; omega
  refine Eq.trans ?_ (congrArg (decodeArr V c) hi).symm
  show _ = decodeAt V c ⟨_, h8⟩ b ⟨_, hv⟩
  unfold decodeAt
  refine congrArg₂ (· + ·) (Finset.sum_congr rfl fun k _ => congrArg₂ (· * ·) ?_ ?_) ?_
  · show V c (Pipeline.arrRef spec1 0) (((cfg1.win 0).blk t).view.emb (ix3 tt b k)) = V c (Pipeline.arrRef spec1 0) (ix3 (⟨_, h8⟩ : Fin 128) b k)
    refine congrArg _ ?_
    funext a; apply Fin.ext
    match a with
    | ⟨0, _⟩ => show win1_0.index t (0 : Fin 3) * 8 + 1 * tt.val = win1_3.index t (0 : Fin 3) * 8 + tt.val; omega
    | ⟨1, _⟩ => show win1_0.index t (1 : Fin 3) * 64 + 1 * b.val = b.val; omega
    | ⟨2, _⟩ => show win1_0.index t (2 : Fin 3) * 1024 + 1 * k.val = k.val; omega
  · show V c (Pipeline.arrRef spec1 1) (((cfg1.win 1).blk t).view.emb (ix2 k v)) = V c (Pipeline.arrRef spec1 1) (ix2 k (⟨_, hv⟩ : Fin 10240))
    refine congrArg _ ?_
    funext a; apply Fin.ext
    match a with
    | ⟨0, _⟩ => show win1_1.index t (0 : Fin 2) * 1024 + 1 * k.val = k.val; omega
    | ⟨1, _⟩ => show win1_1.index t (1 : Fin 2) * 2048 + 1 * v.val = win1_3.index t (2 : Fin 3) * 2048 + v.val; omega
  · show V c (Pipeline.arrRef spec1 2) (((cfg1.win 2).blk t).view.emb (ix2 (0 : Fin 1) v)) = V c (Pipeline.arrRef spec1 2) (ix2 (0 : Fin 1) (⟨_, hv⟩ : Fin 10240))
    refine congrArg _ ?_
    funext a; apply Fin.ext
    match a with
    | ⟨0, _⟩ => show win1_2.index t (0 : Fin 2) * 1 + 1 * 0 = 0; omega
    | ⟨1, _⟩ => show win1_2.index t (1 : Fin 2) * 2048 + 1 * v.val = win1_3.index t (2 : Fin 3) * 2048 + v.val; omega

/-- An index of the array is in point `t`'s block iff each coordinate is in the block's range on its axis. -/
theorem mem_blk (t : Fin cfg1.N) (i : S128x64x10240.Idx) :
    i ∈ ((cfg1.win 3).blk t).view.set ↔ ∀ a : Fin 3, win1_3.index t a * S8x64x2048.size a ≤ (i a).val ∧ (i a).val < win1_3.index t a * S8x64x2048.size a + S8x64x2048.size a := by
  show i ∈ ((View.whole main_v119).slice (win1_3.rect t)).set ↔ _
  rw [View.set_slice_whole, Rect.mem_set_unit]
  exact Iff.rfl

/-- The output's blocks tile the array: index `i` lies in the block of the point whose row tile is `i 0 / 8` and whose column
    tile is `i 2 / 2048`. -/
theorem cover (i : S128x64x10240.Idx) :
    ∃ t : Fin cfg1.N, (cfg1.win 3).flush t = true ∧ i ∈ ((cfg1.win 3).blk t).view.set := by
  have hi0 : (i 0).val < 128 := (i 0).isLt
  have hi1 : (i 1).val < 64 := (i 1).isLt
  have hi2 : (i 2).val < 10240 := (i 2).isLt
  obtain ⟨t, ht⟩ := idx_onto ⟨(i 0).val / 8, by omega⟩ ⟨(i 2).val / 2048, by omega⟩
  have q0 : win1_3.index t (0 : Fin 3) = (i 0).val / 8 := congrFun ht 0
  have q1 : win1_3.index t (1 : Fin 3) = 0 := congrFun ht 1
  have q2 : win1_3.index t (2 : Fin 3) = (i 2).val / 2048 := congrFun ht 2
  refine ⟨t, flush1_3 t, ?_⟩
  rw [mem_blk]
  intro a
  match a with
  | ⟨0, _⟩ => show win1_3.index t (0 : Fin 3) * 8 ≤ (i 0).val ∧ (i 0).val < win1_3.index t (0 : Fin 3) * 8 + 8; omega
  | ⟨1, _⟩ => show win1_3.index t (1 : Fin 3) * 64 ≤ (i 1).val ∧ (i 1).val < win1_3.index t (1 : Fin 3) * 64 + 64; omega
  | ⟨2, _⟩ => show win1_3.index t (2 : Fin 3) * 2048 ≤ (i 2).val ∧ (i 2).val < win1_3.index t (2 : Fin 3) * 2048 + 2048; omega

/-- The decoded array after the region is `decodeArr` of the arrays the region is entered with. -/
theorem final (c : Dev nD) : (dat1 (F := Ideal) V c).arrAt 3 cfg1.N = decodeArr V c :=
  (dat1 (F := Ideal) V c).arrAt_eq_of_cover 3 (decodeArr V c) (fun t _ => flushed_eq V c t) cover

/-- THE DECODE REGION READ AS VALUES: entry `(t, b, v)` of its output array is row `(t, b)` of the activations times column
    `v` of the padded decode matrix plus the padded bias's entry `v`. -/
theorem decode_arr (c : Dev nD) (t : Fin 128) (b : Fin 64) (v : Fin 10240) :
    ((dat1 (F := Ideal) V c).arrAt 3 cfg1.N : S128x64x10240.Idx → EReal) (ix3 t b v)
      = (∑ k : Fin 1024, actIn V c (ix3 t b k) * decW V c (ix2 k v)) + decB V c (ix2 (0 : Fin 1) v) :=
  congrFun (final V c) (ix3 t b v)

end Region

end Cert.KernelIdeal.DecodeRegion

end
-- ==== Proof.RnnBody.lean ====
/-
  The body of the recurrent region, read at an index.

  At each grid point the body is handed a block of 8 timesteps of embedded rows (8 × 64 × 1024), the two layers'
  input matrices (2 × 1024 × 1024, entry `(layer, e, h)`), input biases (2 × 1024), recurrent rows (2 × 64 × 1024),
  output matrices (2 × 1024 × 1024, entry `(layer, h, e)`) and output biases (2 × 1024). For each layer it cuts that
  layer's slab out of each stack, flattens the block to 512 rows, multiplies by the matrix into a zero accumulator,
  unflattens, adds the bias row and the recurrent rows (broadcast over the timesteps), and applies tanh; then
  multiplies by the output matrix, adds the output bias and applies tanh again. The two hidden blocks are stored
  side by side along a layer axis of one buffer; the last output block fills the other buffer.

  This module shows that, entry by entry, those are the two row maps of the specification composed twice:

    bH0 = cellH (embedded row) (input matrix 0) (input bias 0) (recurrent row 0)
    bX1 = cellX bH0 (output matrix 0) (output bias 0)
    bH1 = cellH bX1 (input matrix 1) (input bias 1) (recurrent row 1)
    bX2 = cellX bH1 (output matrix 1) (output bias 1)

  with the hidden buffer holding `bH0` at layer coordinate 0 and `bH1` at layer coordinate 1, and the output
  buffer holding `bX2`. On the extended reals the changes of number format are the identity and a product into a
  zero accumulator is a plain finite sum, so nothing is lost between the stages.

  The steps: the flattened product read at row `tt · 64 + b` (`matmul_row`); the layout operations around the
  matrix, the bias and the recurrent rows (`wcast`, `bias_row`, `au_row`, `layer_cast`); each stage of the body as a
  cell of abstract operands (`pay4_apply` … `pay3_apply`); a slab of one cut out of a stack of two (`ld_…`); which
  store an entry of the hidden buffer comes from (`canon_layer0`, `canon_layer1`); and the assembly.
-/
import proofs.«141810_j30580167147721_2_alg».proof.Proof.Gen.KernelIdeal.Frame
import proofs.«141810_j30580167147721_2_alg».proof.Proof.Spec
import Idealize.ShloMosaic.Lib.Pipeline.Value
import Idealize.ShloMosaic.Lib.ValueIdx
import Idealize.ShloMosaic.PureOps.Ideal.Laws

noncomputable section

namespace Cert.KernelIdeal.RnnBody

open Cert.KernelIdeal Cert.KernelIdeal.Gen Idealize.ShloMosaic Idealize.ShloMosaic.ValueIdx Cert.RnnSpec

/-! ## A block of 8 × 64 rows times a matrix, row by row

The body flattens its block of 8 timesteps × 64 batch rows to 512 rows, multiplies by a 1024 × 1024 matrix into a
zero accumulator, and unflattens. Row `(tt, b)` of the block is row `tt · 64 + b` of the flattened one, so entry
`(tt, b, q)` of the product is the sum over `k` of the block's `(tt, b, k)` times the matrix's `(k, q)`. -/

/-- The left operand's row coordinate is the output's. -/
theorem lhs_row (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide),
    dif_pos (show (0 : Fin S512x1024.rank) ∈ dot_S512x1024_S1024x1024_S512x1024_1_0_0_1_n_n.lhsNonContracting by decide)]
  rfl
/-- The left operand's column coordinate is the contracted one. -/
theorem lhs_col (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
/-- The right operand's row coordinate is the contracted one. -/
theorem rhs_row (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
/-- The right operand's column coordinate is the output's. -/
theorem rhs_col (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide),
    dif_pos (show (1 : Fin S1024x1024.rank) ∈ dot_S512x1024_S1024x1024_S512x1024_1_0_0_1_n_n.rhsNonContracting by decide)]
  rfl

/-- Row `(tt, b)` of the block as a row of the flattened block. -/
def flatRow (tt : Fin 8) (b : Fin 64) : Fin 512 := ⟨tt.val * 64 + b.val, by have := tt.isLt; have := b.isLt; omega⟩

/-- The flattened product, unflattened and read at `(tt, b, q)`. -/
theorem matmul_row {φ₁ φ₂ : FTy} (a : FVec Ideal S8x64x1024 φ₁) (w : FVec Ideal S1024x1024 φ₂)
    (h1 : S8x64x1024.ShapeCasts S512x1024) (h2 : S512x1024.ShapeCasts S8x64x1024)
    (tt : Fin 8) (b : Fin 64) (q : Fin 1024) :
    shapeCast S8x64x1024 (matmul dot_S512x1024_S1024x1024_S512x1024_1_0_0_1_n_n none (shapeCast S512x1024 a h1) w
        (constant S512x1024 .f32 0x00000000#32)) h2 (ix3 tt b q)
      = ∑ k : Fin 1024, a (ix3 tt b k) * w (ix2 k q) := by
  rw [shapeCast_apply _ h2 (ix3 tt b q) (ix2 (flatRow tt b) q)
    (by rewrite [Shape.rowMajor_val_two, Shape.rowMajor_val_three]; rfl)]
  show FloatOps.matmul dot_S512x1024_S1024x1024_S512x1024_1_0_0_1_n_n none (shapeCast S512x1024 a h1) w
    (constant S512x1024 .f32 0x00000000#32) (ix2 (flatRow tt b) q) = _
  rw [Ideal.matmul_constant_zero_apply,
    ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 (flatRow tt b) q)
      ((contrEquiv1 dot_S512x1024_S1024x1024_S512x1024_1_0_0_1_n_n 1024 rfl rfl).symm k) = ix2 (flatRow tt b) k :=
    funext fun c => Fin.ext (by
      match c with
      | ⟨0, _⟩ => exact lhs_row _ _
      | ⟨1, _⟩ => exact (lhs_col _ _).trans hk)
  have er : dot_S512x1024_S1024x1024_S512x1024_1_0_0_1_n_n.rhsIdx (ix2 (flatRow tt b) q)
      ((contrEquiv1 dot_S512x1024_S1024x1024_S512x1024_1_0_0_1_n_n 1024 rfl rfl).symm k) = ix2 k q :=
    funext fun c => Fin.ext (by
      match c with
      | ⟨0, _⟩ => exact (rhs_row _ _).trans hk
      | ⟨1, _⟩ => exact rhs_col _ _)
  rw [el, er, shapeCast_apply a h1 (ix2 (flatRow tt b) k) (ix3 tt b k)
    (by rewrite [Shape.rowMajor_val_three, Shape.rowMajor_val_two]; rfl)]

/-! ## The matrix, the bias row and the recurrent rows as the body shapes them -/

/-- A matrix loaded as a slab of one: dropping the unit axis keeps the entries. -/
theorem wcast {α : Type} (v : S1x1024x1024.Idx → α) (hc : S1x1024x1024.ShapeCasts S1024x1024) (k q : Fin 1024) :
    shapeCast S1024x1024 v hc (ix2 k q) = v (ix3 (0 : Fin 1) k q) :=
  shapeCast_apply v hc (ix2 k q) (ix3 (0 : Fin 1) k q)
    (by rewrite [Shape.rowMajor_val_three, Shape.rowMajor_val_two]
        show (0 * 1024 + k.val) * 1024 + q.val = k.val * 1024 + q.val; omega)

/-- A bias row loaded as one row, flattened, reshaped to `[1, 1, 1024]` and broadcast over the block. -/
theorem bias_row (v : Vec Ideal S1x1024 .f32) (c1 : S1x1024.ShapeCasts S1024) (c2 : S1024.ShapeCasts S1x1x1024)
    (bc : S1x1x1024.Broadcasts S8x64x1024) (tt : Fin 8) (b : Fin 64) (q : Fin 1024) :
    broadcastTo S8x64x1024 (shapeCast S1x1x1024 (shapeCast S1024 v c1) c2) bc (ix3 tt b q) = v (ix2 (0 : Fin 1) q) := by
  rw [broadcastTo_apply _ bc (ix3 tt b q) (ix3 (0 : Fin 1) (0 : Fin 1) q) (fun a => by
      match a with
      | ⟨0, _⟩ => show (0 : Nat) = if (1 : Nat) = 1 then 0 else tt.val; rw [if_pos rfl]
      | ⟨1, _⟩ => show (0 : Nat) = if (1 : Nat) = 1 then 0 else b.val; rw [if_pos rfl]
      | ⟨2, _⟩ => show q.val = if (1024 : Nat) = 1 then 0 else q.val; rw [if_neg (by decide)]),
    shapeCast_apply _ c2 (ix3 (0 : Fin 1) (0 : Fin 1) q) (ix1 q)
      (by rewrite [Shape.rowMajor_val_one, Shape.rowMajor_val_three]
          show q.val = (0 * 1 + 0) * 1024 + q.val; omega),
    shapeCast_apply v c1 (ix1 q) (ix2 (0 : Fin 1) q)
      (by rewrite [Shape.rowMajor_val_two, Shape.rowMajor_val_one]
          show 0 * 1024 + q.val = q.val; omega)]

/-- The recurrent rows loaded as a slab of one, flattened, reshaped back and broadcast over the timesteps. -/
theorem au_row (v : Vec Ideal S1x64x1024 .f32) (c1 : S1x64x1024.ShapeCasts S64x1024) (c2 : S64x1024.ShapeCasts S1x64x1024)
    (bc : S1x64x1024.Broadcasts S8x64x1024) (tt : Fin 8) (b : Fin 64) (q : Fin 1024) :
    broadcastTo S8x64x1024 (shapeCast S1x64x1024 (shapeCast S64x1024 v c1) c2) bc (ix3 tt b q) = v (ix3 (0 : Fin 1) b q) := by
  rw [shapeCast_shapeCast v c1 c2, broadcastTo_apply v bc (ix3 tt b q) (ix3 (0 : Fin 1) b q) (fun a => by
      match a with
      | ⟨0, _⟩ => show (0 : Nat) = if (1 : Nat) = 1 then 0 else tt.val; rw [if_pos rfl]
      | ⟨1, _⟩ => show b.val = if (64 : Nat) = 1 then 0 else b.val; rw [if_neg (by decide)]
      | ⟨2, _⟩ => show q.val = if (1024 : Nat) = 1 then 0 else q.val; rw [if_neg (by decide)])]

/-- The hidden rows given a unit layer axis: the entries are kept. -/
theorem layer_cast (v : Vec Ideal S8x64x1024 .f32) (hc : S8x64x1024.ShapeCasts S8x1x64x1024)
    (tt : Fin 8) (b : Fin 64) (q : Fin 1024) :
    shapeCast S8x1x64x1024 v hc (ix4 tt (0 : Fin 1) b q) = v (ix3 tt b q) :=
  shapeCast_apply v hc (ix4 tt (0 : Fin 1) b q) (ix3 tt b q)
    (by rewrite [Shape.rowMajor_val_three, Shape.rowMajor_val_four]
        show (tt.val * 64 + b.val) * 1024 + q.val = ((tt.val * 1 + 0) * 64 + b.val) * 1024 + q.val; omega)

/-! ## The body's four stages, row by row -/

/-- Layer 0's hidden block is `cellH` of the embedded rows. -/
theorem pay4_apply (v0 : Vec Ideal S8x64x1024 .bf16) (v2 : Vec Ideal S1x1024x1024 .bf16) (v4 : Vec Ideal S1x1024 .f32)
    (v6 : Vec Ideal S1x64x1024 .f32) (tt : Fin 8) (b : Fin 64) (h : Fin 1024) :
    k0_pay4 (F := Ideal) v0 v2 v4 v6 (ix3 tt b h)
      = cellH (fun k => v0 (ix3 tt b k)) (fun k q => v2 (ix3 (0 : Fin 1) k q)) (fun q => v4 (ix2 (0 : Fin 1) q))
          (fun q => v6 (ix3 (0 : Fin 1) b q)) h := by
  unfold k0_pay4
  show Ideal.tanh ((_ + _) + _) = _
  rw [matmul_row, bias_row, au_row]
  simp only [shapeCast_self, wcast]
  rfl

/-- … stored under a unit layer axis. -/
theorem pay5_apply (v0 : Vec Ideal S8x64x1024 .bf16) (v2 : Vec Ideal S1x1024x1024 .bf16) (v4 : Vec Ideal S1x1024 .f32)
    (v6 : Vec Ideal S1x64x1024 .f32) (tt : Fin 8) (b : Fin 64) (h : Fin 1024) :
    k0_pay5 (F := Ideal) v0 v2 v4 v6 (ix4 tt (0 : Fin 1) b h) = k0_pay4 (F := Ideal) v0 v2 v4 v6 (ix3 tt b h) := by
  unfold k0_pay5
  exact layer_cast _ _ tt b h

/-- Layer 0's output block is `cellX` of its hidden rows (the narrowing of the format is the identity here). -/
theorem pay6_apply (v0 : Vec Ideal S8x64x1024 .bf16) (v2 : Vec Ideal S1x1024x1024 .bf16) (v4 : Vec Ideal S1x1024 .f32)
    (v6 : Vec Ideal S1x64x1024 .f32) (v8 : Vec Ideal S1x1024x1024 .bf16) (v10 : Vec Ideal S1x1024 .f32)
    (tt : Fin 8) (b : Fin 64) (e : Fin 1024) :
    k0_pay6 (F := Ideal) v0 v2 v4 v6 v8 v10 (ix3 tt b e)
      = cellX (fun k => k0_pay4 (F := Ideal) v0 v2 v4 v6 (ix3 tt b k)) (fun k q => v8 (ix3 (0 : Fin 1) k q))
          (fun q => v10 (ix2 (0 : Fin 1) q)) e := by
  unfold k0_pay6
  show Ideal.tanh (_ + _) = _
  rw [matmul_row, bias_row]
  simp only [wcast, truncf_apply]
  rfl

/-- Layer 1's hidden block is `cellH` of the rows it is given. -/
theorem pay1_apply (v33 : FVec Ideal S8x64x1024 .bf16) (v34 : Vec Ideal S1x1024x1024 .bf16) (v36 : Vec Ideal S1x1024 .f32)
    (v38 : Vec Ideal S1x64x1024 .f32) (tt : Fin 8) (b : Fin 64) (h : Fin 1024) :
    k0_pay1 (F := Ideal) v33 v34 v36 v38 (ix3 tt b h)
      = cellH (fun k => v33 (ix3 tt b k)) (fun k q => v34 (ix3 (0 : Fin 1) k q)) (fun q => v36 (ix2 (0 : Fin 1) q))
          (fun q => v38 (ix3 (0 : Fin 1) b q)) h := by
  unfold k0_pay1
  show Ideal.tanh ((_ + _) + _) = _
  rw [matmul_row, bias_row, au_row]
  simp only [wcast]
  rfl

/-- … stored under a unit layer axis. -/
theorem pay2_apply (v33 : FVec Ideal S8x64x1024 .bf16) (v34 : Vec Ideal S1x1024x1024 .bf16) (v36 : Vec Ideal S1x1024 .f32)
    (v38 : Vec Ideal S1x64x1024 .f32) (tt : Fin 8) (b : Fin 64) (h : Fin 1024) :
    k0_pay2 (F := Ideal) v33 v34 v36 v38 (ix4 tt (0 : Fin 1) b h) = k0_pay1 (F := Ideal) v33 v34 v36 v38 (ix3 tt b h) := by
  unfold k0_pay2
  exact layer_cast _ _ tt b h

/-- Layer 1's output block is `cellX` of its hidden rows. -/
theorem pay3_apply (v33 : FVec Ideal S8x64x1024 .bf16) (v34 : Vec Ideal S1x1024x1024 .bf16) (v36 : Vec Ideal S1x1024 .f32)
    (v38 : Vec Ideal S1x64x1024 .f32) (v40 : Vec Ideal S1x1024x1024 .bf16) (v42 : Vec Ideal S1x1024 .f32)
    (tt : Fin 8) (b : Fin 64) (e : Fin 1024) :
    k0_pay3 (F := Ideal) v33 v34 v36 v38 v40 v42 (ix3 tt b e)
      = cellX (fun k => k0_pay1 (F := Ideal) v33 v34 v36 v38 (ix3 tt b k)) (fun k q => v40 (ix3 (0 : Fin 1) k q))
          (fun q => v42 (ix2 (0 : Fin 1) q)) e := by
  unfold k0_pay3
  show Ideal.tanh (_ + _) = _
  rw [matmul_row, bias_row]
  simp only [wcast, truncf_apply]
  rfl

/-! ## The loads: a slab of one out of a stack of two -/

/-- The whole block of embedded rows. -/
theorem ld_x (x : Vec Ideal S8x64x1024 .bf16) (tt : Fin 8) (b : Fin 64) (q : Fin 1024) :
    View.ld x r0_0 (ix3 tt b q) = x (ix3 tt b q) :=
  congrArg x (funext fun a => Fin.ext (by
    match a with
    | ⟨0, _⟩ => show 0 + 1 * tt.val = tt.val; omega
    | ⟨1, _⟩ => show 0 + 1 * b.val = b.val; omega
    | ⟨2, _⟩ => show 0 + 1 * q.val = q.val; omega))

/-- Slab 0 of a stack of two matrices. -/
theorem ld_m0 (x : Vec Ideal S2x1024x1024 .bf16) (p : Fin 1024) (q : Fin 1024) :
    View.ld x r0_1 (ix3 (0 : Fin 1) p q) = x (ix3 (0 : Fin 2) p q) :=
  congrArg x (funext fun a => Fin.ext (by
    match a with
    | ⟨0, _⟩ => rfl
    | ⟨1, _⟩ => show 0 + 1 * p.val = p.val; omega
    | ⟨2, _⟩ => show 0 + 1 * q.val = q.val; omega))

/-- Slab 1 of a stack of two matrices. -/
theorem ld_m1 (x : Vec Ideal S2x1024x1024 .bf16) (p : Fin 1024) (q : Fin 1024) :
    View.ld x r0_5 (ix3 (0 : Fin 1) p q) = x (ix3 (1 : Fin 2) p q) :=
  congrArg x (funext fun a => Fin.ext (by
    match a with
    | ⟨0, _⟩ => rfl
    | ⟨1, _⟩ => show 0 + 1 * p.val = p.val; omega
    | ⟨2, _⟩ => show 0 + 1 * q.val = q.val; omega))

/-- Row 0 of a pair of bias rows. -/
theorem ld_b0 (x : Vec Ideal S2x1024 .f32) (q : Fin 1024) :
    View.ld x r0_2 (ix2 (0 : Fin 1) q) = x (ix2 (0 : Fin 2) q) :=
  congrArg x (funext fun a => Fin.ext (by
    match a with
    | ⟨0, _⟩ => rfl
    | ⟨1, _⟩ => show 0 + 1 * q.val = q.val; omega))

/-- Row 1 of a pair of bias rows. -/
theorem ld_b1 (x : Vec Ideal S2x1024 .f32) (q : Fin 1024) :
    View.ld x r0_6 (ix2 (0 : Fin 1) q) = x (ix2 (1 : Fin 2) q) :=
  congrArg x (funext fun a => Fin.ext (by
    match a with
    | ⟨0, _⟩ => rfl
    | ⟨1, _⟩ => show 0 + 1 * q.val = q.val; omega))

/-- Slab 0 of the two layers' recurrent rows. -/
theorem ld_a0 (x : Vec Ideal S2x64x1024 .f32) (p : Fin 64) (q : Fin 1024) :
    View.ld x r0_3 (ix3 (0 : Fin 1) p q) = x (ix3 (0 : Fin 2) p q) :=
  congrArg x (funext fun a => Fin.ext (by
    match a with
    | ⟨0, _⟩ => rfl
    | ⟨1, _⟩ => show 0 + 1 * p.val = p.val; omega
    | ⟨2, _⟩ => show 0 + 1 * q.val = q.val; omega))

/-- Slab 1 of the two layers' recurrent rows. -/
theorem ld_a1 (x : Vec Ideal S2x64x1024 .f32) (p : Fin 64) (q : Fin 1024) :
    View.ld x r0_7 (ix3 (0 : Fin 1) p q) = x (ix3 (1 : Fin 2) p q) :=
  congrArg x (funext fun a => Fin.ext (by
    match a with
    | ⟨0, _⟩ => rfl
    | ⟨1, _⟩ => show 0 + 1 * p.val = p.val; omega
    | ⟨2, _⟩ => show 0 + 1 * q.val = q.val; omega))

/-! ## What the stores leave in the two output buffers -/

/-- Layer 1's store covers the buffer's entries with layer coordinate `1`. -/
theorem emb_layer1 (tt : Fin 8) (b : Fin 64) (h : Fin 1024) :
    r0_8.emb (ix4 tt (0 : Fin 1) b h) = ix4 tt (1 : Fin 2) b h :=
  funext fun a => Fin.ext (by
    match a with
    | ⟨0, _⟩ => show 0 + 1 * tt.val = tt.val; omega
    | ⟨1, _⟩ => rfl
    | ⟨2, _⟩ => show 0 + 1 * b.val = b.val; omega
    | ⟨3, _⟩ => show 0 + 1 * h.val = h.val; omega)

/-- Layer 0's store covers the entries with layer coordinate `0`. -/
theorem emb_layer0 (tt : Fin 8) (b : Fin 64) (h : Fin 1024) :
    r0_4.emb (ix4 tt (0 : Fin 1) b h) = ix4 tt (0 : Fin 2) b h :=
  funext fun a => Fin.ext (by
    match a with
    | ⟨0, _⟩ => show 0 + 1 * tt.val = tt.val; omega
    | ⟨1, _⟩ => rfl
    | ⟨2, _⟩ => show 0 + 1 * b.val = b.val; omega
    | ⟨3, _⟩ => show 0 + 1 * h.val = h.val; omega)

/-- … and those are not under layer 1's store. -/
theorem not_mem_layer1 (tt : Fin 8) (b : Fin 64) (h : Fin 1024) :
    ix4 tt (0 : Fin 2) b h ∉ (r0_8 : Rect S8x2x64x1024).set := fun hm =>
  absurd (show (1 : Nat) ≤ 0 from (Rect.mem_set_unit.mp hm 1).1) (by decide)

/-- The hidden rows' buffer after the body, read where the layer coordinate is `1`: layer 1's store. -/
theorem canon_layer1 (p1 p0 : Vec Ideal S8x1x64x1024 .f32) (tt : Fin 8) (b : Fin 64) (h : Fin 1024) :
    View.canon ([⟨r0_8, p1⟩, ⟨r0_4, p0⟩] : List (View.Piece (Elt Ideal) S8x2x64x1024 .f32)) (ix4 tt (1 : Fin 2) b h)
      = p1 (ix4 tt (0 : Fin 1) b h) := by
  rw [← emb_layer1 tt b h]
  exact View.canon_cons_emb r0_8 p1 _ _

/-- … and where it is `0`: layer 0's. -/
theorem canon_layer0 (p1 p0 : Vec Ideal S8x1x64x1024 .f32) (tt : Fin 8) (b : Fin 64) (h : Fin 1024) :
    View.canon ([⟨r0_8, p1⟩, ⟨r0_4, p0⟩] : List (View.Piece (Elt Ideal) S8x2x64x1024 .f32)) (ix4 tt (0 : Fin 2) b h)
      = p0 (ix4 tt (0 : Fin 1) b h) := by
  rw [View.canon_cons_of_not_mem (⟨r0_8, p1⟩ : View.Piece (Elt Ideal) S8x2x64x1024 .f32) [⟨r0_4, p0⟩] (not_mem_layer1 tt b h),
    ← emb_layer0 tt b h]
  exact View.canon_cons_emb r0_4 p0 _ _

/-- The output rows' buffer is written whole by one store. -/
theorem canon_out (p : Vec Ideal S8x64x1024 .bf16) :
    View.canon ([⟨r0_0, p⟩] : List (View.Piece (Elt Ideal) S8x64x1024 .bf16)) = p :=
  View.canon_unit_zero (funext fun a => by
    match a with
    | ⟨0, _⟩ => rfl
    | ⟨1, _⟩ => rfl
    | ⟨2, _⟩ => rfl) _ p

/-! ## The two cells depend on their arguments entry by entry -/

theorem cellH_congr {x x' : Fin 1024 → EReal} {w w' : Fin 1024 → Fin 1024 → EReal} {wb wb' au au' : Fin 1024 → EReal}
    (hx : ∀ e, x e = x' e) (hw : ∀ e h, w e h = w' e h) (hwb : ∀ h, wb h = wb' h) (hau : ∀ h, au h = au' h)
    (h : Fin 1024) : cellH x w wb au h = cellH x' w' wb' au' h := by
  have e1 : x = x' := funext hx
  have e2 : w = w' := funext fun e => funext (hw e)
  have e3 : wb = wb' := funext hwb
  have e4 : au = au' := funext hau
  rw [e1, e2, e3, e4]

theorem cellX_congr {hr hr' : Fin 1024 → EReal} {f f' : Fin 1024 → Fin 1024 → EReal} {fb fb' : Fin 1024 → EReal}
    (hh : ∀ h, hr h = hr' h) (hf : ∀ h e, f h e = f' h e) (hfb : ∀ e, fb e = fb' e)
    (e : Fin 1024) : cellX hr f fb e = cellX hr' f' fb' e := by
  have e1 : hr = hr' := funext hh
  have e2 : f = f' := funext fun h => funext (hf h)
  have e3 : fb = fb' := funext hfb
  rw [e1, e2, e3]

/-! ## The rows the body works on, from the blocks it is handed -/

variable (x0 : Vec Ideal S8x64x1024 .bf16) (x1 : Vec Ideal S2x1024x1024 .bf16) (x2 : Vec Ideal S2x1024 .f32)
  (x3 : Vec Ideal S2x64x1024 .f32) (x4 : Vec Ideal S2x1024x1024 .bf16) (x5 : Vec Ideal S2x1024 .f32)

/-- The embedded row of the block's timestep `tt`, batch row `b`. -/
def bX (tt : Fin 8) (b : Fin 64) : Fin 1024 → EReal := fun e => x0 (ix3 tt b e)
/-- Layer `l`'s input matrix, entry `(e, h)`. -/
def bW (l : Fin 2) : Fin 1024 → Fin 1024 → EReal := fun e h => x1 (ix3 l e h)
/-- Layer `l`'s input bias. -/
def bWb (l : Fin 2) : Fin 1024 → EReal := fun h => x2 (ix2 l h)
/-- Layer `l`'s recurrent term, batch row `b`. -/
def bAU (l : Fin 2) (b : Fin 64) : Fin 1024 → EReal := fun h => x3 (ix3 l b h)
/-- Layer `l`'s output matrix, entry `(h, e)`. -/
def bF (l : Fin 2) : Fin 1024 → Fin 1024 → EReal := fun h e => x4 (ix3 l h e)
/-- Layer `l`'s output bias. -/
def bFb (l : Fin 2) : Fin 1024 → EReal := fun e => x5 (ix2 l e)

/-- Layer 0's hidden row. -/
def bH0 (tt : Fin 8) (b : Fin 64) : Fin 1024 → EReal := cellH (bX x0 tt b) (bW x1 0) (bWb x2 0) (bAU x3 0 b)
/-- Layer 0's output row. -/
def bX1 (tt : Fin 8) (b : Fin 64) : Fin 1024 → EReal := cellX (bH0 x0 x1 x2 x3 tt b) (bF x4 0) (bFb x5 0)
/-- Layer 1's hidden row. -/
def bH1 (tt : Fin 8) (b : Fin 64) : Fin 1024 → EReal :=
  cellH (bX1 x0 x1 x2 x3 x4 x5 tt b) (bW x1 1) (bWb x2 1) (bAU x3 1 b)
/-- Layer 1's output row. -/
def bX2 (tt : Fin 8) (b : Fin 64) : Fin 1024 → EReal := cellX (bH1 x0 x1 x2 x3 x4 x5 tt b) (bF x4 1) (bFb x5 1)

/-! ## The four stages over the blocks the body is handed -/

/-- Layer 0's hidden rows. -/
theorem stage_h0 (tt : Fin 8) (b : Fin 64) (h : Fin 1024) :
    k0_pay4 (F := Ideal) (View.ld x0 r0_0) (View.ld x1 r0_1) (View.ld x2 r0_2) (View.ld x3 r0_3) (ix3 tt b h)
      = bH0 x0 x1 x2 x3 tt b h :=
  (pay4_apply _ _ _ _ tt b h).trans
    (cellH_congr (fun e => ld_x x0 tt b e) (fun e q => ld_m0 x1 e q) (fun q => ld_b0 x2 q) (fun q => ld_a0 x3 b q) h)

/-- Layer 0's output rows. -/
theorem stage_x1 (tt : Fin 8) (b : Fin 64) (e : Fin 1024) :
    k0_pay6 (F := Ideal) (View.ld x0 r0_0) (View.ld x1 r0_1) (View.ld x2 r0_2) (View.ld x3 r0_3) (View.ld x4 r0_1)
        (View.ld x5 r0_2) (ix3 tt b e)
      = bX1 x0 x1 x2 x3 x4 x5 tt b e :=
  (pay6_apply _ _ _ _ _ _ tt b e).trans
    (cellX_congr (fun k => stage_h0 x0 x1 x2 x3 tt b k) (fun k q => ld_m0 x4 k q) (fun q => ld_b0 x5 q) e)

/-- Layer 1's hidden rows. -/
theorem stage_h1 (tt : Fin 8) (b : Fin 64) (h : Fin 1024) :
    k0_pay1 (F := Ideal)
        (k0_pay6 (View.ld x0 r0_0) (View.ld x1 r0_1) (View.ld x2 r0_2) (View.ld x3 r0_3) (View.ld x4 r0_1) (View.ld x5 r0_2))
        (View.ld x1 r0_5) (View.ld x2 r0_6) (View.ld x3 r0_7) (ix3 tt b h)
      = bH1 x0 x1 x2 x3 x4 x5 tt b h :=
  (pay1_apply _ _ _ _ tt b h).trans
    (cellH_congr (fun k => stage_x1 x0 x1 x2 x3 x4 x5 tt b k) (fun e q => ld_m1 x1 e q) (fun q => ld_b1 x2 q)
      (fun q => ld_a1 x3 b q) h)

/-- Layer 1's output rows. -/
theorem stage_x2 (tt : Fin 8) (b : Fin 64) (e : Fin 1024) :
    k0_pay3 (F := Ideal)
        (k0_pay6 (View.ld x0 r0_0) (View.ld x1 r0_1) (View.ld x2 r0_2) (View.ld x3 r0_3) (View.ld x4 r0_1) (View.ld x5 r0_2))
        (View.ld x1 r0_5) (View.ld x2 r0_6) (View.ld x3 r0_7) (View.ld x4 r0_5) (View.ld x5 r0_6) (ix3 tt b e)
      = bX2 x0 x1 x2 x3 x4 x5 tt b e :=
  (pay3_apply _ _ _ _ _ _ tt b e).trans
    (cellX_congr (fun k => stage_h1 x0 x1 x2 x3 x4 x5 tt b k) (fun k q => ld_m1 x4 k q) (fun q => ld_b1 x5 q) e)

/-! ## The body, read at an index -/

theorem body_h0 (tt : Fin 8) (b : Fin 64) (h : Fin 1024) :
    out0_6 (F := Ideal) x0 x1 x2 x3 x4 x5 (ix4 tt (0 : Fin 2) b h) = bH0 x0 x1 x2 x3 tt b h := by
  unfold out0_6
  rw [canon_layer0, pay5_apply]
  exact stage_h0 x0 x1 x2 x3 tt b h

theorem body_h1 (tt : Fin 8) (b : Fin 64) (h : Fin 1024) :
    out0_6 (F := Ideal) x0 x1 x2 x3 x4 x5 (ix4 tt (1 : Fin 2) b h) = bH1 x0 x1 x2 x3 x4 x5 tt b h := by
  unfold out0_6
  rw [canon_layer1, pay2_apply]
  exact stage_h1 x0 x1 x2 x3 x4 x5 tt b h

theorem body_x (tt : Fin 8) (b : Fin 64) (e : Fin 1024) :
    out0_7 (F := Ideal) x0 x1 x2 x3 x4 x5 (ix3 tt b e) = bX2 x0 x1 x2 x3 x4 x5 tt b e := by
  unfold out0_7
  rw [canon_out]
  exact stage_x2 x0 x1 x2 x3 x4 x5 tt b e

end Cert.KernelIdeal.RnnBody

end
-- ==== Proof.RnnRegion.lean ====
/- The recurrent region of the idealized kernel read as values: after the region, entry (t, layer, b, h) of the
   hidden-state array is the layer's hidden row of the cell at timestep t and batch entry b, and entry (t, b, e) of the
   final-activation array is layer 1's output row, each as a nest of the two row maps of the cell over the arrays the region
   is entered with. The body's value at an index of its block is taken from the module on the body; here: the index maps
   over the grid (the activations' block holds 8 consecutive timesteps, every other input block is its whole array), each
   input block's rows as rows of its array, each point's written-back blocks as blocks of two whole-array functions, the
   blocks' tiling of the arrays, and the arrays after the region. -/
import proofs.«141810_j30580167147721_2_alg».proof.Proof.Gen.KernelIdeal.Frame
import proofs.«141810_j30580167147721_2_alg».proof.Proof.Spec
import proofs.«141810_j30580167147721_2_alg».proof.Proof.RnnBody
import Idealize.ShloMosaic.Lib.Pipeline.Value
import Idealize.ShloMosaic.Lib.ValueIdx

noncomputable section

namespace Cert.KernelIdeal.RnnRegion

open Cert.KernelIdeal Cert.KernelIdeal.Gen Idealize.ShloMosaic Idealize.ShloMosaic.TcCoe Idealize.SL.Sem
open Idealize.ShloMosaic.Pipeline (Dat)
open Idealize.ShloMosaic.ValueIdx
open Cert.RnnSpec Cert.KernelIdeal.RnnBody
open scoped BigOperators

section Region
variable (V : (c : Dev nD) → (b : Ref sig .tc) → Buf (Elt Ideal) ((c : Thread nD τ).loc b))

/-! ## The region's arrays as rows and matrices -/

/-- Row `(t, b)` of the input activations. -/
def X0 (c : Dev nD) (t : Fin 128) (b : Fin 64) : Fin 1024 → EReal := fun e => V c (Pipeline.arrRef spec0 0) (ix3 t b e)
/-- Layer `l`'s input matrix, entry (input coordinate, hidden coordinate). -/
def Wt (c : Dev nD) (l : Fin 2) : Fin 1024 → Fin 1024 → EReal := fun e h => V c (Pipeline.arrRef spec0 1) (ix3 l e h)
/-- Layer `l`'s hidden bias. -/
def Wbias (c : Dev nD) (l : Fin 2) : Fin 1024 → EReal := fun h => V c (Pipeline.arrRef spec0 2) (ix2 l h)
/-- Layer `l`'s recurrent row for batch entry `b`. -/
def AU (c : Dev nD) (l : Fin 2) (b : Fin 64) : Fin 1024 → EReal := fun h => V c (Pipeline.arrRef spec0 3) (ix3 l b h)
/-- Layer `l`'s output matrix, entry (hidden coordinate, output coordinate). -/
def Ft (c : Dev nD) (l : Fin 2) : Fin 1024 → Fin 1024 → EReal := fun h e => V c (Pipeline.arrRef spec0 4) (ix3 l h e)
/-- Layer `l`'s output bias. -/
def Fbias (c : Dev nD) (l : Fin 2) : Fin 1024 → EReal := fun e => V c (Pipeline.arrRef spec0 5) (ix2 l e)

/-- The two layers' rows at timestep `t`, batch entry `b`. -/
def H0 (c : Dev nD) (t : Fin 128) (b : Fin 64) : Fin 1024 → EReal := cellH (X0 V c t b) (Wt V c 0) (Wbias V c 0) (AU V c 0 b)
def X1 (c : Dev nD) (t : Fin 128) (b : Fin 64) : Fin 1024 → EReal := cellX (H0 V c t b) (Ft V c 0) (Fbias V c 0)
def H1 (c : Dev nD) (t : Fin 128) (b : Fin 64) : Fin 1024 → EReal := cellH (X1 V c t b) (Wt V c 1) (Wbias V c 1) (AU V c 1 b)
def X2 (c : Dev nD) (t : Fin 128) (b : Fin 64) : Fin 1024 → EReal := cellX (H1 V c t b) (Ft V c 1) (Fbias V c 1)

/-- The hidden-state array as one function of its index: layer 0's row where the layer coordinate is 0, layer 1's otherwise. -/
def hArr (c : Dev nD) : S128x2x64x1024.Idx → EReal :=
  fun i => if (i 1).val = 0 then H0 V c (i 0) (i 2) (i 3) else H1 V c (i 0) (i 2) (i 3)
/-- The final-activation array as one function of its index. -/
def xArr (c : Dev nD) : S128x64x1024.Idx → EReal := fun i => X2 V c (i 0) (i 1) (i 2)

/-! ## The index maps over the grid -/

/-- The input activations' block moves with the outputs' along the time axis; every other input window's block is its whole
    array (block index zero on every axis). -/
theorem idx_in : ∀ t : Fin cfg0.N,
    win0_0.index t (0 : Fin 3) = win0_6.index t (0 : Fin 4) ∧ win0_0.index t (1 : Fin 3) = 0 ∧ win0_0.index t (2 : Fin 3) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 3) = 0 ∧ win0_3.index t (1 : Fin 3) = 0 ∧ win0_3.index t (2 : Fin 3) = 0
    ∧ win0_4.index t (0 : Fin 3) = 0 ∧ win0_4.index t (1 : Fin 3) = 0 ∧ win0_4.index t (2 : Fin 3) = 0
    ∧ win0_5.index t (0 : Fin 2) = 0 ∧ win0_5.index t (1 : Fin 2) = 0 :=
  (by decide +kernel : ∀ t : Fin grid0.N, _)

/-- The two outputs' blocks move together along the time axis and nowhere else, within range. -/
theorem idx_out : ∀ t : Fin cfg0.N,
    win0_6.index t (1 : Fin 4) = 0 ∧ win0_6.index t (2 : Fin 4) = 0 ∧ win0_6.index t (3 : Fin 4) = 0 ∧ win0_6.index t (0 : Fin 4) ≤ 15
    ∧ win0_7.index t (0 : Fin 3) = win0_6.index t (0 : Fin 4) ∧ win0_7.index t (1 : Fin 3) = 0 ∧ win0_7.index t (2 : Fin 3) = 0 :=
  (by decide +kernel : ∀ t : Fin grid0.N, _)

/-- Every block of 8 timesteps is some point's. -/
theorem idx_onto : ∀ q : Fin 16, ∃ t : Fin cfg0.N, win0_6.index t = ![q.val, 0, 0, 0] ∧ win0_7.index t = ![q.val, 0, 0] :=
  (by decide +kernel : ∀ q : Fin 16, ∃ t : Fin grid0.N, win0_6.index t = ![q.val, 0, 0, 0] ∧ win0_7.index t = ![q.val, 0, 0])

/-! ## The input windows' blocks as rows and matrices of the arrays -/

/-- At point `t` the activations' block holds rows `8·(block index) + tt` of the array. -/
theorem blkX (c : Dev nD) (t : Fin cfg0.N) (tt : Fin 8) (b : Fin 64) (T : Fin 128)
    (hT : T.val = win0_6.index t (0 : Fin 4) * 8 + tt.val) :
    bX (iblk0 V c 0 t) tt b = X0 V c T b := by
  obtain ⟨e0, e1, e2, -⟩ := idx_in t
  funext e
  show V c (Pipeline.arrRef spec0 0) (((cfg0.win 0).blk t).view.emb (ix3 tt b e)) = V c (Pipeline.arrRef spec0 0) (ix3 T b e)
  refine congrArg _ ?_
  funext a; apply Fin.ext
  match a with
  | ⟨0, _⟩ => show win0_0.index t (0 : Fin 3) * 8 + 1 * tt.val = T.val; omega
  | ⟨1, _⟩ => show win0_0.index t (1 : Fin 3) * 64 + 1 * b.val = b.val; omega
  | ⟨2, _⟩ => show win0_0.index t (2 : Fin 3) * 1024 + 1 * e.val = e.val; omega

theorem blkW (c : Dev nD) (t : Fin cfg0.N) (l : Fin 2) : bW (iblk0 V c 1 t) l = Wt V c l := by
  obtain ⟨-, -, -, e0, e1, e2, -⟩ := idx_in t
  funext e h
  show V c (Pipeline.arrRef spec0 1) (((cfg0.win 1).blk t).view.emb (ix3 l e h)) = V c (Pipeline.arrRef spec0 1) (ix3 l e h)
  refine congrArg _ ?_
  funext a; apply Fin.ext
  match a with
  | ⟨0, _⟩ => show win0_1.index t (0 : Fin 3) * 2 + 1 * l.val = l.val; omega
  | ⟨1, _⟩ => show win0_1.index t (1 : Fin 3) * 1024 + 1 * e.val = e.val; omega
  | ⟨2, _⟩ => show win0_1.index t (2 : Fin 3) * 1024 + 1 * h.val = h.val; omega

theorem blkWb (c : Dev nD) (t : Fin cfg0.N) (l : Fin 2) : bWb (iblk0 V c 2 t) l = Wbias V c l := by
  obtain ⟨-, -, -, -, -, -, e0, e1, -⟩ := idx_in t
  funext h
  show V c (Pipeline.arrRef spec0 2) (((cfg0.win 2).blk t).view.emb (ix2 l h)) = V c (Pipeline.arrRef spec0 2) (ix2 l h)
  refine congrArg _ ?_
  funext a; apply Fin.ext
  match a with
  | ⟨0, _⟩ => show win0_2.index t (0 : Fin 2) * 2 + 1 * l.val = l.val; omega
  | ⟨1, _⟩ => show win0_2.index t (1 : Fin 2) * 1024 + 1 * h.val = h.val; omega

theorem blkAU (c : Dev nD) (t : Fin cfg0.N) (l : Fin 2) (b : Fin 64) : bAU (iblk0 V c 3 t) l b = AU V c l b := by
  obtain ⟨-, -, -, -, -, -, -, -, e0, e1, e2, -⟩ := idx_in t
  funext h
  show V c (Pipeline.arrRef spec0 3) (((cfg0.win 3).blk t).view.emb (ix3 l b h)) = V c (Pipeline.arrRef spec0 3) (ix3 l b h)
  refine congrArg _ ?_
  funext a; apply Fin.ext
  match a with
  | ⟨0, _⟩ => show win0_3.index t (0 : Fin 3) * 2 + 1 * l.val = l.val; omega
  | ⟨1, _⟩ => show win0_3.index t (1 : Fin 3) * 64 + 1 * b.val = b.val; omega
  | ⟨2, _⟩ => show win0_3.index t (2 : Fin 3) * 1024 + 1 * h.val = h.val; omega

theorem blkF (c : Dev nD) (t : Fin cfg0.N) (l : Fin 2) : bF (iblk0 V c 4 t) l = Ft V c l := by
  obtain ⟨-, -, -, -, -, -, -, -, -, -, -, e0, e1, e2, -⟩ := idx_in t
  funext h e
  show V c (Pipeline.arrRef spec0 4) (((cfg0.win 4).blk t).view.emb (ix3 l h e)) = V c (Pipeline.arrRef spec0 4) (ix3 l h e)
  refine congrArg _ ?_
  funext a; apply Fin.ext
  match a with
  | ⟨0, _⟩ => show win0_4.index t (0 : Fin 3) * 2 + 1 * l.val = l.val; omega
  | ⟨1, _⟩ => show win0_4.index t (1 : Fin 3) * 1024 + 1 * h.val = h.val; omega
  | ⟨2, _⟩ => show win0_4.index t (2 : Fin 3) * 1024 + 1 * e.val = e.val; omega

theorem blkFb (c : Dev nD) (t : Fin cfg0.N) (l : Fin 2) : bFb (iblk0 V c 5 t) l = Fbias V c l := by
  obtain ⟨-, -, -, -, -, -, -, -, -, -, -, -, -, -, e0, e1⟩ := idx_in t
  funext e
  show V c (Pipeline.arrRef spec0 5) (((cfg0.win 5).blk t).view.emb (ix2 l e)) = V c (Pipeline.arrRef spec0 5) (ix2 l e)
  refine congrArg _ ?_
  funext a; apply Fin.ext
  match a with
  | ⟨0, _⟩ => show win0_5.index t (0 : Fin 2) * 2 + 1 * l.val = l.val; omega
  | ⟨1, _⟩ => show win0_5.index t (1 : Fin 2) * 1024 + 1 * e.val = e.val; omega

/-! ## What each point writes back, as blocks of the two whole-array functions -/

/-- The four rows of the cell over the blocks at point `t` are the rows over the arrays at timestep `T`. -/
theorem rows_eq (c : Dev nD) (t : Fin cfg0.N) (tt : Fin 8) (b : Fin 64) (T : Fin 128)
    (hT : T.val = win0_6.index t (0 : Fin 4) * 8 + tt.val) :
    bH0 (iblk0 V c 0 t) (iblk0 V c 1 t) (iblk0 V c 2 t) (iblk0 V c 3 t) tt b = H0 V c T b
    ∧ bH1 (iblk0 V c 0 t) (iblk0 V c 1 t) (iblk0 V c 2 t) (iblk0 V c 3 t) (iblk0 V c 4 t) (iblk0 V c 5 t) tt b = H1 V c T b
    ∧ bX2 (iblk0 V c 0 t) (iblk0 V c 1 t) (iblk0 V c 2 t) (iblk0 V c 3 t) (iblk0 V c 4 t) (iblk0 V c 5 t) tt b = X2 V c T b := by
  have h0 : bH0 (iblk0 V c 0 t) (iblk0 V c 1 t) (iblk0 V c 2 t) (iblk0 V c 3 t) tt b = H0 V c T b := by
    unfold bH0 H0
    rw [blkX V c t tt b T hT, blkW, blkWb, blkAU]
  have x1 : bX1 (iblk0 V c 0 t) (iblk0 V c 1 t) (iblk0 V c 2 t) (iblk0 V c 3 t) (iblk0 V c 4 t) (iblk0 V c 5 t) tt b = X1 V c T b := by
    unfold bX1 X1
    rw [h0, blkF, blkFb]
  have h1 : bH1 (iblk0 V c 0 t) (iblk0 V c 1 t) (iblk0 V c 2 t) (iblk0 V c 3 t) (iblk0 V c 4 t) (iblk0 V c 5 t) tt b = H1 V c T b := by
    unfold bH1 H1
    rw [x1, blkW, blkWb, blkAU]
  refine ⟨h0, h1, ?_⟩
  unfold bX2 X2
  rw [h1, blkF, blkFb]

/-- What point `t` writes back to the hidden-state array is block `t` of `hArr`. -/
theorem flushed6_eq (c : Dev nD) (t : Fin cfg0.N) :
    (dat0 (F := Ideal) V c).flushed 6 t = ((cfg0.win 6).blk t).view.read (Elt Ideal) (hArr V c) := by
  show (cfg0.win 6).cut (grid0.coords t) ((dat0 V c).after 6 t) = _
  rw [after0_6]
  obtain ⟨o1, o2, o3, o0, -⟩ := idx_out t
  funext y
  obtain ⟨tt, l, b, h, rfl⟩ : ∃ (tt : Fin 8) (l : Fin 2) (b : Fin 64) (h : Fin 1024), y = ix4 tt l b h :=
    ⟨y 0, y 1, y 2, y 3, eq_ix4 y⟩
  show out0_6 (iblk0 V c 0 t) (iblk0 V c 1 t) (iblk0 V c 2 t) (iblk0 V c 3 t) (iblk0 V c 4 t) (iblk0 V c 5 t) (ix4 tt l b h)
    = hArr V c (((cfg0.win 6).blk t).view.emb (ix4 tt l b h))
  have hT : win0_6.index t (0 : Fin 4) * 8 + tt.val < 128 := by have := tt.isLt; omega
  have hi : (((cfg0.win 6).blk t).view.emb (ix4 tt l b h) : S128x2x64x1024.Idx)
      = ix4 (⟨win0_6.index t (0 : Fin 4) * 8 + tt.val, hT⟩ : Fin 128) l b h := by
    funext a; apply Fin.ext
    match a with
    | ⟨0, _⟩ => show win0_6.index t (0 : Fin 4) * 8 + 1 * tt.val = win0_6.index t (0 : Fin 4) * 8 + tt.val; omega
    | ⟨1, _⟩ => show win0_6.index t (1 : Fin 4) * 2 + 1 * l.val = l.val; omega
    | ⟨2, _⟩ => show win0_6.index t (2 : Fin 4) * 64 + 1 * b.val = b.val; omega
    | ⟨3, _⟩ => show win0_6.index t (3 : Fin 4) * 1024 + 1 * h.val = h.val; omega
  refine Eq.trans ?_ (congrArg (hArr V c) hi).symm
  obtain ⟨r0, r1, -⟩ := rows_eq V c t tt b ⟨_, hT⟩ rfl
  match l with
  | ⟨0, _⟩ =>
    refine (body_h0 _ _ _ _ _ _ tt b h).trans ?_
    show _ = H0 V c ⟨_, hT⟩ b h
    rw [r0]
  | ⟨1, _⟩ =>
    refine (body_h1 _ _ _ _ _ _ tt b h).trans ?_
    show _ = H1 V c ⟨_, hT⟩ b h
    rw [r1]

/-- What point `t` writes back to the final-activation array is block `t` of `xArr`. -/
theorem flushed7_eq (c : Dev nD) (t : Fin cfg0.N) :
    (dat0 (F := Ideal) V c).flushed 7 t = ((cfg0.win 7).blk t).view.read (Elt Ideal) (xArr V c) := by
  show (cfg0.win 7).cut (grid0.coords t) ((dat0 V c).after 7 t) = _
  rw [after0_7]
  obtain ⟨-, -, -, o0, p0, p1, p2⟩ := idx_out t
  funext y
  obtain ⟨tt, b, e, rfl⟩ : ∃ (tt : Fin 8) (b : Fin 64) (e : Fin 1024), y = ix3 tt b e := ⟨y 0, y 1, y 2, eq_ix3 y⟩
  show out0_7 (iblk0 V c 0 t) (iblk0 V c 1 t) (iblk0 V c 2 t) (iblk0 V c 3 t) (iblk0 V c 4 t) (iblk0 V c 5 t) (ix3 tt b e)
    = xArr V c (((cfg0.win 7).blk t).view.emb (ix3 tt b e))
  have hT : win0_6.index t (0 : Fin 4) * 8 + tt.val < 128 := by have := tt.isLt; omega
  have hi : (((cfg0.win 7).blk t).view.emb (ix3 tt b e) : S128x64x1024.Idx)
      = ix3 (⟨win0_6.index t (0 : Fin 4) * 8 + tt.val, hT⟩ : Fin 128) b e := by
    funext a; apply Fin.ext
    match a with
    | ⟨0, _⟩ => show win0_7.index t (0 : Fin 3) * 8 + 1 * tt.val = win0_6.index t (0 : Fin 4) * 8 + tt.val; omega
    | ⟨1, _⟩ => show win0_7.index t (1 : Fin 3) * 64 + 1 * b.val = b.val; omega
    | ⟨2, _⟩ => show win0_7.index t (2 : Fin 3) * 1024 + 1 * e.val = e.val; omega
  refine Eq.trans ?_ (congrArg (xArr V c) hi).symm
  obtain ⟨-, -, r2⟩ := rows_eq V c t tt b ⟨_, hT⟩ rfl
  refine (body_x _ _ _ _ _ _ tt b e).trans ?_
  show _ = X2 V c ⟨_, hT⟩ b e
  rw [r2]

/-! ## The blocks tile the two arrays -/

theorem mem_blk6 (t : Fin cfg0.N) (i : S128x2x64x1024.Idx) :
    i ∈ ((cfg0.win 6).blk t).view.set ↔ ∀ a : Fin 4, win0_6.index t a * S8x2x64x1024.size a ≤ (i a).val ∧ (i a).val < win0_6.index t a * S8x2x64x1024.size a + S8x2x64x1024.size a := by
  show i ∈ ((View.whole main_v110_0).slice (win0_6.rect t)).set ↔ _
  rw [View.set_slice_whole, Rect.mem_set_unit]
  exact Iff.rfl

theorem mem_blk7 (t : Fin cfg0.N) (i : S128x64x1024.Idx) :
    i ∈ ((cfg0.win 7).blk t).view.set ↔ ∀ a : Fin 3, win0_7.index t a * S8x64x1024.size a ≤ (i a).val ∧ (i a).val < win0_7.index t a * S8x64x1024.size a + S8x64x1024.size a := by
  show i ∈ ((View.whole main_v110_1).slice (win0_7.rect t)).set ↔ _
  rw [View.set_slice_whole, Rect.mem_set_unit]
  exact Iff.rfl

/-- Index `i` of the hidden-state array lies in the block of the point whose time block is `i 0 / 8`. -/
theorem cover6 (i : S128x2x64x1024.Idx) :
    ∃ t : Fin cfg0.N, (cfg0.win 6).flush t = true ∧ i ∈ ((cfg0.win 6).blk t).view.set := by
  have hi0 : (i 0).val < 128 := (i 0).isLt
  have hi1 : (i 1).val < 2 := (i 1).isLt
  have hi2 : (i 2).val < 64 := (i 2).isLt
  have hi3 : (i 3).val < 1024 := (i 3).isLt
  obtain ⟨t, ht, -⟩ := idx_onto ⟨(i 0).val / 8, by omega⟩
  have q0 : win0_6.index t (0 : Fin 4) = (i 0).val / 8 := congrFun ht 0
  have q1 : win0_6.index t (1 : Fin 4) = 0 := congrFun ht 1
  have q2 : win0_6.index t (2 : Fin 4) = 0 := congrFun ht 2
  have q3 : win0_6.index t (3 : Fin 4) = 0 := congrFun ht 3
  refine ⟨t, flush0_6 t, ?_⟩
  rw [mem_blk6]
  intro a
  match a with
  | ⟨0, _⟩ => show win0_6.index t (0 : Fin 4) * 8 ≤ (i 0).val ∧ (i 0).val < win0_6.index t (0 : Fin 4) * 8 + 8; omega
  | ⟨1, _⟩ => show win0_6.index t (1 : Fin 4) * 2 ≤ (i 1).val ∧ (i 1).val < win0_6.index t (1 : Fin 4) * 2 + 2; omega
  | ⟨2, _⟩ => show win0_6.index t (2 : Fin 4) * 64 ≤ (i 2).val ∧ (i 2).val < win0_6.index t (2 : Fin 4) * 64 + 64; omega
  | ⟨3, _⟩ => show win0_6.index t (3 : Fin 4) * 1024 ≤ (i 3).val ∧ (i 3).val < win0_6.index t (3 : Fin 4) * 1024 + 1024; omega

/-- Index `i` of the final-activation array lies in the block of the point whose time block is `i 0 / 8`. -/
theorem cover7 (i : S128x64x1024.Idx) :
    ∃ t : Fin cfg0.N, (cfg0.win 7).flush t = true ∧ i ∈ ((cfg0.win 7).blk t).view.set := by
  have hi0 : (i 0).val < 128 := (i 0).isLt
  have hi1 : (i 1).val < 64 := (i 1).isLt
  have hi2 : (i 2).val < 1024 := (i 2).isLt
  obtain ⟨t, -, ht⟩ := idx_onto ⟨(i 0).val / 8, by omega⟩
  have q0 : win0_7.index t (0 : Fin 3) = (i 0).val / 8 := congrFun ht 0
  have q1 : win0_7.index t (1 : Fin 3) = 0 := congrFun ht 1
  have q2 : win0_7.index t (2 : Fin 3) = 0 := congrFun ht 2
  refine ⟨t, flush0_7 t, ?_⟩
  rw [mem_blk7]
  intro a
  match a with
  | ⟨0, _⟩ => show win0_7.index t (0 : Fin 3) * 8 ≤ (i 0).val ∧ (i 0).val < win0_7.index t (0 : Fin 3) * 8 + 8; omega
  | ⟨1, _⟩ => show win0_7.index t (1 : Fin 3) * 64 ≤ (i 1).val ∧ (i 1).val < win0_7.index t (1 : Fin 3) * 64 + 64; omega
  | ⟨2, _⟩ => show win0_7.index t (2 : Fin 3) * 1024 ≤ (i 2).val ∧ (i 2).val < win0_7.index t (2 : Fin 3) * 1024 + 1024; omega

/-! ## The arrays after the region -/

theorem final6 (c : Dev nD) : (dat0 (F := Ideal) V c).arrAt 6 cfg0.N = hArr V c :=
  (dat0 (F := Ideal) V c).arrAt_eq_of_cover 6 (hArr V c) (fun t _ => flushed6_eq V c t) cover6

theorem final7 (c : Dev nD) : (dat0 (F := Ideal) V c).arrAt 7 cfg0.N = xArr V c :=
  (dat0 (F := Ideal) V c).arrAt_eq_of_cover 7 (xArr V c) (fun t _ => flushed7_eq V c t) cover7

/-- THE RECURRENT REGION READ AS VALUES: layer 0's hidden row, -/
theorem rnn_h0 (c : Dev nD) (t : Fin 128) (b : Fin 64) (h : Fin 1024) :
    ((dat0 (F := Ideal) V c).arrAt 6 cfg0.N : S128x2x64x1024.Idx → EReal) (ix4 t (0 : Fin 2) b h) = H0 V c t b h :=
  congrFun (final6 V c) (ix4 t (0 : Fin 2) b h)

/-- layer 1's hidden row, -/
theorem rnn_h1 (c : Dev nD) (t : Fin 128) (b : Fin 64) (h : Fin 1024) :
    ((dat0 (F := Ideal) V c).arrAt 6 cfg0.N : S128x2x64x1024.Idx → EReal) (ix4 t (1 : Fin 2) b h) = H1 V c t b h :=
  congrFun (final6 V c) (ix4 t (1 : Fin 2) b h)

/-- and the final activations' row, at every timestep and batch entry. -/
theorem rnn_x (c : Dev nD) (t : Fin 128) (b : Fin 64) (e : Fin 1024) :
    ((dat0 (F := Ideal) V c).arrAt 7 cfg0.N : S128x64x1024.Idx → EReal) (ix3 t b e) = X2 V c t b e :=
  congrFun (final7 V c) (ix3 t b e)

end Region
end Cert.KernelIdeal.RnnRegion

end
-- ==== Proof.HostEntry.lean ====
/-
  The first stretch of host operations of the idealized kernel, read as values.

  Before the first pipelined region @main computes timestep 0 on the host: the embedding rows of the first input row, two
  cells with the true recurrence (hidden rows `h⁰₀`, `h⁰₁`, final activation `x⁰`), the recurrent terms `aU_l = h⁰_l · Uw_lᵀ + Ub_l`
  of the later timesteps, and the operands of the region: the gathered embeddings shifted by one timestep and padded, and
  the transposed weight matrices. The reference computes timestep 0 by THE SAME operations in the same order, applied to
  row 0 of its gathered embeddings; so once the two embedding blocks are known equal (`hx0` below) every value of timestep 0
  is the reference's stage of the same name, with no arithmetic opened.
-/
import proofs.«141810_j30580167147721_2_alg».proof.Proof.Gen.KernelIdeal.Frame
import proofs.«141810_j30580167147721_2_alg».proof.Proof.RefReadP
import Idealize.ShloMosaic.Lib.StableHlo.Run
import Idealize.ShloMosaic.Lib.Pipeline.Value
import Idealize.ShloMosaic.Lib.ValueIdx

set_option maxRecDepth 16384

noncomputable section

namespace Cert.KernelIdeal.HostEntry

open Cert.KernelIdeal Cert.KernelIdeal.Gen
open Idealize.ShloMosaic Idealize.ShloMosaic.TcCoe Idealize.ShloMosaic.Tactic Idealize.SL.Sem Idealize.ShloMosaic.StableHlo
open Cert.ReferenceIdeal

variable {F : FTy → Type} [FloatOps F]
variable (m : (ℓ : Loc nD τ sig) → Buf (Elt F) ℓ) (ρ : Dev nD → PrngReg) (c : Dev nD)

/-- The launch contents of the arguments. -/
abbrev A0 := m ((c.tc : Thread nD τ).loc main_arg0)
abbrev A1 := m ((c.tc : Thread nD τ).loc main_arg1)
abbrev A2 := m ((c.tc : Thread nD τ).loc main_arg2)
abbrev A3 := m ((c.tc : Thread nD τ).loc main_arg3)
abbrev A4 := m ((c.tc : Thread nD τ).loc main_arg4)
abbrev A5 := m ((c.tc : Thread nD τ).loc main_arg5)
abbrev A6 := m ((c.tc : Thread nD τ).loc main_arg6)
abbrev A7 := m ((c.tc : Thread nD τ).loc main_arg7)
abbrev A8 := m ((c.tc : Thread nD τ).loc main_arg8)
abbrev A9 := m ((c.tc : Thread nD τ).loc main_arg9)
abbrev A10 := m ((c.tc : Thread nD τ).loc main_arg10)

/-- The first input row, as the kernel reads it: `inputs[0, :]`. -/
def row0 (a0 : (⟨S128x64, .i32⟩ : BufTy).Contents (Elt F)) : (⟨S64, .i32⟩ : BufTy).Contents (Elt F) :=
  shapeCast _ (extractStridedSlice S1x64 ![0, 0] a0 slices_S128x64_S1x64_0_0) shapeCasts_S1x64_S64

/-- The embedding rows of timestep 0 as the kernel gathers them: a negative index wraps once, then the row is read
    clamped into the table. -/
def x0K (a0 : (⟨S128x64, .i32⟩ : BufTy).Contents (Elt F)) (a2 : (⟨S10000x1024, .f32⟩ : BufTy).Contents (Elt F)) :
    (⟨S64x1024, .f32⟩ : BufTy).Contents (Elt F) :=
  Host.gather gather_S10000x1024_S64x1_S64x1024_1_0_n_n_0_1_11024 a2
    (broadcastInDim S64x1 ![0] bcast_S64_S64x1_0
      (select (cmpi .slt (row0 a0) (broadcastInDim S64 ![] bcast_S_S64 (constantI S_ 32 0#32)))
        (addi (row0 a0) (broadcastInDim S64 ![] bcast_S_S64 (constantI S_ 32 10000#32))) (row0 a0)))

/-- The kernel's and the reference's embedding rows of timestep 0 agree. -/
def X0Agree : Prop := x0K (F := F) (A0 m c) (A2 m c) = ReadP.val_main_v8 (F := F) (A0 m c) (A2 m c)

set_option maxHeartbeats 4000000 in
/-- Layer 0's hidden row of timestep 0 is the reference's. -/
theorem W1_v30 (hx0 : X0Agree m c) : W1 m ρ c (Proc.devRef .tc main_v30) = ReadP.val_main_v30 (F := F) (A0 m c) (A1 m c) (A2 m c) (A3 m c) (A4 m c) (A5 m c) (A6 m c) := by
  show StableHlo.after hostOps0 _ (Proc.devRef .tc main_v30) = _
  after_results_simp
  simp only [ReadP.val_main_v30, ReadP.val_main_v29, ReadP.val_main_v24, ReadP.val_main_v17, ReadP.val_main_v12]
  rw [← hx0]
  rfl

set_option maxHeartbeats 4000000 in
/-- Layer 1's hidden row of timestep 0 is the reference's. -/
theorem W1_v62 (hx0 : X0Agree m c) : W1 m ρ c (Proc.devRef .tc main_v62) = ReadP.val_main_v62 (F := F) (A0 m c) (A1 m c) (A2 m c) (A3 m c) (A4 m c) (A5 m c) (A6 m c) (A7 m c) (A8 m c) := by
  show StableHlo.after hostOps0 _ (Proc.devRef .tc main_v62) = _
  after_results_simp
  simp only [ReadP.val_main_v12, ReadP.val_main_v17, ReadP.val_main_v24, ReadP.val_main_v29, ReadP.val_main_v30, ReadP.val_main_v34, ReadP.val_main_v39, ReadP.val_main_v40, ReadP.val_main_v44, ReadP.val_main_v49, ReadP.val_main_v56, ReadP.val_main_v61, ReadP.val_main_v62, ReadP.val_main_v66, ReadP.val_main_v71, ReadP.val_main_v72, ReadP.val_main_v82, ReadP.val_main_v87, ReadP.val_main_v112, ReadP.val_main_v117]
  rw [← hx0]
  rfl

set_option maxHeartbeats 4000000 in
/-- Timestep 0's final activation, narrowed for the decode, is the reference's. -/
theorem W1_v73 (hx0 : X0Agree m c) : W1 m ρ c (Proc.devRef .tc main_v73)
    = truncf .bf16 (ReadP.val_main_v72 (F := F) (A0 m c) (A1 m c) (A2 m c) (A3 m c) (A4 m c) (A5 m c) (A6 m c) (A7 m c) (A8 m c)) bitsLt_bf16_f32 := by
  show StableHlo.after hostOps0 _ (Proc.devRef .tc main_v73) = _
  after_results_simp
  simp only [ReadP.val_main_v12, ReadP.val_main_v17, ReadP.val_main_v24, ReadP.val_main_v29, ReadP.val_main_v30, ReadP.val_main_v34, ReadP.val_main_v39, ReadP.val_main_v40, ReadP.val_main_v44, ReadP.val_main_v49, ReadP.val_main_v56, ReadP.val_main_v61, ReadP.val_main_v62, ReadP.val_main_v66, ReadP.val_main_v71, ReadP.val_main_v72, ReadP.val_main_v82, ReadP.val_main_v87, ReadP.val_main_v112, ReadP.val_main_v117]
  rw [← hx0]
  rfl

set_option maxHeartbeats 4000000 in
/-- The two recurrent terms of the later timesteps, stacked: the reference's. -/
theorem W1_v94 (hx0 : X0Agree m c) : W1 m ρ c (Proc.devRef .tc main_v94)
    = concatenate S2x64x1024 0
        [⟨S1x64x1024, broadcastInDim S1x64x1024 ![1, 2] bcast_S64x1024_S1x64x1024_1_2 (ReadP.val_main_v87 (F := F) (A0 m c) (A1 m c) (A2 m c) (A3 m c) (A4 m c) (A5 m c) (A6 m c))⟩,
         ⟨S1x64x1024, broadcastInDim S1x64x1024 ![1, 2] bcast_S64x1024_S1x64x1024_1_2 (ReadP.val_main_v117 (F := F) (A0 m c) (A1 m c) (A2 m c) (A3 m c) (A4 m c) (A5 m c) (A6 m c) (A7 m c) (A8 m c))⟩]
        concatenates_S1x64x1024_S1x64x1024_S2x64x1024_d0 := by
  show StableHlo.after hostOps0 _ (Proc.devRef .tc main_v94) = _
  after_results_simp
  simp only [ReadP.val_main_v12, ReadP.val_main_v17, ReadP.val_main_v24, ReadP.val_main_v29, ReadP.val_main_v30, ReadP.val_main_v34, ReadP.val_main_v39, ReadP.val_main_v40, ReadP.val_main_v44, ReadP.val_main_v49, ReadP.val_main_v56, ReadP.val_main_v61, ReadP.val_main_v62, ReadP.val_main_v66, ReadP.val_main_v71, ReadP.val_main_v72, ReadP.val_main_v82, ReadP.val_main_v87, ReadP.val_main_v112, ReadP.val_main_v117]
  rw [← hx0]
  rfl

/-- All the embedding rows, gathered from the narrowed table, as the kernel computes them. -/
def gathK : (⟨S128x64x1024, .bf16⟩ : BufTy).Contents (Elt F) :=
  Host.gather gather_S10000x1024_S128x64x1_S128x64x1024_2_0_n_n_0_2_11024 (truncf .bf16 (A2 m c) bitsLt_bf16_f32)
    (ReadP.val_main_v5 (F := F) (A0 m c))

set_option maxHeartbeats 4000000 in
/-- The first region's input: the gathered rows shifted by one timestep, a zero block in the last place. -/
theorem W1_v105 : W1 m ρ c (Proc.devRef .tc main_v105)
    = concatenate S128x64x1024 0
        [⟨S127x64x1024, extractStridedSlice S127x64x1024 ![1, 0, 0] (gathK m c) slices_S128x64x1024_S127x64x1024_1_0_0⟩,
         ⟨S1x64x1024, broadcastInDim S1x64x1024 ![] bcast_S_S1x64x1024 (constant S_ .bf16 0x0000#16)⟩]
        concatenates_S127x64x1024_S1x64x1024_S128x64x1024_d0 := by
  show StableHlo.after hostOps0 _ (Proc.devRef .tc main_v105) = _
  after_results_simp
  rfl

set_option maxHeartbeats 4000000 in
theorem W1_v107 : W1 m ρ c (Proc.devRef .tc main_v107)
    = truncf .bf16 (transpose S2x1024x1024 [0, 2, 1] (A3 m c) transposes_S2x1024x1024_S2x1024x1024_0_2_1) bitsLt_bf16_f32 := by
  show StableHlo.after hostOps0 _ (Proc.devRef .tc main_v107) = _
  after_results_simp <;> rfl

set_option maxHeartbeats 4000000 in
theorem W1_v109 : W1 m ρ c (Proc.devRef .tc main_v109)
    = truncf .bf16 (transpose S2x1024x1024 [0, 2, 1] (A7 m c) transposes_S2x1024x1024_S2x1024x1024_0_2_1) bitsLt_bf16_f32 := by
  show StableHlo.after hostOps0 _ (Proc.devRef .tc main_v109) = _
  after_results_simp <;> rfl

set_option maxHeartbeats 4000000 in
theorem W1_arg4 : W1 m ρ c (Proc.devRef .tc main_arg4) = A4 m c := by
  show StableHlo.after hostOps0 _ (Proc.devRef .tc main_arg4) = _
  after_results_simp <;> rfl
set_option maxHeartbeats 4000000 in
theorem W1_arg8 : W1 m ρ c (Proc.devRef .tc main_arg8) = A8 m c := by
  show StableHlo.after hostOps0 _ (Proc.devRef .tc main_arg8) = _
  after_results_simp <;> rfl
set_option maxHeartbeats 4000000 in
theorem W1_arg9 : W1 m ρ c (Proc.devRef .tc main_arg9) = A9 m c := by
  show StableHlo.after hostOps0 _ (Proc.devRef .tc main_arg9) = _
  after_results_simp <;> rfl
set_option maxHeartbeats 4000000 in
theorem W1_arg10 : W1 m ρ c (Proc.devRef .tc main_arg10) = A10 m c := by
  show StableHlo.after hostOps0 _ (Proc.devRef .tc main_arg10) = _
  after_results_simp <;> rfl

end Cert.KernelIdeal.HostEntry

end
-- ==== Proof.HostLayout.lean ====
/- The layout operations of the host program around the two kernels, read at an index.

   Each statement takes the operation's shape relation as a hypothesis of its own, so that it rewrites the printed term
   whatever proof of the relation the term carries, and is stated for an arbitrary element type: the same statement
   serves the bf16 and the f32 arrays. Indices are built from plain \`Fin\` coordinates with \`ix1\` … \`ix4\`.

   Time steps: the recurrence's arrays have 128 rows along axis 0; row \`t' + 1\` of one array is paired with row \`t'\`
   of another for \`t' : Fin 127\`. \`up t'\` is \`t'\` as a row of the longer axis and \`nx t'\` is the row after it. -/
import proofs.«141810_j30580167147721_2_alg».proof.Proof.Gen.KernelIdeal.Launch
import Idealize.ShloMosaic.Lib.Pipeline.Value
import Idealize.ShloMosaic.Lib.ValueIdx
import Idealize.ShloMosaic.Lib.KernelVsHost

noncomputable section

namespace Cert.KernelIdeal.HostLayout

open Cert.KernelIdeal Idealize.ShloMosaic Idealize.ShloMosaic.ValueIdx

variable {α : Type}

/-- Row \`t'\` of a 127-row axis as a row of the 128-row axis. -/
abbrev up (t' : Fin 127) : Fin 128 := ⟨t'.val, Nat.lt_succ_of_lt t'.isLt⟩
/-- The row after row \`t'\`, on the 128-row axis. -/
abbrev nx (t' : Fin 127) : Fin 128 := ⟨t'.val + 1, Nat.succ_lt_succ t'.isLt⟩
/-- Column \`v\` of the 10000 vocabulary columns as a column of the padded 10240. -/
abbrev upv (v : Fin 10000) : Fin 10240 := ⟨v.val, Nat.lt_of_lt_of_le v.isLt (by decide)⟩

/-! ## Transposes -/

/-- Swapping the last two axes of a \`[2, 1024, 1024]\` array. -/
theorem transpose_021_apply (A : S2x1024x1024.Idx → α) (h : S2x1024x1024.Transposes [0, 2, 1] S2x1024x1024)
    (l : Fin 2) (p q : Fin 1024) :
    transpose S2x1024x1024 [0, 2, 1] A h (ix3 l p q) = A (ix3 l q p) :=
  transpose_apply [0, 2, 1] A h (ix3 l p q) (ix3 l q p) (fun b => match b with
    | ⟨0, _⟩ => rfl
    | ⟨1, _⟩ => rfl
    | ⟨2, _⟩ => rfl)

/-- The decode matrix \`[10000, 1024]\` transposed to \`[1024, 10000]\`. -/
theorem transpose_10_apply (A : S10000x1024.Idx → α) (h : S10000x1024.Transposes [1, 0] S1024x10000)
    (k : Fin 1024) (v : Fin 10000) :
    transpose S1024x10000 [1, 0] A h (ix2 k v) = A (ix2 v k) :=
  transpose_apply [1, 0] A h (ix2 k v) (ix2 v k) (fun b => match b with
    | ⟨0, _⟩ => rfl
    | ⟨1, _⟩ => rfl)

/-! ## A \`[64, 1024]\` array as the one row of a \`[1, 64, 1024]\` array -/

/-- The broadcast of a \`[64, 1024]\` array to \`[1, 64, 1024]\` at \`(0, b, e)\`. -/
theorem bcast_row_apply (a : S64x1024.Idx → α) (hb : S64x1024.BroadcastsInDim S1x64x1024 (![1, 2] : Fin 2 → Fin S1x64x1024.rank))
    (z : Fin 1) (b : Fin 64) (e : Fin 1024) :
    broadcastInDim S1x64x1024 ![1, 2] hb a (ix3 z b e) = a (ix2 b e) :=
  broadcastInDim_apply _ hb a (ix3 z b e) (ix2 b e) (fun c => match c with
    | ⟨0, _⟩ => by show b.val = if (64 : Nat) = 1 then 0 else b.val; rw [if_neg (by decide)]
    | ⟨1, _⟩ => by show e.val = if (1024 : Nat) = 1 then 0 else e.val; rw [if_neg (by decide)])

/-! ## The two layers' recurrent terms stacked -/

/-- Layer 0 of the stack of two \`[64, 1024]\` arrays. -/
theorem stack2_apply_zero (a a' : S64x1024.Idx → α)
    (hb : S64x1024.BroadcastsInDim S1x64x1024 (![1, 2] : Fin 2 → Fin S1x64x1024.rank))
    (hc : Shape.Concatenates [S1x64x1024, S1x64x1024] S2x64x1024 0) (b : Fin 64) (h : Fin 1024) :
    concatenate S2x64x1024 0 [⟨S1x64x1024, broadcastInDim S1x64x1024 ![1, 2] hb a⟩,
      ⟨S1x64x1024, broadcastInDim S1x64x1024 ![1, 2] hb a'⟩] hc (ix3 (0 : Fin 2) b h) = a (ix2 b h) := by
  refine (concatenate_pair_apply_left (0 : Fin S2x64x1024.rank) _ _ hc (ix3 (0 : Fin 2) b h) rfl (ix3 (0 : Fin 1) b h)
    (fun c => match c with
      | ⟨0, _⟩ => rfl
      | ⟨1, _⟩ => rfl
      | ⟨2, _⟩ => rfl)).trans ?_
  exact bcast_row_apply a hb 0 b h

/-- Layer 1 of the stack of two \`[64, 1024]\` arrays. -/
theorem stack2_apply_one (a a' : S64x1024.Idx → α)
    (hb : S64x1024.BroadcastsInDim S1x64x1024 (![1, 2] : Fin 2 → Fin S1x64x1024.rank))
    (hc : Shape.Concatenates [S1x64x1024, S1x64x1024] S2x64x1024 0) (b : Fin 64) (h : Fin 1024) :
    concatenate S2x64x1024 0 [⟨S1x64x1024, broadcastInDim S1x64x1024 ![1, 2] hb a⟩,
      ⟨S1x64x1024, broadcastInDim S1x64x1024 ![1, 2] hb a'⟩] hc (ix3 (1 : Fin 2) b h) = a' (ix2 b h) := by
  refine (concatenate_pair_apply_right (0 : Fin S2x64x1024.rank) _ _ hc (ix3 (1 : Fin 2) b h) rfl rfl (ix3 (0 : Fin 1) b h)
    (fun c => match c with
      | ⟨0, _⟩ => fun hne => absurd rfl hne
      | ⟨1, _⟩ => fun _ => rfl
      | ⟨2, _⟩ => fun _ => rfl) rfl).trans ?_
  exact bcast_row_apply a' hb 0 b h

/-! ## The first kernel's input: the gathered rows shifted up by one time step, a row of padding last -/

/-- Row \`t'\` of the shifted input is row \`t' + 1\` of the gathered rows. -/
theorem shifted_input_apply (G : S128x64x1024.Idx → α) (Z : S1x64x1024.Idx → α)
    (hs : S128x64x1024.Slices ![1, 0, 0] S127x64x1024)
    (hc : Shape.Concatenates [S127x64x1024, S1x64x1024] S128x64x1024 0)
    (t' : Fin 127) (b : Fin 64) (e : Fin 1024) :
    concatenate S128x64x1024 0 [⟨S127x64x1024, extractStridedSlice S127x64x1024 ![1, 0, 0] G hs⟩, ⟨S1x64x1024, Z⟩] hc
      (ix3 (up t') b e) = G (ix3 (nx t') b e) := by
  refine (concatenate_pair_apply_left (0 : Fin S128x64x1024.rank) _ _ hc (ix3 (up t') b e) rfl (ix3 t' b e)
    (fun c => match c with
      | ⟨0, _⟩ => rfl
      | ⟨1, _⟩ => rfl
      | ⟨2, _⟩ => rfl)).trans ?_
  exact extractStridedSlice_apply ![1, 0, 0] G hs (ix3 t' b e) (ix3 (nx t') b e) (fun c => match c with
    | ⟨0, _⟩ => by show t'.val + 1 = 1 + t'.val; omega
    | ⟨1, _⟩ => by show b.val = 0 + b.val; omega
    | ⟨2, _⟩ => by show e.val = 0 + e.val; omega)

/-! ## The second kernel's input: the host's first time step, then the first kernel's first 127 rows -/

/-- Row 0 of the decode input is the host's first time step. -/
theorem decode_input_apply_zero (a : S64x1024.Idx → α) (G : S128x64x1024.Idx → α)
    (hb : S64x1024.BroadcastsInDim S1x64x1024 (![1, 2] : Fin 2 → Fin S1x64x1024.rank))
    (hs : S128x64x1024.Slices ![0, 0, 0] S127x64x1024)
    (hc : Shape.Concatenates [S1x64x1024, S127x64x1024] S128x64x1024 0) (b : Fin 64) (e : Fin 1024) :
    concatenate S128x64x1024 0 [⟨S1x64x1024, broadcastInDim S1x64x1024 ![1, 2] hb a⟩,
      ⟨S127x64x1024, extractStridedSlice S127x64x1024 ![0, 0, 0] G hs⟩] hc (ix3 (0 : Fin 128) b e) = a (ix2 b e) := by
  refine (concatenate_pair_apply_left (0 : Fin S128x64x1024.rank) _ _ hc (ix3 (0 : Fin 128) b e) rfl (ix3 (0 : Fin 1) b e)
    (fun c => match c with
      | ⟨0, _⟩ => rfl
      | ⟨1, _⟩ => rfl
      | ⟨2, _⟩ => rfl)).trans ?_
  exact bcast_row_apply a hb 0 b e

/-- Row \`t' + 1\` of the decode input is row \`t'\` of the first kernel's result. -/
theorem decode_input_apply_succ (a : S64x1024.Idx → α) (G : S128x64x1024.Idx → α)
    (hb : S64x1024.BroadcastsInDim S1x64x1024 (![1, 2] : Fin 2 → Fin S1x64x1024.rank))
    (hs : S128x64x1024.Slices ![0, 0, 0] S127x64x1024)
    (hc : Shape.Concatenates [S1x64x1024, S127x64x1024] S128x64x1024 0) (t' : Fin 127) (b : Fin 64) (e : Fin 1024) :
    concatenate S128x64x1024 0 [⟨S1x64x1024, broadcastInDim S1x64x1024 ![1, 2] hb a⟩,
      ⟨S127x64x1024, extractStridedSlice S127x64x1024 ![0, 0, 0] G hs⟩] hc (ix3 (nx t') b e) = G (ix3 (up t') b e) := by
  refine (concatenate_pair_apply_right (0 : Fin S128x64x1024.rank) _ _ hc (ix3 (nx t') b e) rfl rfl (ix3 t' b e)
    (fun c => match c with
      | ⟨0, _⟩ => fun hne => absurd rfl hne
      | ⟨1, _⟩ => fun _ => rfl
      | ⟨2, _⟩ => fun _ => rfl) rfl).trans ?_
  exact extractStridedSlice_apply ![0, 0, 0] G hs (ix3 t' b e) (ix3 (up t') b e) (fun c => match c with
    | ⟨0, _⟩ => by show t'.val = 0 + t'.val; omega
    | ⟨1, _⟩ => by show b.val = 0 + b.val; omega
    | ⟨2, _⟩ => by show e.val = 0 + e.val; omega)

/-! ## The results' slices -/

/-- The logits with the padded vocabulary columns cut off. -/
theorem logits_slice_apply (Y : S128x64x10240.Idx → α) (hs : S128x64x10240.Slices ![0, 0, 0] S128x64x10000)
    (t : Fin 128) (b : Fin 64) (v : Fin 10000) :
    extractStridedSlice S128x64x10000 ![0, 0, 0] Y hs (ix3 t b v) = Y (ix3 t b (upv v)) :=
  extractStridedSlice_apply ![0, 0, 0] Y hs (ix3 t b v) (ix3 t b (upv v)) (fun c => match c with
    | ⟨0, _⟩ => by show t.val = 0 + t.val; omega
    | ⟨1, _⟩ => by show b.val = 0 + b.val; omega
    | ⟨2, _⟩ => by show v.val = 0 + v.val; omega)

/-- The first 127 rows of the two layers' states. -/
theorem states_slice_apply (Y : S128x2x64x1024.Idx → α) (hs : S128x2x64x1024.Slices ![0, 0, 0, 0] S127x2x64x1024)
    (t' : Fin 127) (l : Fin 2) (b : Fin 64) (h : Fin 1024) :
    extractStridedSlice S127x2x64x1024 ![0, 0, 0, 0] Y hs (ix4 t' l b h) = Y (ix4 (up t') l b h) :=
  extractStridedSlice_apply ![0, 0, 0, 0] Y hs (ix4 t' l b h) (ix4 (up t') l b h) (fun c => match c with
    | ⟨0, _⟩ => by show t'.val = 0 + t'.val; omega
    | ⟨1, _⟩ => by show l.val = 0 + l.val; omega
    | ⟨2, _⟩ => by show b.val = 0 + b.val; omega
    | ⟨3, _⟩ => by show h.val = 0 + h.val; omega)

/-! ## The padded decode matrix and bias -/

/-- The decode matrix padded with 240 columns, at a column of the matrix. -/
theorem pad_matrix_apply (x : S1024x10000.Idx → α) (z : S_.Idx → α)
    (hp : S1024x10000.Pads (![0, 0] : Fin 2 → Nat) ![0, 240] ![0, 0] S1024x10240) (hu : 0 < S_.numel)
    (k : Fin 1024) (v : Fin 10000) :
    pad S1024x10240 ![0, 0] ![0, 240] ![0, 0] x z hp hu (ix2 k (upv v)) = x (ix2 k v) :=
  pad_apply_of_inside _ _ _ x z hp hu (ix2 k (upv v)) (ix2 k v) (fun c => match c with
    | ⟨0, _⟩ => by show k.val = 0 + k.val * (0 + 1); omega
    | ⟨1, _⟩ => by show v.val = 0 + v.val * (0 + 1); omega)

/-- The decode bias padded with 240 entries, at an entry of the bias. -/
theorem pad_bias_apply (y : S10000.Idx → α) (z : S_.Idx → α)
    (hp : S10000.Pads (![0] : Fin 1 → Nat) ![240] ![0] S10240) (hu : 0 < S_.numel) (v : Fin 10000) :
    pad S10240 ![0] ![240] ![0] y z hp hu (ix1 (upv v)) = y (ix1 v) :=
  pad_apply_of_inside _ _ _ y z hp hu (ix1 (upv v)) (ix1 v) (fun c => match c with
    | ⟨0, _⟩ => by show v.val = 0 + v.val * (0 + 1); omega)

/-- The padded bias as a one-row matrix, at an entry of the bias. -/
theorem pad_bias_row_apply (y : S10000.Idx → α) (z : S_.Idx → α)
    (hp : S10000.Pads (![0] : Fin 1 → Nat) ![240] ![0] S10240) (hu : 0 < S_.numel)
    (hsc : S10240.ShapeCasts S1x10240) (r : Fin 1) (v : Fin 10000) :
    shapeCast S1x10240 (pad S10240 ![0] ![240] ![0] y z hp hu) hsc (ix2 r (upv v)) = y (ix1 v) := by
  refine (shapeCast_apply _ hsc (ix2 r (upv v)) (ix1 (upv v)) ?_).trans (pad_bias_apply y z hp hu v)
  rewrite [Shape.rowMajor_val_one, Shape.rowMajor_val_two]
  have hr : r.val = 0 := Nat.lt_one_iff.mp r.isLt
  show v.val = r.val * 10240 + v.val
  omega

end Cert.KernelIdeal.HostLayout

end
-- ==== Proof.CellsAgree.lean ====
/- The operands of the recurrent region are the reference's, hence the two layers' rows agree.

   The region is entered after the first stretch of host operations. Its six operands, read at an index, are: the gathered
   embedding rows shifted by one timestep (row t' of the input is the embedded row of timestep t' + 1; at the extended reals
   the narrowing of the table is the identity, so the rows are the reference's), the two stacks of weight matrices with their
   last two axes swapped (the cell's entry (e, h) is the array's entry (layer, h, e)), the two stacks of biases as they are,
   and the stack of the two recurrent terms, which are whole stages of timestep 0 and the reference's once the embedding rows
   of timestep 0 agree. The rows of the cell are the same two maps applied to equal operands. -/
import proofs.«141810_j30580167147721_2_alg».proof.Proof.RnnRegion
import proofs.«141810_j30580167147721_2_alg».proof.Proof.HostEntry
import proofs.«141810_j30580167147721_2_alg».proof.Proof.HostLayout
import proofs.«141810_j30580167147721_2_alg».proof.Proof.RefCells

set_option maxRecDepth 16384

noncomputable section

namespace Cert.KernelIdeal.CellsAgree

open Cert.KernelIdeal Cert.KernelIdeal.Gen Idealize.ShloMosaic Idealize.ShloMosaic.TcCoe Idealize.SL.Sem
open Idealize.ShloMosaic.ValueIdx
open Cert.KernelIdeal.HostEntry Cert.KernelIdeal.HostLayout Cert.KernelIdeal.RnnRegion
open Cert.ReferenceIdeal Cert.ReferenceIdeal.RefCells

variable (m : (ℓ : Loc nD τ sig) → Buf (Elt Ideal) ℓ) (ρ : Dev nD → PrngReg) (c : Dev nD)

/-! ## The six operands of the recurrent region are the reference's -/

/-- At the extended reals the kernel's gathered embedding rows (from the narrowed table) are the reference's. -/
theorem gathK_eq : gathK (F := Ideal) m c = ReadP.val_main_v6 (F := Ideal) (A0 m c) (A2 m c) := rfl

/-- Row `(t', b)` of the region's input is the embedded row of timestep `t' + 1`. -/
theorem opX (t' : Fin 127) (b : Fin 64) :
    X0 (V1 (F := Ideal) m ρ) c (up t') b = E (A0 m c) (A2 m c) (s t') b := by
  funext e
  refine Eq.trans (congrFun (W1_v105 (F := Ideal) m ρ c) (ix3 (up t') b e)) ?_
  refine (shifted_input_apply _ _ _ _ t' b e).trans ?_
  rw [gathK_eq]
  rfl

/-- The region's input matrices are the reference's, entry (input coordinate, hidden coordinate). -/
theorem opW (l : Fin 2) : Wt (V1 (F := Ideal) m ρ) c l = W (A3 m c) l := by
  funext e h
  refine Eq.trans (congrFun (W1_v107 (F := Ideal) m ρ c) (ix3 l e h)) ?_
  exact transpose_021_apply (A3 m c) _ l e h

theorem opWb (l : Fin 2) : Wbias (V1 (F := Ideal) m ρ) c l = Wb (A4 m c) l := by
  funext h
  exact congrFun (W1_arg4 (F := Ideal) m ρ c) (ix2 l h)

theorem opF (l : Fin 2) : Ft (V1 (F := Ideal) m ρ) c l = Fw (A7 m c) l := by
  funext h e
  refine Eq.trans (congrFun (W1_v109 (F := Ideal) m ρ c) (ix3 l h e)) ?_
  exact transpose_021_apply (A7 m c) _ l h e

theorem opFb (l : Fin 2) : Fbias (V1 (F := Ideal) m ρ) c l = Fb (A8 m c) l := by
  funext e
  exact congrFun (W1_arg8 (F := Ideal) m ρ c) (ix2 l e)

/-- The two recurrent terms are the reference's stages of timestep 0. -/
theorem opAU0 (hx0 : X0Agree m c) (b : Fin 64) :
    AU (V1 (F := Ideal) m ρ) c 0 b = aU0 (A0 m c) (A1 m c) (A2 m c) (A3 m c) (A4 m c) (A5 m c) (A6 m c) b := by
  funext h
  refine Eq.trans (congrFun (W1_v94 (F := Ideal) m ρ c hx0) (ix3 (0 : Fin 2) b h)) ?_
  exact stack2_apply_zero _ _ _ _ b h

theorem opAU1 (hx0 : X0Agree m c) (b : Fin 64) :
    AU (V1 (F := Ideal) m ρ) c 1 b = aU1 (A0 m c) (A1 m c) (A2 m c) (A3 m c) (A4 m c) (A5 m c) (A6 m c) (A7 m c) (A8 m c) b := by
  funext h
  refine Eq.trans (congrFun (W1_v94 (F := Ideal) m ρ c hx0) (ix3 (1 : Fin 2) b h)) ?_
  exact stack2_apply_one _ _ _ _ b h

/-! ## Hence the cells agree, row by row -/

theorem cells_h0 (hx0 : X0Agree m c) (t' : Fin 127) (b : Fin 64) :
    H0 (V1 (F := Ideal) m ρ) c (up t') b = rH0 (A0 m c) (A1 m c) (A2 m c) (A3 m c) (A4 m c) (A5 m c) (A6 m c) t' b := by
  unfold H0 rH0
  rw [opX, opW, opWb, opAU0 m ρ c hx0]

theorem cells_x1 (hx0 : X0Agree m c) (t' : Fin 127) (b : Fin 64) :
    X1 (V1 (F := Ideal) m ρ) c (up t') b = rX1 (A0 m c) (A1 m c) (A2 m c) (A3 m c) (A4 m c) (A5 m c) (A6 m c) (A7 m c) (A8 m c) t' b := by
  unfold X1 rX1
  rw [cells_h0 m ρ c hx0, opF, opFb]

theorem cells_h1 (hx0 : X0Agree m c) (t' : Fin 127) (b : Fin 64) :
    H1 (V1 (F := Ideal) m ρ) c (up t') b = rH1 (A0 m c) (A1 m c) (A2 m c) (A3 m c) (A4 m c) (A5 m c) (A6 m c) (A7 m c) (A8 m c) t' b := by
  unfold H1 rH1
  rw [cells_x1 m ρ c hx0, opW, opWb, opAU1 m ρ c hx0]

theorem cells_x (hx0 : X0Agree m c) (t' : Fin 127) (b : Fin 64) :
    X2 (V1 (F := Ideal) m ρ) c (up t') b = rX2 (A0 m c) (A1 m c) (A2 m c) (A3 m c) (A4 m c) (A5 m c) (A6 m c) (A7 m c) (A8 m c) t' b := by
  unfold X2 rX2
  rw [cells_h1 m ρ c hx0, opF, opFb]

end Cert.KernelIdeal.CellsAgree

end
-- ==== Proof.HostGather.lean ====
/- The embedding rows of the first time step: the kernel gathers the 64 rows its first input row names; the reference
   gathers the rows of all 128 input rows and keeps row 0. Both read the table at the same clamped row, column by column. -/
import proofs.«141810_j30580167147721_2_alg».proof.Proof.Gen.KernelIdeal.Launch
import proofs.«141810_j30580167147721_2_alg».proof.Proof.RefReadP
import proofs.«141810_j30580167147721_2_alg».proof.Proof.HostEntry
import Idealize.ShloMosaic.Lib.Pipeline.Value
import Idealize.ShloMosaic.Lib.ValueIdx

noncomputable section

namespace Cert.KernelIdeal.HostGather

open Cert.KernelIdeal Cert.KernelIdeal.Gen
open Idealize.ShloMosaic Idealize.ShloMosaic.ValueIdx

/-- A 32-bit start index read signed and clamped to a row of the 10000-row table. -/
def clampRow (v : BitVec 32) : Fin 10000 := ⟨min v.toInt.toNat 9999, by omega⟩

/-! ## The two gathers read at an index -/

section Gathers
variable {α : Type}

/-- The gather of 64 table rows at \`(b, e)\`: the table at the row the start index \`idx[b, 0]\` names — read signed and
    clamped into the table — and column \`e\`. -/
theorem gather_rows64_apply (x : S10000x1024.Idx → α) (idx : IVec S64x1 32) (b : Fin 64) (e : Fin 1024) :
    Host.gather gather_S10000x1024_S64x1_S64x1024_1_0_n_n_0_1_11024 x idx (ix2 b e)
      = x (ix2 (clampRow (idx (ix2 b (0 : Fin 1)))) e) := by
  unfold Host.gather
  refine congrArg x (funext fun a => Fin.ext ?_)
  match a with
  | ⟨0, _⟩ =>
    show gather_S10000x1024_S64x1_S64x1024_1_0_n_n_0_1_11024.start (ix2 b e) idx 0
      + gather_S10000x1024_S64x1_S64x1024_1_0_n_n_0_1_11024.batchCoord (ix2 b e) 0
      + gather_S10000x1024_S64x1_S64x1024_1_0_n_n_0_1_11024.offCoord (ix2 b e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S10000x1024_S64x1_S64x1024_1_0_n_n_0_1_11024.startIndexMap from List.mem_singleton.mpr rfl)]
    have hsi : gather_S10000x1024_S64x1_S64x1024_1_0_n_n_0_1_11024.siIdx (ix2 b e)
        ⟨List.idxOf (0 : Fin 2) gather_S10000x1024_S64x1_S64x1024_1_0_n_n_0_1_11024.startIndexMap,
          List.idxOf_lt_length_iff.2 (List.mem_singleton.mpr rfl)⟩ = ix2 b (0 : Fin 1) := by
      funext c; refine Fin.ext ?_
      match c with
      | ⟨0, _⟩ => rfl
      | ⟨1, _⟩ => rfl
    rw [hsi]
    rfl
  | ⟨1, _⟩ =>
    show gather_S10000x1024_S64x1_S64x1024_1_0_n_n_0_1_11024.start (ix2 b e) idx 1
      + gather_S10000x1024_S64x1_S64x1024_1_0_n_n_0_1_11024.batchCoord (ix2 b e) 1
      + gather_S10000x1024_S64x1_S64x1024_1_0_n_n_0_1_11024.offCoord (ix2 b e) 1 = e.val
    rw [GatherDims.batchCoord_eq_zero _ _ _ List.not_mem_nil]
    unfold GatherDims.start
    rw [dif_neg (show ¬ (1 : Fin 2) ∈ gather_S10000x1024_S64x1_S64x1024_1_0_n_n_0_1_11024.startIndexMap by decide)]
    unfold GatherDims.offCoord
    rw [dif_pos (show (1 : Fin 2) ∈ gather_S10000x1024_S64x1_S64x1024_1_0_n_n_0_1_11024.sKept by decide)]
    show 0 + 0 + e.val = e.val
    omega

/-- The gather of the table rows of all 128 input rows at \`(t, b, e)\`: the table at the row the start index
    \`idx[t, b, 0]\` names — read signed and clamped into the table — and column \`e\`. -/
theorem gather_rows_all_apply (x : Cert.ReferenceIdeal.S10000x1024.Idx → α) (idx : IVec Cert.ReferenceIdeal.S128x64x1 32)
    (t : Fin 128) (b : Fin 64) (e : Fin 1024) :
    Host.gather Cert.ReferenceIdeal.gather_S10000x1024_S128x64x1_S128x64x1024_2_0_n_n_0_2_11024 x idx (ix3 t b e)
      = x (ix2 (clampRow (idx (ix3 t b (0 : Fin 1)))) e) := by
  unfold Host.gather
  refine congrArg x (funext fun a => Fin.ext ?_)
  match a with
  | ⟨0, _⟩ =>
    show Cert.ReferenceIdeal.gather_S10000x1024_S128x64x1_S128x64x1024_2_0_n_n_0_2_11024.start (ix3 t b e) idx 0
      + Cert.ReferenceIdeal.gather_S10000x1024_S128x64x1_S128x64x1024_2_0_n_n_0_2_11024.batchCoord (ix3 t b e) 0
      + Cert.ReferenceIdeal.gather_S10000x1024_S128x64x1_S128x64x1024_2_0_n_n_0_2_11024.offCoord (ix3 t b e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ Cert.ReferenceIdeal.gather_S10000x1024_S128x64x1_S128x64x1024_2_0_n_n_0_2_11024.startIndexMap from List.mem_singleton.mpr rfl)]
    have hsi : Cert.ReferenceIdeal.gather_S10000x1024_S128x64x1_S128x64x1024_2_0_n_n_0_2_11024.siIdx (ix3 t b e)
        ⟨List.idxOf (0 : Fin 2) Cert.ReferenceIdeal.gather_S10000x1024_S128x64x1_S128x64x1024_2_0_n_n_0_2_11024.startIndexMap,
          List.idxOf_lt_length_iff.2 (List.mem_singleton.mpr rfl)⟩ = ix3 t b (0 : Fin 1) := by
      funext c; refine Fin.ext ?_
      match c with
      | ⟨0, _⟩ => rfl
      | ⟨1, _⟩ => rfl
      | ⟨2, _⟩ => rfl
    rw [hsi]
    rfl
  | ⟨1, _⟩ =>
    show Cert.ReferenceIdeal.gather_S10000x1024_S128x64x1_S128x64x1024_2_0_n_n_0_2_11024.start (ix3 t b e) idx 1
      + Cert.ReferenceIdeal.gather_S10000x1024_S128x64x1_S128x64x1024_2_0_n_n_0_2_11024.batchCoord (ix3 t b e) 1
      + Cert.ReferenceIdeal.gather_S10000x1024_S128x64x1_S128x64x1024_2_0_n_n_0_2_11024.offCoord (ix3 t b e) 1 = e.val
    rw [GatherDims.batchCoord_eq_zero _ _ _ List.not_mem_nil]
    unfold GatherDims.start
    rw [dif_neg (show ¬ (1 : Fin 2) ∈ Cert.ReferenceIdeal.gather_S10000x1024_S128x64x1_S128x64x1024_2_0_n_n_0_2_11024.startIndexMap by decide)]
    unfold GatherDims.offCoord
    rw [dif_pos (show (1 : Fin 2) ∈ Cert.ReferenceIdeal.gather_S10000x1024_S128x64x1_S128x64x1024_2_0_n_n_0_2_11024.sKept by decide)]
    show 0 + 0 + e.val = e.val
    omega

end Gathers

/-! ## The first time step's rows -/

section Agree
variable {F : FTy → Type} [FloatOps F]

/-- The wrapped index of batch entry \`b\` of the first input row: \`inputs[0, b]\`, plus 10000 when negative. -/
def wrapped (a0 : (⟨S128x64, .i32⟩ : BufTy).Contents (Elt F)) (b : Fin 64) : BitVec 32 :=
  Scalar.select (IntOp.cmpi .slt (a0 (ix2 (0 : Fin 128) b)) 0#32) (IntOp.addi (a0 (ix2 (0 : Fin 128) b)) 10000#32) (a0 (ix2 (0 : Fin 128) b))

/-- The first input row at \`b\` is \`inputs[0, b]\`. -/
theorem row0_apply (a0 : (⟨S128x64, .i32⟩ : BufTy).Contents (Elt F)) (b : Fin 64) :
    HostEntry.row0 (F := F) a0 (ix1 b) = a0 (ix2 (0 : Fin 128) b) := by
  unfold HostEntry.row0
  refine (shapeCast_apply _ shapeCasts_S1x64_S64 (ix1 b) (ix2 (0 : Fin 1) b) ?_).trans ?_
  · rewrite [Shape.rowMajor_val_one, Shape.rowMajor_val_two]
    show 0 * 64 + b.val = b.val
    omega
  · exact extractStridedSlice_apply ![0, 0] a0 slices_S128x64_S1x64_0_0 (ix2 (0 : Fin 1) b) (ix2 (0 : Fin 128) b) (fun c => match c with
      | ⟨0, _⟩ => rfl
      | ⟨1, _⟩ => by show b.val = 0 + b.val; omega)

/-- The kernel's start indices at \`(b, 0)\`. -/
theorem startK_apply (a0 : (⟨S128x64, .i32⟩ : BufTy).Contents (Elt F)) (b : Fin 64) :
    broadcastInDim S64x1 ![0] bcast_S64_S64x1_0
      (select (cmpi .slt (HostEntry.row0 (F := F) a0) (broadcastInDim S64 ![] bcast_S_S64 (constantI S_ 32 0#32)))
        (addi (HostEntry.row0 (F := F) a0) (broadcastInDim S64 ![] bcast_S_S64 (constantI S_ 32 10000#32))) (HostEntry.row0 (F := F) a0))
      (ix2 b (0 : Fin 1)) = wrapped (F := F) a0 b := by
  refine (broadcastInDim_apply _ bcast_S64_S64x1_0 _ (ix2 b (0 : Fin 1)) (ix1 b) (fun c => match c with
    | ⟨0, _⟩ => by show b.val = if (64 : Nat) = 1 then 0 else b.val; rw [if_neg (by decide)])).trans ?_
  show Scalar.select (IntOp.cmpi .slt (HostEntry.row0 (F := F) a0 (ix1 b)) 0#32) (IntOp.addi (HostEntry.row0 (F := F) a0 (ix1 b)) 10000#32) (HostEntry.row0 (F := F) a0 (ix1 b)) = _
  rw [row0_apply]
  rfl

/-- The reference's start indices at \`(0, b, 0)\`. -/
theorem startR_apply (a0 : (⟨S128x64, .i32⟩ : BufTy).Contents (Elt F)) (b : Fin 64) :
    Cert.ReferenceIdeal.ReadP.val_main_v5 (F := F) a0 (ix3 (0 : Fin 128) b (0 : Fin 1)) = wrapped (F := F) a0 b := by
  rw [Cert.ReferenceIdeal.ReadP.val_main_v5_apply]
  have hi : Cert.ReferenceIdeal.ReadP.idx_main_v5 (ix3 (0 : Fin 128) b (0 : Fin 1)) = ix2 (0 : Fin 128) b := by
    funext c
    match c with
    | ⟨0, _⟩ => rfl
    | ⟨1, _⟩ => rfl
  rw [hi, Cert.ReferenceIdeal.ReadP.val_main_v4_apply, Cert.ReferenceIdeal.ReadP.val_main_v1_apply, Cert.ReferenceIdeal.ReadP.val_main_v3_apply,
    Cert.ReferenceIdeal.ReadP.val_main_v0_apply, Cert.ReferenceIdeal.ReadP.val_main_v2_apply, Cert.ReferenceIdeal.ReadP.val_main_c_apply,
    Cert.ReferenceIdeal.ReadP.val_main_c_0_apply]
  rfl

/-- The kernel's embedding rows of the first time step are the reference's. -/
theorem x0_agree (a0 : (⟨S128x64, .i32⟩ : BufTy).Contents (Elt F)) (a2 : (⟨S10000x1024, .f32⟩ : BufTy).Contents (Elt F)) :
    HostEntry.x0K (F := F) a0 a2 = Cert.ReferenceIdeal.ReadP.val_main_v8 (F := F) a0 a2 := by
  funext j
  obtain ⟨b, e, rfl⟩ : ∃ (b : Fin 64) (e : Fin 1024), j = ix2 b e := ⟨j 0, j 1, eq_ix2 j⟩
  rw [Cert.ReferenceIdeal.ReadP.val_main_v8_apply, Cert.ReferenceIdeal.ReadP.val_main_v7_apply]
  have hj : Cert.ReferenceIdeal.ReadP.idx_main_v7 (Cert.ReferenceIdeal.ReadP.idx_main_v8 (ix2 b e)) = ix3 (0 : Fin 128) b e := by
    funext c; refine Fin.ext ?_
    have hb := b.isLt; have he := e.isLt
    match c with
    | ⟨0, _⟩ => rfl
    | ⟨1, _⟩ => show (b.val * 1024 + e.val) / 1024 % 64 = b.val; omega
    | ⟨2, _⟩ => show (b.val * 1024 + e.val) % 1024 = e.val; omega
  rw [hj]
  unfold Cert.ReferenceIdeal.ReadP.val_main_v6 HostEntry.x0K
  rw [gather_rows64_apply, gather_rows_all_apply, startK_apply, startR_apply]

end Agree

end Cert.KernelIdeal.HostGather

end
-- ==== Proof.HostWalk.lean ====
/-
  The later stretches of host operations of the idealized kernel, read as values.

  Between the two regions @main builds the decode's operands: the activations of all 128 timesteps (timestep 0's, then the
  first region's output shifted by one), the transposed decode matrix and the bias, both padded with 240 columns. After the
  second region it cuts the padding off the logits, and stacks timestep 0's two hidden rows on the first region's hidden
  output. Each value is read off the fold of the buffer contents through the stretches; a buffer a stretch or a region does
  not write keeps its contents.
-/
import proofs.«141810_j30580167147721_2_alg».proof.Proof.Gen.KernelIdeal.Frame
import proofs.«141810_j30580167147721_2_alg».proof.Proof.RefReadP
import proofs.«141810_j30580167147721_2_alg».proof.Proof.HostEntry
import Idealize.ShloMosaic.Lib.StableHlo.Run
import Idealize.ShloMosaic.Lib.Pipeline.Value
import Idealize.ShloMosaic.Lib.ValueIdx

set_option maxRecDepth 16384

noncomputable section

namespace Cert.KernelIdeal.HostWalk

open Cert.KernelIdeal Cert.KernelIdeal.Gen
open Idealize.ShloMosaic Idealize.ShloMosaic.TcCoe Idealize.ShloMosaic.Tactic Idealize.SL.Sem Idealize.ShloMosaic.StableHlo
open Cert.ReferenceIdeal Cert.KernelIdeal.HostEntry

variable {F : FTy → Type} [FloatOps F]
variable (m : (ℓ : Loc nD τ sig) → Buf (Elt F) ℓ) (ρ : Dev nD → PrngReg) (c : Dev nD)

/-- The first region's hidden output, `[128, 2, 64, 1024]`. -/
abbrev hArr := (dat0 (V1 m ρ) c).arrAt 6 cfg0.N
/-- The first region's final activations, `[128, 64, 1024]`. -/
abbrev xArr := (dat0 (V1 m ρ) c).arrAt 7 cfg0.N
/-- The second region's padded logits, `[128, 64, 10240]`. -/
abbrev lArr := (dat1 (V7 m ρ) c).arrAt 3 cfg1.N

set_option maxHeartbeats 4000000 in
theorem V7_v113_raw : V7 m ρ c main_v113
    = concatenate S128x64x1024 0
        [⟨S1x64x1024, broadcastInDim S1x64x1024 ![1, 2] bcast_S64x1024_S1x64x1024_1_2 (W2 m ρ c (Proc.devRef .tc main_v73))⟩,
         ⟨S127x64x1024, extractStridedSlice S127x64x1024 ![0, 0, 0] (W2 m ρ c (Proc.devRef .tc main_v110_1)) slices_S128x64x1024_S127x64x1024_0_0_0⟩]
        concatenates_S1x64x1024_S127x64x1024_S128x64x1024_d0 := by
  show StableHlo.after hostOps1_4 _ (Proc.devRef .tc main_v113) = _
  after_results
  all_goals rfl

/-- The decode's activations: timestep 0's row block, then the first region's output without its last block. -/
theorem V7_v113 : V7 m ρ c main_v113
    = concatenate S128x64x1024 0
        [⟨S1x64x1024, broadcastInDim S1x64x1024 ![1, 2] bcast_S64x1024_S1x64x1024_1_2 (W1 m ρ c (Proc.devRef .tc main_v73))⟩,
         ⟨S127x64x1024, extractStridedSlice S127x64x1024 ![0, 0, 0] (xArr m ρ c) slices_S128x64x1024_S127x64x1024_0_0_0⟩]
        concatenates_S1x64x1024_S127x64x1024_S128x64x1024_d0 := by
  rw [V7_v113_raw, W2_of_ne m ρ c main_v73 (by decide), show W2 m ρ c (Proc.devRef .tc main_v110_1) = _ from W2_arr m ρ c 7]

set_option maxHeartbeats 4000000 in
/-- The decode matrix: the table transposed, narrowed, padded on the right. -/
theorem V7_v116 : V7 m ρ c main_v116
    = pad S1024x10240 ![0, 0] ![0, 240] ![0, 0]
        (truncf .bf16 (transpose S1024x10000 [1, 0] (A9 m c) transposes_S10000x1024_S1024x10000_1_0) bitsLt_bf16_f32)
        (sitofp .bf16 (constantI S_ 32 0#32)) pads_S1024x10000_S1024x10240_000_02400 h_S_ := by
  show StableHlo.after hostOps1_4 _ (Proc.devRef .tc main_v116) = _
  after_results
  rw [W2_of_ne m ρ c main_arg9 (by decide), W1_arg9]
  rfl

set_option maxHeartbeats 4000000 in
/-- The decode bias: padded on the right, as one row. -/
theorem V7_v118 : V7 m ρ c main_v118
    = shapeCast _ (pad S10240 ![0] ![240] ![0] (A10 m c) (sitofp .f32 (constantI S_ 32 0#32)) pads_S10000_S10240_02400 h_S_)
        shapeCasts_S10240_S1x10240 := by
  show StableHlo.after hostOps1_4 _ (Proc.devRef .tc main_v118) = _
  after_results
  rw [show W2 m ρ c (Proc.devRef .tc main_arg10) = _ from W2_of_ne m ρ c main_arg10 (by decide), W1_arg10]
  rfl

set_option maxHeartbeats 4000000 in
/-- The first result: the padded logits cut back to the vocabulary. -/
theorem W9_v120 : W9 m ρ c (Proc.devRef .tc main_v120)
    = extractStridedSlice S128x64x10000 ![0, 0, 0] (lArr m ρ c) slices_S128x64x10240_S128x64x10000_0_0_0 := by
  show StableHlo.after hostOps2 (W8 m ρ c) (Proc.devRef .tc main_v120) = _
  after_results
  rw [show W8 m ρ c (Proc.devRef .tc main_v119) = _ from W8_arr m ρ c 3]

set_option maxHeartbeats 4000000 in
/-- A buffer of the first stretch that nothing later writes is still there when the second region is left. -/
theorem W8_v30 : W8 m ρ c (Proc.devRef .tc main_v30) = W1 m ρ c (Proc.devRef .tc main_v30) := by
  rw [W8_of_ne m ρ c main_v30 (by decide)]
  refine Eq.trans ?_ (W2_of_ne m ρ c main_v30 (by decide))
  show StableHlo.after hostOps1_4 _ (Proc.devRef .tc main_v30) = _
  after_results
  all_goals rfl
set_option maxHeartbeats 4000000 in
theorem W8_v62 : W8 m ρ c (Proc.devRef .tc main_v62) = W1 m ρ c (Proc.devRef .tc main_v62) := by
  rw [W8_of_ne m ρ c main_v62 (by decide)]
  refine Eq.trans ?_ (W2_of_ne m ρ c main_v62 (by decide))
  show StableHlo.after hostOps1_4 _ (Proc.devRef .tc main_v62) = _
  after_results
  all_goals rfl
set_option maxHeartbeats 4000000 in
theorem W8_v110_0 : W8 m ρ c (Proc.devRef .tc main_v110_0) = hArr m ρ c := by
  rw [W8_of_ne m ρ c main_v110_0 (by decide)]
  show StableHlo.after hostOps1_4 _ (Proc.devRef .tc main_v110_0) = _
  after_results
  exact W2_arr m ρ c 6

set_option maxHeartbeats 4000000 in
theorem W9_v127_raw : W9 m ρ c (Proc.devRef .tc main_v127)
    = shapeCast _ (concatenate S128x2x64x1024 0
        [⟨S1x2x64x1024, broadcastInDim S1x2x64x1024 ![1, 2, 3] bcast_S2x64x1024_S1x2x64x1024_1_2_3
            (concatenate S2x64x1024 0
              [⟨S1x64x1024, broadcastInDim S1x64x1024 ![1, 2] bcast_S64x1024_S1x64x1024_1_2 (W8 m ρ c (Proc.devRef .tc main_v30))⟩,
               ⟨S1x64x1024, broadcastInDim S1x64x1024 ![1, 2] bcast_S64x1024_S1x64x1024_1_2 (W8 m ρ c (Proc.devRef .tc main_v62))⟩]
              concatenates_S1x64x1024_S1x64x1024_S2x64x1024_d0)⟩,
         ⟨S127x2x64x1024, extractStridedSlice S127x2x64x1024 ![0, 0, 0, 0] (W8 m ρ c (Proc.devRef .tc main_v110_0)) slices_S128x2x64x1024_S127x2x64x1024_0_0_0_0⟩]
        concatenates_S1x2x64x1024_S127x2x64x1024_S128x2x64x1024_d0) shapeCasts_S128x2x64x1024_S256x64x1024 := by
  show StableHlo.after hostOps2 (W8 m ρ c) (Proc.devRef .tc main_v127) = _
  after_results
  all_goals rfl

/-- The second result: timestep 0's two hidden rows stacked on the first region's hidden output without its last block,
    the timestep and layer axes merged. -/
theorem W9_v127 : W9 m ρ c (Proc.devRef .tc main_v127)
    = shapeCast _ (concatenate S128x2x64x1024 0
        [⟨S1x2x64x1024, broadcastInDim S1x2x64x1024 ![1, 2, 3] bcast_S2x64x1024_S1x2x64x1024_1_2_3
            (concatenate S2x64x1024 0
              [⟨S1x64x1024, broadcastInDim S1x64x1024 ![1, 2] bcast_S64x1024_S1x64x1024_1_2 (W1 m ρ c (Proc.devRef .tc main_v30))⟩,
               ⟨S1x64x1024, broadcastInDim S1x64x1024 ![1, 2] bcast_S64x1024_S1x64x1024_1_2 (W1 m ρ c (Proc.devRef .tc main_v62))⟩]
              concatenates_S1x64x1024_S1x64x1024_S2x64x1024_d0)⟩,
         ⟨S127x2x64x1024, extractStridedSlice S127x2x64x1024 ![0, 0, 0, 0] (hArr m ρ c) slices_S128x2x64x1024_S127x2x64x1024_0_0_0_0⟩]
        concatenates_S1x2x64x1024_S127x2x64x1024_S128x2x64x1024_d0) shapeCasts_S128x2x64x1024_S256x64x1024 := by
  rw [W9_v127_raw, W8_v30, W8_v62, W8_v110_0]

end Cert.KernelIdeal.HostWalk

end
-- ==== Proof.Results.lean ====
/- The two results of the idealized kernel are the reference's result stages, as whole arrays.

   The logits: an entry of the kernel's result is an entry of the decode region's output array, which is a row of the
   decode's activations times a column of the padded decode matrix plus an entry of the padded bias. The padding is
   never read at a column of the vocabulary; the activations' first row is the host's first time step and row t' + 1 is
   the recurrent region's row t', which is the reference's layer-1 output row of later time step t'.

   The hidden states: both programs stack the first time step's two hidden rows on the later time steps' and merge the
   time and layer axes by the same operations, so it is enough that the later time steps' hidden rows agree. -/
import proofs.«141810_j30580167147721_2_alg».proof.Proof.Gen.KernelIdeal.Frame
import proofs.«141810_j30580167147721_2_alg».proof.Proof.RefReadP
import proofs.«141810_j30580167147721_2_alg».proof.Proof.RefCells
import proofs.«141810_j30580167147721_2_alg».proof.Proof.DecodeRegion
import proofs.«141810_j30580167147721_2_alg».proof.Proof.RnnRegion
import proofs.«141810_j30580167147721_2_alg».proof.Proof.CellsAgree
import proofs.«141810_j30580167147721_2_alg».proof.Proof.HostLayout
import proofs.«141810_j30580167147721_2_alg».proof.Proof.HostEntry
import proofs.«141810_j30580167147721_2_alg».proof.Proof.HostGather
import proofs.«141810_j30580167147721_2_alg».proof.Proof.HostWalk
import Idealize.ShloMosaic.Lib.Pipeline.Value
import Idealize.ShloMosaic.Lib.ValueIdx

noncomputable section

namespace Cert.KernelIdeal.Results

open Cert.KernelIdeal Cert.KernelIdeal.Gen
open Idealize.ShloMosaic Idealize.ShloMosaic.TcCoe Idealize.SL.Sem Idealize.ShloMosaic.StableHlo
open Idealize.ShloMosaic.ValueIdx
open Cert.ReferenceIdeal Cert.KernelIdeal.HostEntry Cert.KernelIdeal.HostWalk Cert.KernelIdeal.HostLayout
open scoped BigOperators

variable (m : (ℓ : Loc nD τ sig) → Buf (Elt Ideal) ℓ) (ρ : Dev nD → PrngReg) (c : Dev nD)

/-- The kernel's and the reference's embedding rows of the first time step agree. -/
theorem hx0 : X0Agree m c := HostGather.x0_agree (A0 m c) (A2 m c)

/-! ## The decode's operands -/

/-- The padded decode matrix at a column of the vocabulary is the decode matrix, transposed. -/
theorem decW_apply (k : Fin 1024) (v : Fin 10000) :
    DecodeRegion.decW (V7 m ρ) c (ix2 k (upv v)) = (A9 m c : S10000x1024.Idx → EReal) (ix2 v k) := by
  show (V7 m ρ c main_v116 : S1024x10240.Idx → EReal) (ix2 k (upv v)) = _
  rw [V7_v116 m ρ c]
  refine (pad_matrix_apply _ _ _ _ k v).trans ?_
  rw [truncf_apply]
  exact transpose_10_apply _ _ k v

/-- The padded bias row at a column of the vocabulary is the decode bias. -/
theorem decB_apply (v : Fin 10000) :
    DecodeRegion.decB (V7 m ρ) c (ix2 (0 : Fin 1) (upv v)) = (A10 m c : S10000.Idx → EReal) (ix1 v) := by
  show (V7 m ρ c main_v118 : S1x10240.Idx → EReal) (ix2 (0 : Fin 1) (upv v)) = _
  rw [V7_v118 m ρ c]
  exact pad_bias_row_apply _ _ _ _ _ (0 : Fin 1) v

/-- The decode's activations at the first time step are the reference's final activations of that step. -/
theorem actIn_zero (b : Fin 64) (k : Fin 1024) :
    DecodeRegion.actIn (V7 m ρ) c (ix3 (0 : Fin 128) b k)
      = ReadP.val_main_v72 (F := Ideal) (A0 m c) (A1 m c) (A2 m c) (A3 m c) (A4 m c) (A5 m c) (A6 m c) (A7 m c) (A8 m c) (ix2 b k) := by
  show (V7 m ρ c main_v113 : S128x64x1024.Idx → EReal) (ix3 (0 : Fin 128) b k) = _
  rw [V7_v113 m ρ c]
  refine (decode_input_apply_zero _ _ _ _ _ b k).trans ?_
  rw [W1_v73 m ρ c (hx0 m c)]
  rfl

/-- The decode's activations at a later time step are the reference's layer-1 output row of that step. -/
theorem actIn_succ (t' : Fin 127) (b : Fin 64) (k : Fin 1024) :
    DecodeRegion.actIn (V7 m ρ) c (ix3 (nx t') b k) = RefCells.rX2 (A0 m c) (A1 m c) (A2 m c) (A3 m c) (A4 m c) (A5 m c) (A6 m c) (A7 m c) (A8 m c) t' b k := by
  show (V7 m ρ c main_v113 : S128x64x1024.Idx → EReal) (ix3 (nx t') b k) = _
  rw [V7_v113 m ρ c]
  refine (decode_input_apply_succ _ _ _ _ _ t' b k).trans ?_
  refine (RnnRegion.rnn_x (V1 m ρ) c (up t') b k).trans ?_
  exact congrFun (CellsAgree.cells_x m ρ c (hx0 m c) t' b) k

/-! ## The logits -/

/-- The kernel's logits are the reference's. -/
theorem res0 : W9 m ρ c (Proc.devRef .tc main_v120) = ReadP.val_main_v144 (F := Ideal) (A0 m c) (A1 m c) (A2 m c) (A3 m c) (A4 m c) (A5 m c) (A6 m c) (A7 m c) (A8 m c) (A9 m c) (A10 m c) := by
  rw [W9_v120 m ρ c]
  funext i
  obtain ⟨t, b, v, rfl⟩ : ∃ (t : Fin 128) (b : Fin 64) (v : Fin 10000), i = ix3 t b v := ⟨i 0, i 1, i 2, eq_ix3 i⟩
  refine (logits_slice_apply _ _ t b v).trans ?_
  refine (DecodeRegion.decode_arr (V7 m ρ) c t b (upv v)).trans ?_
  by_cases ht : t.val = 0
  · obtain rfl : t = (0 : Fin 128) := Fin.ext ht
    rw [RefCells.ref_v144_zero, RefCells.ref_v77]
    exact congrArg₂ (· + ·) (Finset.sum_congr rfl fun k _ => congrArg₂ (· * ·) (actIn_zero m ρ c b k) (decW_apply m ρ c k v))
      (decB_apply m ρ c v)
  · obtain ⟨t', rfl⟩ : ∃ t' : Fin 127, t = nx t' :=
      ⟨⟨t.val - 1, by have := t.isLt; omega⟩, Fin.ext (by show t.val = t.val - 1 + 1; omega)⟩
    have hs : ReadP.val_main_v144 (F := Ideal) (A0 m c) (A1 m c) (A2 m c) (A3 m c) (A4 m c) (A5 m c) (A6 m c) (A7 m c) (A8 m c) (A9 m c) (A10 m c) (ix3 (nx t') b v)
        = ReadP.val_main_v142 (F := Ideal) (A0 m c) (A1 m c) (A2 m c) (A3 m c) (A4 m c) (A5 m c) (A6 m c) (A7 m c) (A8 m c) (A9 m c) (A10 m c) (ix3 t' b v) :=
      RefCells.ref_v144_succ (A0 m c) (A1 m c) (A2 m c) (A3 m c) (A4 m c) (A5 m c) (A6 m c) (A7 m c) (A8 m c) (A9 m c) (A10 m c) t' b v
    rw [hs, RefCells.ref_v142]
    exact congrArg₂ (· + ·) (Finset.sum_congr rfl fun k _ => congrArg₂ (· * ·) (actIn_succ m ρ c t' b k) (decW_apply m ρ c k v))
      (decB_apply m ρ c v)

/-! ## The hidden states -/

/-- The first region's hidden states of the first 127 time steps are the reference's later time steps' hidden rows. -/
theorem states_eq :
    extractStridedSlice S127x2x64x1024 ![0, 0, 0, 0] (hArr m ρ c) slices_S128x2x64x1024_S127x2x64x1024_0_0_0_0
      = ReadP.val_main_v152 (F := Ideal) (A0 m c) (A1 m c) (A2 m c) (A3 m c) (A4 m c) (A5 m c) (A6 m c) (A7 m c) (A8 m c) := by
  funext i
  obtain ⟨t', l, b, h, rfl⟩ : ∃ (t' : Fin 127) (l : Fin 2) (b : Fin 64) (h : Fin 1024), i = ix4 t' l b h :=
    ⟨i 0, i 1, i 2, i 3, eq_ix4 i⟩
  refine (states_slice_apply _ _ t' l b h).trans ?_
  match l with
  | ⟨0, _⟩ =>
    refine (RnnRegion.rnn_h0 (V1 m ρ) c (up t') b h).trans ?_
    refine (congrFun (CellsAgree.cells_h0 m ρ c (hx0 m c) t' b) h).trans ?_
    exact ((RefCells.ref_v152_zero (A0 m c) (A1 m c) (A2 m c) (A3 m c) (A4 m c) (A5 m c) (A6 m c) (A7 m c) (A8 m c) t' b h).trans (RefCells.ref_v99 (A0 m c) (A1 m c) (A2 m c) (A3 m c) (A4 m c) (A5 m c) (A6 m c) t' b h)).symm
  | ⟨1, _⟩ =>
    refine (RnnRegion.rnn_h1 (V1 m ρ) c (up t') b h).trans ?_
    refine (congrFun (CellsAgree.cells_h1 m ρ c (hx0 m c) t' b) h).trans ?_
    exact ((RefCells.ref_v152_one (A0 m c) (A1 m c) (A2 m c) (A3 m c) (A4 m c) (A5 m c) (A6 m c) (A7 m c) (A8 m c) t' b h).trans (RefCells.ref_v129 (A0 m c) (A1 m c) (A2 m c) (A3 m c) (A4 m c) (A5 m c) (A6 m c) (A7 m c) (A8 m c) t' b h)).symm

/-- The kernel's hidden states are the reference's. -/
theorem res1 : W9 m ρ c (Proc.devRef .tc main_v127) = ReadP.val_main_v154 (F := Ideal) (A0 m c) (A1 m c) (A2 m c) (A3 m c) (A4 m c) (A5 m c) (A6 m c) (A7 m c) (A8 m c) := by
  rw [W9_v127 m ρ c, W1_v30 m ρ c (hx0 m c), W1_v62 m ρ c (hx0 m c), states_eq m ρ c]
  rfl

end Cert.KernelIdeal.Results

end
-- ==== Proof.lean ====
/-
  The certificate of a two-layer recurrent decoder: a Pallas kernel against its jnp reference, as extended reals.

  THE TWO PROGRAMS. Both embed 128 x 64 token ids, run timestep 0 through two cells with the true recurrence, and then run
  timesteps 1 … 127 through the same two cells with the recurrent term FROZEN at timestep 0's hidden rows
  (`aU_l = h⁰_l · Uw_lᵀ + Ub_l`), so that those 127 timesteps are independent rows:
      h_l = tanh ((x_l · Ww_lᵀ + Wb_l) + aU_l),      x_{l+1} = tanh (h_l · Fw_lᵀ + Fb_l),      logits = x_2 · Dwᵀ + Db.
  The reference does this with three-axis contractions over all 127 timesteps at once. The kernel computes timestep 0 on the
  host, by the reference's own operations; a first pipelined region runs both cells on blocks of 8 timesteps (the embeddings
  shifted by one timestep and padded with a zero block that is cut off again, the weights transposed and narrowed beforehand), a
  second region multiplies the activations of all 128 timesteps by the decode matrix, padded from 10000 to 10240 columns in
  tiles of 2048, and the padding is cut off the result.

  WHY THEY AGREE. At the ideal instance a change of float format is the identity and a matrix product into a zero accumulator is
  a plain finite sum, so both programs compute, for every timestep `t ≥ 1`, row `b` and coordinate, literally the same nested
  expression `cellX (cellH …)` of Spec.lean over the same entries of the arguments: transposing a weight matrix beforehand only
  renames the summation index's place, the tiling only decides which grid point writes an entry, and padding adds columns nobody
  reads. No law beyond this reading is used — no distributivity, no cancellation — and so the precondition (finite inputs) is
  never opened. Timestep 0's values are not opened either: the two programs apply the same operations to embedding rows that are
  equal (the kernel gathers the 64 rows of the first input row, the reference gathers all rows and keeps the first 64).

  THE MODULES. KernelRun: the kernel's run with its results named. HostEntry / HostWalk: the kernel's host operations read as
  values. RnnBody / RnnRegion and DecodeRegion: the two regions' output arrays at an index. HostLayout / HostGather: slices,
  concatenations, transposes, pads and the gather at an index. RefCells: the reference's batched stages at an index. CellsAgree:
  the cells' operands agree. Results: the kernel's two results are the reference's two result stages. RefRunP / RefReadP: the
  reference's run and its stages, one operation at a time.
-/
import proofs.«141810_j30580167147721_2_alg».proof.Defs
import proofs.«141810_j30580167147721_2_alg».proof.Proof.Gen.Kernel
import proofs.«141810_j30580167147721_2_alg».proof.Proof.Gen.Kernel.Frame
import proofs.«141810_j30580167147721_2_alg».proof.Proof.Gen.KernelIdeal
import proofs.«141810_j30580167147721_2_alg».proof.Proof.Gen.KernelIdeal.Frame
import proofs.«141810_j30580167147721_2_alg».proof.Proof.Gen.ReferenceIdeal
import proofs.«141810_j30580167147721_2_alg».proof.Proof.Gen.Pre_finite_inputs
import proofs.«141810_j30580167147721_2_alg».proof.Proof.RefRunP
import proofs.«141810_j30580167147721_2_alg».proof.Proof.RefReadP
import proofs.«141810_j30580167147721_2_alg».proof.Proof.KernelRun
import proofs.«141810_j30580167147721_2_alg».proof.Proof.Results
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs and leaves its arguments alone. -/
theorem frame_k [Cert.Kernel.Facts] [Cert.Pre_finite_inputs.Facts] : Cert.frame_Kernel :=
  fun m ρ _ => Cert.Kernel.Gen.frame m ρ

/-- So does the idealized kernel. -/
theorem frame_ki [Cert.KernelIdeal.Facts] [Cert.Pre_finite_inputs.Facts] : Cert.frame_KernelIdeal :=
  fun m ρ _ => Cert.KernelIdeal.Gen.frame m ρ

/-- The reference is host operations only: its run, with the two results forgotten. -/
theorem frame_ri [Cert.ReferenceIdeal.Facts] [Cert.Pre_finite_inputs.Facts] : Cert.frame_ReferenceIdeal :=
  fun m ρ _ => (θ_run Cert.ReferenceIdeal.defs _ _).mono (fun _ h c => (h c).2.2)
    (Cert.ReferenceIdeal.ValueP.run (F := Ideal) m ρ)

/-- Both programs end with the reference's two result stages of the (shared) arguments: the kernel by `Results.res0` /
    `res1` on top of its run, the reference by its run read one operation at a time. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.ReferenceIdeal.ReadP.val_main_v144 (F := Ideal) (Cert.KernelIdeal.HostEntry.A0 m c) (Cert.KernelIdeal.HostEntry.A1 m c) (Cert.KernelIdeal.HostEntry.A2 m c) (Cert.KernelIdeal.HostEntry.A3 m c) (Cert.KernelIdeal.HostEntry.A4 m c) (Cert.KernelIdeal.HostEntry.A5 m c) (Cert.KernelIdeal.HostEntry.A6 m c) (Cert.KernelIdeal.HostEntry.A7 m c) (Cert.KernelIdeal.HostEntry.A8 m c) (Cert.KernelIdeal.HostEntry.A9 m c) (Cert.KernelIdeal.HostEntry.A10 m c),
    fun c => Cert.ReferenceIdeal.ReadP.val_main_v154 (F := Ideal) (Cert.KernelIdeal.HostEntry.A0 m c) (Cert.KernelIdeal.HostEntry.A1 m c) (Cert.KernelIdeal.HostEntry.A2 m c) (Cert.KernelIdeal.HostEntry.A3 m c) (Cert.KernelIdeal.HostEntry.A4 m c) (Cert.KernelIdeal.HostEntry.A5 m c) (Cert.KernelIdeal.HostEntry.A6 m c) (Cert.KernelIdeal.HostEntry.A7 m c) (Cert.KernelIdeal.HostEntry.A8 m c), ?_, ?_⟩
  · refine (θ_run Cert.KernelIdeal.defs _ _).mono (fun r h c => ?_) (Cert.KernelIdeal.KRun.run (F := Ideal) m ρ)
    obtain ⟨h0, h1, hargs⟩ := h c
    exact ⟨h0.trans (Cert.KernelIdeal.Results.res0 m ρ c), h1.trans (Cert.KernelIdeal.Results.res1 m ρ c), hargs⟩
  · refine (θ_run Cert.ReferenceIdeal.defs _ _).mono (fun r h c => ?_) (Cert.ReferenceIdeal.ValueP.run (F := Ideal) m' ρ')
    obtain ⟨h0, h1, hargs⟩ := h c
    obtain ⟨e0, e1, e2, e3, e4, e5, e6, e7, e8, e9, e10⟩ := hagree c
    refine ⟨h0.trans ?_, h1.trans ?_, hargs⟩
    · rw [Cert.ReferenceIdeal.ReadP.val_main_v144_eq, e0, e1, e2, e3, e4, e5, e6, e7, e8, e9, e10]
    · rw [Cert.ReferenceIdeal.ReadP.val_main_v154_eq, e0, e1, e2, e3, e4, e5, e6, e7, e8]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
